-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4x4096x8 : Shape := ⟨3, ![4, 4096, 8]⟩
abbrev S4096x4096 : Shape := ⟨2, ![4096, 4096]⟩
abbrev S4096 : Shape := ⟨1, ![4096]⟩
abbrev S4096x8 : Shape := ⟨2, ![4096, 8]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4x4096x8 : S_.BroadcastsInDim S4x4096x8 (![] : Fin 0 → Fin S4x4096x8.rank)
  reducesTo_S4x4096x8_S_d0_1_2 : S4x4096x8.ReducesTo [0, 1, 2] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg4 : FVec F S4096x8 .f32) (main_arg5 : FVec F S4096x8 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x8 .f32 := Host.absf main_arg4
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  let main_v24 : FVec F S4096x8 .f32 := Host.absf main_arg5
  let main_cst_8 : FVec F S_ .f32 := constant S_ .f32 0x7F800000#32
  let main_v25 : FVec F S4096x8 .f32 := broadcastInDim S4096x8 ![] bcast_S_S4096x8 main_cst_8
  let main_v26 : IVec S4096x8 1 := cmpf .olt main_v24 main_v25
  let main_c_9 : IVec S_ 1 := constantI S_ 1 1#1
  let main_v27 : IVec S_ 1 := (fun x v => Host.reduce IntOp.andi x v reducesTo_S4096x8_S_d0_1 h_S_) main_v26 main_c_9
  let main_v28 : IVec S_ 1 := andi main_v23 main_v27
  main_v28

def fn {F : FTy → Type} [FloatOps F] (main_arg0 : FVec F S4x4096x4096 .f32) (main_arg1 : FVec F S4x4096x8 .f32) (main_arg2 : FVec F S4096x4096 .f32) (main_arg3 : FVec F S4096 .f32) (main_arg4 : FVec F S4096x8 .f32) (main_arg5 : FVec F S4096x8 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4x4096x8 .f32 := Host.absf main_arg1
  let main_cst_0 : FVec F S_ .f32 := constant S_ .f32 0x7F800000#32
  let main_v5 : FVec F S4x4096x8 .f32 := broadcastInDim S4x4096x8 ![] bcast_S_S4x4096x8 main_cst_0
  let main_v6 : IVec S4x4096x8 1 := cmpf .olt main_v4 main_v5
  let main_c_1 : IVec S_ 1 := constantI S_ 1 1#1
  let main_v7 : IVec S_ 1 := (fun x v => Host.reduce IntOp.andi x v reducesTo_S4x4096x8_S_d0_1_2 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S4x4096x4096 : Shape := ⟨3, ![4, 4096, 4096]⟩
abbrev S4x4096x8 : Shape := ⟨3, ![4, 4096, 8]⟩
abbrev S4096x4096 : Shape := ⟨2, ![4096, 4096]⟩
abbrev S4096 : Shape := ⟨1, ![4096]⟩
abbrev S4096x8 : Shape := ⟨2, ![4096, 8]⟩
abbrev S16384x4096 : Shape := ⟨2, ![16384, 4096]⟩
abbrev S16384x8 : Shape := ⟨2, ![16384, 8]⟩
abbrev S1x4096 : Shape := ⟨2, ![1, 4096]⟩
abbrev S2048x512 : Shape := ⟨2, ![2048, 512]⟩
abbrev S2048x8 : Shape := ⟨2, ![2048, 8]⟩
abbrev S512x512 : Shape := ⟨2, ![512, 512]⟩
abbrev S1x512 : Shape := ⟨2, ![1, 512]⟩
abbrev S512x8 : Shape := ⟨2, ![512, 8]⟩

abbrev nBuf : Space → Nat
  | .hbm => 15
  | .vmem => 15
  | .smem => 0
  | _ => 0

abbrev bufTy : (tb : Table) → Fin (tcTables nBuf tb) → BufTy
  | .hbm, ⟨0, _⟩ => ⟨S4x4096x4096, .f32⟩
  | .hbm, ⟨1, _⟩ => ⟨S4x4096x8, .f32⟩
  | .hbm, ⟨2, _⟩ => ⟨S4096x4096, .f32⟩
  | .hbm, ⟨3, _⟩ => ⟨S4096, .f32⟩
  | .hbm, ⟨4, _⟩ => ⟨S4096x8, .f32⟩
  | .hbm, ⟨5, _⟩ => ⟨S4096x8, .f32⟩
  | .hbm, ⟨6, _⟩ => ⟨S16384x4096, .f32⟩
  | .hbm, ⟨7, _⟩ => ⟨S16384x4096, .bf16⟩
  | .hbm, ⟨8, _⟩ => ⟨S16384x8, .f32⟩
  | .hbm, ⟨9, _⟩ => ⟨S4096x4096, .bf16⟩
  | .hbm, ⟨10, _⟩ => ⟨S4096x8, .bf16⟩
  | .hbm, ⟨11, _⟩ => ⟨S4096x8, .bf16⟩
  | .hbm, ⟨12, _⟩ => ⟨S1x4096, .f32⟩
  | .hbm, ⟨13, _⟩ => ⟨S16384x4096, .f32⟩
  | .hbm, ⟨14, _⟩ => ⟨S4x4096x4096, .f32⟩
  | .local _ .vmem, ⟨0, _⟩ => ⟨S2048x512, .bf16⟩
  | .local _ .vmem, ⟨1, _⟩ => ⟨S2048x512, .bf16⟩
  | .local _ .vmem, ⟨2, _⟩ => ⟨S2048x8, .f32⟩
  | .local _ .vmem, ⟨3, _⟩ => ⟨S2048x8, .f32⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S512x8, .bf16⟩
  | .local _ .vmem, ⟨9, _⟩ => ⟨S512x8, .bf16⟩
  | .local _ .vmem, ⟨10, _⟩ => ⟨S512x8, .bf16⟩
  | .local _ .vmem, ⟨11, _⟩ => ⟨S512x8, .bf16⟩
  | .local _ .vmem, ⟨12, _⟩ => ⟨S2048x512, .f32⟩
  | .local _ .vmem, ⟨13, _⟩ => ⟨S2048x512, .f32⟩
  | .local _ .vmem, ⟨14, _⟩ => ⟨S2048x8, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x8 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x8 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S4x4096x4096_S16384x4096 : S4x4096x4096.ShapeCasts S16384x4096
  bitsLt_bf16_f32 : FTy.bits .bf16 < FTy.bits .f32
  shapeCasts_S4x4096x8_S16384x8 : S4x4096x8.ShapeCasts S16384x8
  shapeCasts_S4096_S1x4096 : S4096.ShapeCasts S1x4096
  inb_S2048x512_S2048x512_0_0 : ∀ a, (![0, 0] : Fin 2 → Nat) a + S2048x512.size a ≤ S2048x512.size a
  h_S2048x512 : 0 < S2048x512.numel
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S16384x4096_S4x4096x4096 : S16384x4096.ShapeCasts S4x4096x4096
  dot_S2048x512_S512x512_S2048x512_1_1_0_0_n_n_wf : DotDims.WF S2048x512 S512x512 S2048x512 [1] [1] [0] [0] [] []
  dot_S2048x512_S512x8_S2048x8_1_0_0_1_n_n_wf : DotDims.WF S2048x512 S512x8 S2048x8 [1] [0] [0] [1] [] []
  dot_S2048x8_S512x8_S2048x512_1_1_0_0_n_n_wf : DotDims.WF S2048x8 S512x8 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x4096.size a
  hwx0_0 : ∀ i : grid0.Coords, EltTy.bits .bf16 = 32 ∨ (Rect.block (s := S16384x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x8.size a ≤ S16384x8.size a
  hwx0_1 : ∀ i : grid0.Coords, EltTy.bits .f32 = 32 ∨ (Rect.block (s := S16384x8) S2048x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .bf16 = 32 ∨ (Rect.block (s := S4096x4096) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x8.size a ≤ S4096x8.size a
  hwx0_4 : ∀ i : grid0.Coords, EltTy.bits .bf16 = 32 ∨ (Rect.block (s := S4096x8) S512x8.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x8.size a ≤ S4096x8.size a
  hwx0_5 : ∀ i : grid0.Coords, EltTy.bits .bf16 = 32 ∨ (Rect.block (s := S4096x8) S512x8.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S16384x4096.size a
  hwx0_6 : ∀ i : grid0.Coords, EltTy.bits .f32 = 32 ∨ (Rect.block (s := S16384x4096) S2048x512.size (cc0_transform_6 i) (hinb0_6 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S2048x512_S512x8_S2048x8_1_0_0_1_n_n : DotDims S2048x512 S512x8 S2048x8 where
  lhsContracting := [1]
  rhsContracting := [0]
  lhsNonContracting := [0]
  rhsNonContracting := [1]
  lhsBatch := []
  rhsBatch := []
  wf := dot_S2048x512_S512x8_S2048x8_1_0_0_1_n_n_wf
def dot_S2048x8_S512x8_S2048x512_1_1_0_0_n_n : DotDims S2048x8 S512x8 S2048x512 where
  lhsContracting := [1]
  rhsContracting := [1]
  lhsNonContracting := [0]
  rhsNonContracting := [0]
  lhsBatch := []
  rhsBatch := []
  wf := dot_S2048x8_S512x8_S2048x512_1_1_0_0_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x8.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S2048x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4x4096x8 : Shape := ⟨3, ![4, 4096, 8]⟩
abbrev S4096x4096 : Shape := ⟨2, ![4096, 4096]⟩
abbrev S4096 : Shape := ⟨1, ![4096]⟩
abbrev S4096x8 : Shape := ⟨2, ![4096, 8]⟩
abbrev S1x1x4096 : Shape := ⟨3, ![1, 1, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x8, .f32⟩
  | .hbm, ⟨2, _⟩ => ⟨S4096x4096, .f32⟩
  | .hbm, ⟨3, _⟩ => ⟨S4096, .f32⟩
  | .hbm, ⟨4, _⟩ => ⟨S4096x8, .f32⟩
  | .hbm, ⟨5, _⟩ => ⟨S4096x8, .f32⟩
  | .hbm, ⟨6, _⟩ => ⟨S4x4096x4096, .f32⟩
  | .hbm, ⟨7, _⟩ => ⟨S1x1x4096, .f32⟩
  | .hbm, ⟨8, _⟩ => ⟨S4x4096x4096, .f32⟩
  | .hbm, ⟨9, _⟩ => ⟨S4x4096x4096, .f32⟩
  | .hbm, ⟨10, _⟩ => ⟨S4x4096x8, .f32⟩
  | .hbm, ⟨11, _⟩ => ⟨S4x4096x8, .f32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S4096x8_S4x4096x8_2_0_01_1_n_n_wf : DotDims.WF S4x4096x4096 S4096x8 S4x4096x8 [2] [0] [0, 1] [1] [] []
  dot_S4x4096x8_S4096x8_S4x4096x4096_2_1_01_0_n_n_wf : DotDims.WF S4x4096x8 S4096x8 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S4096x8_S4x4096x8_2_0_01_1_n_n : DotDims S4x4096x4096 S4096x8 S4x4096x8 where
  lhsContracting := [2]
  rhsContracting := [0]
  lhsNonContracting := [0, 1]
  rhsNonContracting := [1]
  lhsBatch := []
  rhsBatch := []
  wf := dot_S4x4096x4096_S4096x8_S4x4096x8_2_0_01_1_n_n_wf
def dot_S4x4096x8_S4096x8_S4x4096x4096_2_1_01_0_n_n : DotDims S4x4096x8 S4096x8 S4x4096x4096 where
  lhsContracting := [2]
  rhsContracting := [1]
  lhsNonContracting := [0, 1]
  rhsNonContracting := [0]
  lhsBatch := []
  rhsBatch := []
  wf := dot_S4x4096x8_S4096x8_S4x4096x4096_2_1_01_0_n_n_wf

class Facts : Prop extends Facts₀ where

variable [Facts]
-- ==== Proof.K_Shared.lean ====
/-
  The grid of the one kernel call is 8 x 8 x 8, points t = 64 i + 8 j + k: i names a band of 2048 rows, j a band of
  512 output channels, k a band of 512 input channels. The body branches five times on the point's coordinates:
  on k = 0 (the output block is cleared), on j = 0 and k = 0 (the hidden block is cleared), on j = 0 (the hidden
  block takes one more band of x V), on j = 0 and k = 7 (the hidden block is gated by codes), on k = 7 (the
  low-rank product, its scale and the bias are added to the output block). Here: the five conditions as the body
  spells them, each decided over the 512 points in closed form, and the memrefs the body is run on.
-/
import proofs.«141770_j57226144252251_2_alg».proof.Proof.Gen.Kernel.Frame
import proofs.«141770_j57226144252251_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The five conditions -/

/-- k = 0. -/
abbrev condK0 (i : grid0.Coords) : Prop :=
  Scalar.cmpi .ne (Scalar.extui (Scalar.cmpi .eq (BitVec.ofNat 32 (i 2).val) 0#32)) 0#32 = 1#1
/-- j = 0 and k = 0. -/
abbrev condJK0 (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
/-- j = 0. -/
abbrev condJ0 (i : grid0.Coords) : Prop :=
  Scalar.cmpi .ne (Scalar.extui (Scalar.cmpi .eq (BitVec.ofNat 32 (i 1).val) 0#32)) 0#32 = 1#1
/-- j = 0 and k = 7. -/
abbrev condJK7 (i : grid0.Coords) : Prop :=
  Scalar.cmpi .ne (Scalar.extui (Scalar.andi (Scalar.cmpi .eq (BitVec.ofNat 32 (i 1).val) 0#32) (Scalar.cmpi .eq (BitVec.ofNat 32 (i 2).val) 7#32))) 0#32 = 1#1
/-- k = 7. -/
abbrev condK7 (i : grid0.Coords) : Prop :=
  Scalar.cmpi .ne (Scalar.extui (Scalar.cmpi .eq (BitVec.ofNat 32 (i 2).val) 7#32)) 0#32 = 1#1

theorem hcondK0 : ∀ t : Fin cfg0.N, condK0 (grid0.coords t) ↔ t.val % 8 = 0 :=
  (by decide +kernel : ∀ t : Fin grid0.N, condK0 (grid0.coords t) ↔ t.val % 8 = 0)
theorem hcondJK0 : ∀ t : Fin cfg0.N, condJK0 (grid0.coords t) ↔ t.val % 64 = 0 :=
  (by decide +kernel : ∀ t : Fin grid0.N, condJK0 (grid0.coords t) ↔ t.val % 64 = 0)
theorem hcondJ0 : ∀ t : Fin cfg0.N, condJ0 (grid0.coords t) ↔ t.val % 64 < 8 :=
  (by decide +kernel : ∀ t : Fin grid0.N, condJ0 (grid0.coords t) ↔ t.val % 64 < 8)
theorem hcondJK7 : ∀ t : Fin cfg0.N, condJK7 (grid0.coords t) ↔ t.val % 64 = 7 :=
  (by decide +kernel : ∀ t : Fin grid0.N, condJK7 (grid0.coords t) ↔ t.val % 64 = 7)
theorem hcondK7 : ∀ t : Fin cfg0.N, condK7 (grid0.coords t) ↔ t.val % 8 = 7 :=
  (by decide +kernel : ∀ t : Fin grid0.N, condK7 (grid0.coords t) ↔ t.val % 8 = 7)

/-! ## The memrefs the body runs on -/

/-- One staging buffer of the output window, through which its contents are stated. -/
abbrev VO6 : View sig .tc .vmem S2048x512 .f32 := (Memref.whole cc0_stg6_0 : Memref sig .tc .vmem S2048x512 .f32).view
/-- Each window's current staging memref at point t, as the pipeline passes it, and its wholeness. -/
abbrev ms0 (t : Fin cfg0.N) : Memref sig .tc .vmem S2048x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x8 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x8 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x8 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x512 .f32 := win0_6.stage (cfg0.slots t 6)
abbrev hs6 (t : Fin cfg0.N) : (ms6 t).IsWhole := hstage0_6 ((cfg0.slots t 6).cast nbuf0_6)
/-- The hidden block's buffer: a whole buffer of the kernel's own, kept from point to point. -/
abbrev scM : Memref sig .tc .vmem S2048x8 .f32 := Memref.whole cc0_scratch0
abbrev VS : View sig .tc .vmem S2048x8 .f32 := scM.view

/-- The region's invariant before the first point: the hidden block's buffer owned at some contents, and the
    generator register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.K_RunA.lean ====
/-
  The body at a point with j = 0, k = 0: both blocks are cleared, then each takes its first band.
  Run on whole memrefs at named contents, it ends with the six input blocks as they were and the output block
  (and, where it is stored, the hidden block) holding the values its stores wrote, as a list of pieces.
-/
import proofs.«141770_j57226144252251_2_alg».proof.Proof.K_Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave, as pieces (last first), with the proof that the body runs to its continuation. -/
noncomputable def kernelRunA (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : condK0 i) (hc2 : condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) :
    Σ' (L6 : List (View.Piece (Elt F) S2048x512 .f32)), { LS0 : List (View.Piece (Elt F) S2048x8 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    iexists _; iexact HS

end Cert.Kernel.Body

end
-- ==== Proof.K_RunB.lean ====
/-
  The body at a point with j = 0, 0 < k < 7: each block takes one more band.
  Run on whole memrefs at named contents, it ends with the six input blocks as they were and the output block
  (and, where it is stored, the hidden block) holding the values its stores wrote, as a list of pieces.
-/
import proofs.«141770_j57226144252251_2_alg».proof.Proof.K_Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave, as pieces (last first), with the proof that the body runs to its continuation. -/
noncomputable def kernelRunB (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) :
    Σ' (L6 : List (View.Piece (Elt F) S2048x512 .f32)), { LS0 : List (View.Piece (Elt F) S2048x8 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    iexists _; iexact HS

end Cert.Kernel.Body

end
-- ==== Proof.K_RunC.lean ====
/-
  The body at a point with j = 0, k = 7: the last bands, the gate, then the low-rank product, scale and bias.
  Run on whole memrefs at named contents, it ends with the six input blocks as they were and the output block
  (and, where it is stored, the hidden block) holding the values its stores wrote, as a list of pieces.
-/
import proofs.«141770_j57226144252251_2_alg».proof.Proof.K_Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave, as pieces (last first), with the proof that the body runs to its continuation. -/
noncomputable def kernelRunC (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : condJK7 i) (hc5 : condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) :
    Σ' (L6 : List (View.Piece (Elt F) S2048x512 .f32)), { LS0 : List (View.Piece (Elt F) S2048x8 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    iexists _; iexact HS

end Cert.Kernel.Body

end
-- ==== Proof.K_RunD.lean ====
/-
  The body at a point with j > 0, k = 0: the output block is cleared and takes its first band; the hidden block is left alone.
  Run on whole memrefs at named contents, it ends with the six input blocks as they were and the output block
  (and, where it is stored, the hidden block) holding the values its stores wrote, as a list of pieces.
-/
import proofs.«141770_j57226144252251_2_alg».proof.Proof.K_Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave, as pieces (last first), with the proof that the body runs to its continuation. -/
noncomputable def kernelRunD (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : condK0 i) (hc2 : ¬condJK0 i) (hc3 : ¬condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xs0 : Vec F S2048x8 .f32) :
    { L6 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xs0) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    iexists _; isplitr; · ipureintro; exact harg10.read_unread _
    iexact HS

end Cert.Kernel.Body

end
-- ==== Proof.K_RunE.lean ====
/-
  The body at a point with j > 0, 0 < k < 7: the output block takes one more band; the hidden block is left alone.
  Run on whole memrefs at named contents, it ends with the six input blocks as they were and the output block
  (and, where it is stored, the hidden block) holding the values its stores wrote, as a list of pieces.
-/
import proofs.«141770_j57226144252251_2_alg».proof.Proof.K_Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave, as pieces (last first), with the proof that the body runs to its continuation. -/
noncomputable def kernelRunE (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : ¬condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) :
    { L6 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xs0) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    iexists _; isplitr; · ipureintro; exact harg10.read_unread _
    iexact HS

end Cert.Kernel.Body

end
-- ==== Proof.K_RunF.lean ====
/-
  The body at a point with j > 0, k = 7: the last band, then the low-rank product of the finished hidden block, scale and bias.
  Run on whole memrefs at named contents, it ends with the six input blocks as they were and the output block
  (and, where it is stored, the hidden block) holding the values its stores wrote, as a list of pieces.
-/
import proofs.«141770_j57226144252251_2_alg».proof.Proof.K_Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave, as pieces (last first), with the proof that the body runs to its continuation. -/
noncomputable def kernelRunF (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : ¬condJ0 i) (hc4 : ¬condJK7 i) (hc5 : condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) :
    { L6 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xs0) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    iexists _; isplitr; · ipureintro; exact harg10.read_unread _
    iexact HS

end Cert.Kernel.Body

end
-- ==== Proof.K_Frame.lean ====
/-
  The frame of the kernel call: every point's body runs, and the proof data name what it leaves.

  After the body at point t the output block holds, entry by entry, what the case of t (one of six, by j = 0 or not
  and k = 0, k = 7 or neither) wrote into it, read over what the point before left where the case reads the block
  before storing it whole (every point with k > 0); the hidden block's buffer likewise at the points with j = 0,
  and unchanged at the others. The region's invariant tracks the hidden block's contents from point to point; it is
  entered from, and gives back, the plain ownership of that buffer at some contents.
-/
import proofs.«141770_j57226144252251_2_alg».proof.Proof.K_RunA
import proofs.«141770_j57226144252251_2_alg».proof.Proof.K_RunB
import proofs.«141770_j57226144252251_2_alg».proof.Proof.K_RunC
import proofs.«141770_j57226144252251_2_alg».proof.Proof.K_RunD
import proofs.«141770_j57226144252251_2_alg».proof.Proof.K_RunE
import proofs.«141770_j57226144252251_2_alg».proof.Proof.K_RunF

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two blocks -/

/-- The stores of case A into the output block cover it. -/
theorem cover6_A (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : condK0 i) (hc2 : condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (y : S2048x512.Idx) :
    ∃ pc ∈ (kernelRunA c i arg3 harg3 arg4 harg4 arg5 harg5 arg6 harg6 arg7 harg7 arg8 harg8 arg9 harg9 arg10 harg10 hc1 hc2 hc3 hc4 hc5 x0 x1 x2 x3 x4 x5).1, y ∈ pc.1.set :=
  View.cover_of_tiledL (kernelRunA c i arg3 harg3 arg4 harg4 arg5 harg5 arg6 harg6 arg7 harg7 arg8 harg8 arg9 harg9 arg10 harg10 hc1 hc2 hc3 hc4 hc5 x0 x1 x2 x3 x4 x5).1 S2048x512.size (by sl_kernel_rfl) y

/-- What case A leaves in the output block: its pieces read back. -/
def out6_A (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : condK0 i) (hc2 : condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) : Vec F S2048x512 .f32 :=
  VO6.read (Elt F) (VO6.writes (Elt F) VO6.junk (kernelRunA c i arg3 harg3 arg4 harg4 arg5 harg5 arg6 harg6 arg7 harg7 arg8 harg8 arg9 harg9 arg10 harg10 hc1 hc2 hc3 hc4 hc5 x0 x1 x2 x3 x4 x5).1)

/-- The stores of case A into the hidden block cover it. -/
theorem scover_A (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : condK0 i) (hc2 : condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (y : S2048x8.Idx) :
    ∃ pc ∈ (kernelRunA c i arg3 harg3 arg4 harg4 arg5 harg5 arg6 harg6 arg7 harg7 arg8 harg8 arg9 harg9 arg10 harg10 hc1 hc2 hc3 hc4 hc5 x0 x1 x2 x3 x4 x5).2.1, y ∈ pc.1.set :=
  View.cover_of_tiledL (kernelRunA c i arg3 harg3 arg4 harg4 arg5 harg5 arg6 harg6 arg7 harg7 arg8 harg8 arg9 harg9 arg10 harg10 hc1 hc2 hc3 hc4 hc5 x0 x1 x2 x3 x4 x5).2.1 S2048x8.size (by sl_kernel_rfl) y

/-- What case A leaves in the hidden block: its pieces read back. -/
def sout_A (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : condK0 i) (hc2 : condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) : Vec F S2048x8 .f32 :=
  VS.read (Elt F) (VS.writes (Elt F) VS.junk (kernelRunA c i arg3 harg3 arg4 harg4 arg5 harg5 arg6 harg6 arg7 harg7 arg8 harg8 arg9 harg9 arg10 harg10 hc1 hc2 hc3 hc4 hc5 x0 x1 x2 x3 x4 x5).2.1)

/-- The stores of case B into the output block cover it. -/
theorem cover6_B (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) (y : S2048x512.Idx) :
    ∃ pc ∈ (kernelRunB c i arg3 harg3 arg4 harg4 arg5 harg5 arg6 harg6 arg7 harg7 arg8 harg8 arg9 harg9 arg10 harg10 hc1 hc2 hc3 hc4 hc5 x0 x1 x2 x3 x4 x5 xo6 xs0).1, y ∈ pc.1.set :=
  View.cover_of_tiledL (kernelRunB c i arg3 harg3 arg4 harg4 arg5 harg5 arg6 harg6 arg7 harg7 arg8 harg8 arg9 harg9 arg10 harg10 hc1 hc2 hc3 hc4 hc5 x0 x1 x2 x3 x4 x5 xo6 xs0).1 S2048x512.size (by sl_kernel_rfl) y

/-- What case B leaves in the output block: its pieces read back. -/
def out6_B (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) : Vec F S2048x512 .f32 :=
  VO6.read (Elt F) (VO6.writes (Elt F) VO6.junk (kernelRunB c i arg3 harg3 arg4 harg4 arg5 harg5 arg6 harg6 arg7 harg7 arg8 harg8 arg9 harg9 arg10 harg10 hc1 hc2 hc3 hc4 hc5 x0 x1 x2 x3 x4 x5 xo6 xs0).1)

/-- The stores of case B into the hidden block cover it. -/
theorem scover_B (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) (y : S2048x8.Idx) :
    ∃ pc ∈ (kernelRunB c i arg3 harg3 arg4 harg4 arg5 harg5 arg6 harg6 arg7 harg7 arg8 harg8 arg9 harg9 arg10 harg10 hc1 hc2 hc3 hc4 hc5 x0 x1 x2 x3 x4 x5 xo6 xs0).2.1, y ∈ pc.1.set :=
  View.cover_of_tiledL (kernelRunB c i arg3 harg3 arg4 harg4 arg5 harg5 arg6 harg6 arg7 harg7 arg8 harg8 arg9 harg9 arg10 harg10 hc1 hc2 hc3 hc4 hc5 x0 x1 x2 x3 x4 x5 xo6 xs0).2.1 S2048x8.size (by sl_kernel_rfl) y

/-- What case B leaves in the hidden block: its pieces read back. -/
def sout_B (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) : Vec F S2048x8 .f32 :=
  VS.read (Elt F) (VS.writes (Elt F) VS.junk (kernelRunB c i arg3 harg3 arg4 harg4 arg5 harg5 arg6 harg6 arg7 harg7 arg8 harg8 arg9 harg9 arg10 harg10 hc1 hc2 hc3 hc4 hc5 x0 x1 x2 x3 x4 x5 xo6 xs0).2.1)

/-- The stores of case C into the output block cover it. -/
theorem cover6_C (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : condJK7 i) (hc5 : condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) (y : S2048x512.Idx) :
    ∃ pc ∈ (kernelRunC c i arg3 harg3 arg4 harg4 arg5 harg5 arg6 harg6 arg7 harg7 arg8 harg8 arg9 harg9 arg10 harg10 hc1 hc2 hc3 hc4 hc5 x0 x1 x2 x3 x4 x5 xo6 xs0).1, y ∈ pc.1.set :=
  View.cover_of_tiledL (kernelRunC c i arg3 harg3 arg4 harg4 arg5 harg5 arg6 harg6 arg7 harg7 arg8 harg8 arg9 harg9 arg10 harg10 hc1 hc2 hc3 hc4 hc5 x0 x1 x2 x3 x4 x5 xo6 xs0).1 S2048x512.size (by sl_kernel_rfl) y

/-- What case C leaves in the output block: its pieces read back. -/
def out6_C (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : condJK7 i) (hc5 : condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) : Vec F S2048x512 .f32 :=
  VO6.read (Elt F) (VO6.writes (Elt F) VO6.junk (kernelRunC c i arg3 harg3 arg4 harg4 arg5 harg5 arg6 harg6 arg7 harg7 arg8 harg8 arg9 harg9 arg10 harg10 hc1 hc2 hc3 hc4 hc5 x0 x1 x2 x3 x4 x5 xo6 xs0).1)

/-- The stores of case C into the hidden block cover it. -/
theorem scover_C (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : condJK7 i) (hc5 : condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) (y : S2048x8.Idx) :
    ∃ pc ∈ (kernelRunC c i arg3 harg3 arg4 harg4 arg5 harg5 arg6 harg6 arg7 harg7 arg8 harg8 arg9 harg9 arg10 harg10 hc1 hc2 hc3 hc4 hc5 x0 x1 x2 x3 x4 x5 xo6 xs0).2.1, y ∈ pc.1.set :=
  View.cover_of_tiledL (kernelRunC c i arg3 harg3 arg4 harg4 arg5 harg5 arg6 harg6 arg7 harg7 arg8 harg8 arg9 harg9 arg10 harg10 hc1 hc2 hc3 hc4 hc5 x0 x1 x2 x3 x4 x5 xo6 xs0).2.1 S2048x8.size (by sl_kernel_rfl) y

/-- What case C leaves in the hidden block: its pieces read back. -/
def sout_C (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : condJK7 i) (hc5 : condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) : Vec F S2048x8 .f32 :=
  VS.read (Elt F) (VS.writes (Elt F) VS.junk (kernelRunC c i arg3 harg3 arg4 harg4 arg5 harg5 arg6 harg6 arg7 harg7 arg8 harg8 arg9 harg9 arg10 harg10 hc1 hc2 hc3 hc4 hc5 x0 x1 x2 x3 x4 x5 xo6 xs0).2.1)

/-- The stores of case D into the output block cover it. -/
theorem cover6_D (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : condK0 i) (hc2 : ¬condJK0 i) (hc3 : ¬condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xs0 : Vec F S2048x8 .f32) (y : S2048x512.Idx) :
    ∃ pc ∈ (kernelRunD c i arg3 harg3 arg4 harg4 arg5 harg5 arg6 harg6 arg7 harg7 arg8 harg8 arg9 harg9 arg10 harg10 hc1 hc2 hc3 hc4 hc5 x0 x1 x2 x3 x4 x5 xs0).1, y ∈ pc.1.set :=
  View.cover_of_tiledL (kernelRunD c i arg3 harg3 arg4 harg4 arg5 harg5 arg6 harg6 arg7 harg7 arg8 harg8 arg9 harg9 arg10 harg10 hc1 hc2 hc3 hc4 hc5 x0 x1 x2 x3 x4 x5 xs0).1 S2048x512.size (by sl_kernel_rfl) y

/-- What case D leaves in the output block: its pieces read back. -/
def out6_D (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : condK0 i) (hc2 : ¬condJK0 i) (hc3 : ¬condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xs0 : Vec F S2048x8 .f32) : Vec F S2048x512 .f32 :=
  VO6.read (Elt F) (VO6.writes (Elt F) VO6.junk (kernelRunD c i arg3 harg3 arg4 harg4 arg5 harg5 arg6 harg6 arg7 harg7 arg8 harg8 arg9 harg9 arg10 harg10 hc1 hc2 hc3 hc4 hc5 x0 x1 x2 x3 x4 x5 xs0).1)

/-- The stores of case E into the output block cover it. -/
theorem cover6_E (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : ¬condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) (y : S2048x512.Idx) :
    ∃ pc ∈ (kernelRunE c i arg3 harg3 arg4 harg4 arg5 harg5 arg6 harg6 arg7 harg7 arg8 harg8 arg9 harg9 arg10 harg10 hc1 hc2 hc3 hc4 hc5 x0 x1 x2 x3 x4 x5 xo6 xs0).1, y ∈ pc.1.set :=
  View.cover_of_tiledL (kernelRunE c i arg3 harg3 arg4 harg4 arg5 harg5 arg6 harg6 arg7 harg7 arg8 harg8 arg9 harg9 arg10 harg10 hc1 hc2 hc3 hc4 hc5 x0 x1 x2 x3 x4 x5 xo6 xs0).1 S2048x512.size (by sl_kernel_rfl) y

/-- What case E leaves in the output block: its pieces read back. -/
def out6_E (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : ¬condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) : Vec F S2048x512 .f32 :=
  VO6.read (Elt F) (VO6.writes (Elt F) VO6.junk (kernelRunE c i arg3 harg3 arg4 harg4 arg5 harg5 arg6 harg6 arg7 harg7 arg8 harg8 arg9 harg9 arg10 harg10 hc1 hc2 hc3 hc4 hc5 x0 x1 x2 x3 x4 x5 xo6 xs0).1)

/-- The stores of case F into the output block cover it. -/
theorem cover6_F (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : ¬condJ0 i) (hc4 : ¬condJK7 i) (hc5 : condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) (y : S2048x512.Idx) :
    ∃ pc ∈ (kernelRunF c i arg3 harg3 arg4 harg4 arg5 harg5 arg6 harg6 arg7 harg7 arg8 harg8 arg9 harg9 arg10 harg10 hc1 hc2 hc3 hc4 hc5 x0 x1 x2 x3 x4 x5 xo6 xs0).1, y ∈ pc.1.set :=
  View.cover_of_tiledL (kernelRunF c i arg3 harg3 arg4 harg4 arg5 harg5 arg6 harg6 arg7 harg7 arg8 harg8 arg9 harg9 arg10 harg10 hc1 hc2 hc3 hc4 hc5 x0 x1 x2 x3 x4 x5 xo6 xs0).1 S2048x512.size (by sl_kernel_rfl) y

/-- What case F leaves in the output block: its pieces read back. -/
def out6_F (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : ¬condJ0 i) (hc4 : ¬condJK7 i) (hc5 : condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) : Vec F S2048x512 .f32 :=
  VO6.read (Elt F) (VO6.writes (Elt F) VO6.junk (kernelRunF c i arg3 harg3 arg4 harg4 arg5 harg5 arg6 harg6 arg7 harg7 arg8 harg8 arg9 harg9 arg10 harg10 hc1 hc2 hc3 hc4 hc5 x0 x1 x2 x3 x4 x5 xo6 xs0).1)

/-! ## The case of a point, from its number t = 64 i + 8 j + k -/

theorem hypA (t : Fin cfg0.N) (hj : t.val % 64 < 8) (h0 : t.val % 8 = 0) :
    condK0 (grid0.coords t) ∧ condJK0 (grid0.coords t) ∧ condJ0 (grid0.coords t) ∧ ¬condJK7 (grid0.coords t) ∧ ¬condK7 (grid0.coords t) :=
  ⟨(hcondK0 t).mpr (by omega), (hcondJK0 t).mpr (by omega), (hcondJ0 t).mpr (by omega), fun h => by have := (hcondJK7 t).mp h; omega, fun h => by have := (hcondK7 t).mp h; omega⟩

theorem hypB (t : Fin cfg0.N) (hj : t.val % 64 < 8) (h0 : ¬t.val % 8 = 0) (h7 : ¬t.val % 8 = 7) :
    ¬condK0 (grid0.coords t) ∧ ¬condJK0 (grid0.coords t) ∧ condJ0 (grid0.coords t) ∧ ¬condJK7 (grid0.coords t) ∧ ¬condK7 (grid0.coords t) :=
  ⟨fun h => by have := (hcondK0 t).mp h; omega, fun h => by have := (hcondJK0 t).mp h; omega, (hcondJ0 t).mpr (by omega), fun h => by have := (hcondJK7 t).mp h; omega, fun h => by have := (hcondK7 t).mp h; omega⟩

theorem hypC (t : Fin cfg0.N) (hj : t.val % 64 < 8) (h0 : ¬t.val % 8 = 0) (h7 : t.val % 8 = 7) :
    ¬condK0 (grid0.coords t) ∧ ¬condJK0 (grid0.coords t) ∧ condJ0 (grid0.coords t) ∧ condJK7 (grid0.coords t) ∧ condK7 (grid0.coords t) :=
  ⟨fun h => by have := (hcondK0 t).mp h; omega, fun h => by have := (hcondJK0 t).mp h; omega, (hcondJ0 t).mpr (by omega), (hcondJK7 t).mpr (by omega), (hcondK7 t).mpr (by omega)⟩

theorem hypD (t : Fin cfg0.N) (hj : ¬t.val % 64 < 8) (h0 : t.val % 8 = 0) :
    condK0 (grid0.coords t) ∧ ¬condJK0 (grid0.coords t) ∧ ¬condJ0 (grid0.coords t) ∧ ¬condJK7 (grid0.coords t) ∧ ¬condK7 (grid0.coords t) :=
  ⟨(hcondK0 t).mpr (by omega), fun h => by have := (hcondJK0 t).mp h; omega, fun h => by have := (hcondJ0 t).mp h; omega, fun h => by have := (hcondJK7 t).mp h; omega, fun h => by have := (hcondK7 t).mp h; omega⟩

theorem hypE (t : Fin cfg0.N) (hj : ¬t.val % 64 < 8) (h0 : ¬t.val % 8 = 0) (h7 : ¬t.val % 8 = 7) :
    ¬condK0 (grid0.coords t) ∧ ¬condJK0 (grid0.coords t) ∧ ¬condJ0 (grid0.coords t) ∧ ¬condJK7 (grid0.coords t) ∧ ¬condK7 (grid0.coords t) :=
  ⟨fun h => by have := (hcondK0 t).mp h; omega, fun h => by have := (hcondJK0 t).mp h; omega, fun h => by have := (hcondJ0 t).mp h; omega, fun h => by have := (hcondJK7 t).mp h; omega, fun h => by have := (hcondK7 t).mp h; omega⟩

theorem hypF (t : Fin cfg0.N) (hj : ¬t.val % 64 < 8) (h0 : ¬t.val % 8 = 0) (h7 : t.val % 8 = 7) :
    ¬condK0 (grid0.coords t) ∧ ¬condJK0 (grid0.coords t) ∧ ¬condJ0 (grid0.coords t) ∧ ¬condJK7 (grid0.coords t) ∧ condK7 (grid0.coords t) :=
  ⟨fun h => by have := (hcondK0 t).mp h; omega, fun h => by have := (hcondJK0 t).mp h; omega, fun h => by have := (hcondJ0 t).mp h; omega, fun h => by have := (hcondJK7 t).mp h; omega, (hcondK7 t).mpr (by omega)⟩

/-! ## What the two blocks hold after each point -/

/-- One point's effect on the pair (output block, hidden block), given the pair the point before left. -/
def stepAt (c : Dev nD) (t : Fin cfg0.N) (prev : Vec F S2048x512 .f32 × Vec F S2048x8 .f32) : Vec F S2048x512 .f32 × Vec F S2048x8 .f32 :=
  if hj : t.val % 64 < 8 then
    if h0 : t.val % 8 = 0 then (out6_A c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypA t hj h0).1 (hypA t hj h0).2.1 (hypA t hj h0).2.2.1 (hypA t hj h0).2.2.2.1 (hypA t hj h0).2.2.2.2 (iblk m c 0 t) (iblk m c 1 t) (iblk m c 2 t) (iblk m c 3 t) (iblk m c 4 t) (iblk m c 5 t), sout_A c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypA t hj h0).1 (hypA t hj h0).2.1 (hypA t hj h0).2.2.1 (hypA t hj h0).2.2.2.1 (hypA t hj h0).2.2.2.2 (iblk m c 0 t) (iblk m c 1 t) (iblk m c 2 t) (iblk m c 3 t) (iblk m c 4 t) (iblk m c 5 t))
    else if h7 : t.val % 8 = 7 then (out6_C c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypC t hj h0 h7).1 (hypC t hj h0 h7).2.1 (hypC t hj h0 h7).2.2.1 (hypC t hj h0 h7).2.2.2.1 (hypC t hj h0 h7).2.2.2.2 (iblk m c 0 t) (iblk m c 1 t) (iblk m c 2 t) (iblk m c 3 t) (iblk m c 4 t) (iblk m c 5 t) prev.1 prev.2, sout_C c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypC t hj h0 h7).1 (hypC t hj h0 h7).2.1 (hypC t hj h0 h7).2.2.1 (hypC t hj h0 h7).2.2.2.1 (hypC t hj h0 h7).2.2.2.2 (iblk m c 0 t) (iblk m c 1 t) (iblk m c 2 t) (iblk m c 3 t) (iblk m c 4 t) (iblk m c 5 t) prev.1 prev.2)
    else (out6_B c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypB t hj h0 h7).1 (hypB t hj h0 h7).2.1 (hypB t hj h0 h7).2.2.1 (hypB t hj h0 h7).2.2.2.1 (hypB t hj h0 h7).2.2.2.2 (iblk m c 0 t) (iblk m c 1 t) (iblk m c 2 t) (iblk m c 3 t) (iblk m c 4 t) (iblk m c 5 t) prev.1 prev.2, sout_B c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypB t hj h0 h7).1 (hypB t hj h0 h7).2.1 (hypB t hj h0 h7).2.2.1 (hypB t hj h0 h7).2.2.2.1 (hypB t hj h0 h7).2.2.2.2 (iblk m c 0 t) (iblk m c 1 t) (iblk m c 2 t) (iblk m c 3 t) (iblk m c 4 t) (iblk m c 5 t) prev.1 prev.2)
  else
    if h0 : t.val % 8 = 0 then (out6_D c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypD t hj h0).1 (hypD t hj h0).2.1 (hypD t hj h0).2.2.1 (hypD t hj h0).2.2.2.1 (hypD t hj h0).2.2.2.2 (iblk m c 0 t) (iblk m c 1 t) (iblk m c 2 t) (iblk m c 3 t) (iblk m c 4 t) (iblk m c 5 t) prev.2, prev.2)
    else if h7 : t.val % 8 = 7 then (out6_F c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypF t hj h0 h7).1 (hypF t hj h0 h7).2.1 (hypF t hj h0 h7).2.2.1 (hypF t hj h0 h7).2.2.2.1 (hypF t hj h0 h7).2.2.2.2 (iblk m c 0 t) (iblk m c 1 t) (iblk m c 2 t) (iblk m c 3 t) (iblk m c 4 t) (iblk m c 5 t) prev.1 prev.2, prev.2)
    else (out6_E c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypE t hj h0 h7).1 (hypE t hj h0 h7).2.1 (hypE t hj h0 h7).2.2.1 (hypE t hj h0 h7).2.2.2.1 (hypE t hj h0 h7).2.2.2.2 (iblk m c 0 t) (iblk m c 1 t) (iblk m c 2 t) (iblk m c 3 t) (iblk m c 4 t) (iblk m c 5 t) prev.1 prev.2, prev.2)

/-- A pair nothing consults: what "before the first point" stands for. -/
def junkPair : Vec F S2048x512 .f32 × Vec F S2048x8 .f32 := (VO6.read (Elt F) VO6.junk, VS.read (Elt F) VS.junk)

/-- The pair after the body at position n, by recursion on n. -/
def outsAt (c : Dev nD) : (n : ℕ) → n < cfg0.N → Vec F S2048x512 .f32 × Vec F S2048x8 .f32
  | 0, hn => stepAt m c ⟨0, hn⟩ junkPair
  | n + 1, hn => stepAt m c ⟨n + 1, hn⟩ (outsAt c n (Nat.lt_of_succ_lt hn))

theorem outsAt_zero (c : Dev nD) (t : Fin cfg0.N) (hz : t.val = 0) : outsAt m c t.val t.isLt = stepAt m c t junkPair := by
  obtain ⟨n, hn⟩ := t
  cases n with
  | zero => rfl
  | succ n => exact absurd hz (Nat.succ_ne_zero n)

theorem outsAt_pos (c : Dev nD) (t : Fin cfg0.N) (hz : t.val ≠ 0) :
    outsAt m c t.val t.isLt = stepAt m c t (outsAt m c (t.val - 1) (Nat.lt_of_le_of_lt (Nat.sub_le _ _) t.isLt)) := by
  obtain ⟨n, hn⟩ := t
  cases n with
  | zero => exact absurd rfl hz
  | succ n => rfl

theorem stepAt_A (c : Dev nD) (t : Fin cfg0.N) (prev : Vec F S2048x512 .f32 × Vec F S2048x8 .f32) (hj : t.val % 64 < 8) (h0 : t.val % 8 = 0) :
    stepAt m c t prev = (out6_A c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypA t hj h0).1 (hypA t hj h0).2.1 (hypA t hj h0).2.2.1 (hypA t hj h0).2.2.2.1 (hypA t hj h0).2.2.2.2 (iblk m c 0 t) (iblk m c 1 t) (iblk m c 2 t) (iblk m c 3 t) (iblk m c 4 t) (iblk m c 5 t), sout_A c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypA t hj h0).1 (hypA t hj h0).2.1 (hypA t hj h0).2.2.1 (hypA t hj h0).2.2.2.1 (hypA t hj h0).2.2.2.2 (iblk m c 0 t) (iblk m c 1 t) (iblk m c 2 t) (iblk m c 3 t) (iblk m c 4 t) (iblk m c 5 t)) := by
  unfold stepAt; rw [dif_pos hj, dif_pos h0]

theorem outsAt_A (c : Dev nD) (t : Fin cfg0.N) (hj : t.val % 64 < 8) (h0 : t.val % 8 = 0) :
    outsAt m c t.val t.isLt = (out6_A c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypA t hj h0).1 (hypA t hj h0).2.1 (hypA t hj h0).2.2.1 (hypA t hj h0).2.2.2.1 (hypA t hj h0).2.2.2.2 (iblk m c 0 t) (iblk m c 1 t) (iblk m c 2 t) (iblk m c 3 t) (iblk m c 4 t) (iblk m c 5 t), sout_A c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypA t hj h0).1 (hypA t hj h0).2.1 (hypA t hj h0).2.2.1 (hypA t hj h0).2.2.2.1 (hypA t hj h0).2.2.2.2 (iblk m c 0 t) (iblk m c 1 t) (iblk m c 2 t) (iblk m c 3 t) (iblk m c 4 t) (iblk m c 5 t)) := by
  by_cases hz : t.val = 0
  · rw [outsAt_zero m c t hz, stepAt_A m c t _ hj h0]
  · rw [outsAt_pos m c t hz, stepAt_A m c t _ hj h0]

theorem stepAt_B (c : Dev nD) (t : Fin cfg0.N) (prev : Vec F S2048x512 .f32 × Vec F S2048x8 .f32) (hj : t.val % 64 < 8) (h0 : ¬t.val % 8 = 0) (h7 : ¬t.val % 8 = 7) :
    stepAt m c t prev = (out6_B c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypB t hj h0 h7).1 (hypB t hj h0 h7).2.1 (hypB t hj h0 h7).2.2.1 (hypB t hj h0 h7).2.2.2.1 (hypB t hj h0 h7).2.2.2.2 (iblk m c 0 t) (iblk m c 1 t) (iblk m c 2 t) (iblk m c 3 t) (iblk m c 4 t) (iblk m c 5 t) prev.1 prev.2, sout_B c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypB t hj h0 h7).1 (hypB t hj h0 h7).2.1 (hypB t hj h0 h7).2.2.1 (hypB t hj h0 h7).2.2.2.1 (hypB t hj h0 h7).2.2.2.2 (iblk m c 0 t) (iblk m c 1 t) (iblk m c 2 t) (iblk m c 3 t) (iblk m c 4 t) (iblk m c 5 t) prev.1 prev.2) := by
  unfold stepAt; rw [dif_pos hj, dif_neg h0, dif_neg h7]

theorem outsAt_B (c : Dev nD) (t : Fin cfg0.N) (hj : t.val % 64 < 8) (h0 : ¬t.val % 8 = 0) (h7 : ¬t.val % 8 = 7) :
    outsAt m c t.val t.isLt = (out6_B c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypB t hj h0 h7).1 (hypB t hj h0 h7).2.1 (hypB t hj h0 h7).2.2.1 (hypB t hj h0 h7).2.2.2.1 (hypB t hj h0 h7).2.2.2.2 (iblk m c 0 t) (iblk m c 1 t) (iblk m c 2 t) (iblk m c 3 t) (iblk m c 4 t) (iblk m c 5 t) (outsAt m c (t.val - 1) (Nat.lt_of_le_of_lt (Nat.sub_le _ _) t.isLt)).1 (outsAt m c (t.val - 1) (Nat.lt_of_le_of_lt (Nat.sub_le _ _) t.isLt)).2, sout_B c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypB t hj h0 h7).1 (hypB t hj h0 h7).2.1 (hypB t hj h0 h7).2.2.1 (hypB t hj h0 h7).2.2.2.1 (hypB t hj h0 h7).2.2.2.2 (iblk m c 0 t) (iblk m c 1 t) (iblk m c 2 t) (iblk m c 3 t) (iblk m c 4 t) (iblk m c 5 t) (outsAt m c (t.val - 1) (Nat.lt_of_le_of_lt (Nat.sub_le _ _) t.isLt)).1 (outsAt m c (t.val - 1) (Nat.lt_of_le_of_lt (Nat.sub_le _ _) t.isLt)).2) := by
  rw [outsAt_pos m c t (by omega), stepAt_B m c t _ hj h0 h7]

theorem stepAt_C (c : Dev nD) (t : Fin cfg0.N) (prev : Vec F S2048x512 .f32 × Vec F S2048x8 .f32) (hj : t.val % 64 < 8) (h0 : ¬t.val % 8 = 0) (h7 : t.val % 8 = 7) :
    stepAt m c t prev = (out6_C c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypC t hj h0 h7).1 (hypC t hj h0 h7).2.1 (hypC t hj h0 h7).2.2.1 (hypC t hj h0 h7).2.2.2.1 (hypC t hj h0 h7).2.2.2.2 (iblk m c 0 t) (iblk m c 1 t) (iblk m c 2 t) (iblk m c 3 t) (iblk m c 4 t) (iblk m c 5 t) prev.1 prev.2, sout_C c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypC t hj h0 h7).1 (hypC t hj h0 h7).2.1 (hypC t hj h0 h7).2.2.1 (hypC t hj h0 h7).2.2.2.1 (hypC t hj h0 h7).2.2.2.2 (iblk m c 0 t) (iblk m c 1 t) (iblk m c 2 t) (iblk m c 3 t) (iblk m c 4 t) (iblk m c 5 t) prev.1 prev.2) := by
  unfold stepAt; rw [dif_pos hj, dif_neg h0, dif_pos h7]

theorem outsAt_C (c : Dev nD) (t : Fin cfg0.N) (hj : t.val % 64 < 8) (h0 : ¬t.val % 8 = 0) (h7 : t.val % 8 = 7) :
    outsAt m c t.val t.isLt = (out6_C c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypC t hj h0 h7).1 (hypC t hj h0 h7).2.1 (hypC t hj h0 h7).2.2.1 (hypC t hj h0 h7).2.2.2.1 (hypC t hj h0 h7).2.2.2.2 (iblk m c 0 t) (iblk m c 1 t) (iblk m c 2 t) (iblk m c 3 t) (iblk m c 4 t) (iblk m c 5 t) (outsAt m c (t.val - 1) (Nat.lt_of_le_of_lt (Nat.sub_le _ _) t.isLt)).1 (outsAt m c (t.val - 1) (Nat.lt_of_le_of_lt (Nat.sub_le _ _) t.isLt)).2, sout_C c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypC t hj h0 h7).1 (hypC t hj h0 h7).2.1 (hypC t hj h0 h7).2.2.1 (hypC t hj h0 h7).2.2.2.1 (hypC t hj h0 h7).2.2.2.2 (iblk m c 0 t) (iblk m c 1 t) (iblk m c 2 t) (iblk m c 3 t) (iblk m c 4 t) (iblk m c 5 t) (outsAt m c (t.val - 1) (Nat.lt_of_le_of_lt (Nat.sub_le _ _) t.isLt)).1 (outsAt m c (t.val - 1) (Nat.lt_of_le_of_lt (Nat.sub_le _ _) t.isLt)).2) := by
  rw [outsAt_pos m c t (by omega), stepAt_C m c t _ hj h0 h7]

theorem stepAt_D (c : Dev nD) (t : Fin cfg0.N) (prev : Vec F S2048x512 .f32 × Vec F S2048x8 .f32) (hj : ¬t.val % 64 < 8) (h0 : t.val % 8 = 0) :
    stepAt m c t prev = (out6_D c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypD t hj h0).1 (hypD t hj h0).2.1 (hypD t hj h0).2.2.1 (hypD t hj h0).2.2.2.1 (hypD t hj h0).2.2.2.2 (iblk m c 0 t) (iblk m c 1 t) (iblk m c 2 t) (iblk m c 3 t) (iblk m c 4 t) (iblk m c 5 t) prev.2, prev.2) := by
  unfold stepAt; rw [dif_neg hj, dif_pos h0]

theorem outsAt_D (c : Dev nD) (t : Fin cfg0.N) (hj : ¬t.val % 64 < 8) (h0 : t.val % 8 = 0) :
    outsAt m c t.val t.isLt = (out6_D c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypD t hj h0).1 (hypD t hj h0).2.1 (hypD t hj h0).2.2.1 (hypD t hj h0).2.2.2.1 (hypD t hj h0).2.2.2.2 (iblk m c 0 t) (iblk m c 1 t) (iblk m c 2 t) (iblk m c 3 t) (iblk m c 4 t) (iblk m c 5 t) (outsAt m c (t.val - 1) (Nat.lt_of_le_of_lt (Nat.sub_le _ _) t.isLt)).2, (outsAt m c (t.val - 1) (Nat.lt_of_le_of_lt (Nat.sub_le _ _) t.isLt)).2) := by
  rw [outsAt_pos m c t (by omega), stepAt_D m c t _ hj h0]

theorem stepAt_E (c : Dev nD) (t : Fin cfg0.N) (prev : Vec F S2048x512 .f32 × Vec F S2048x8 .f32) (hj : ¬t.val % 64 < 8) (h0 : ¬t.val % 8 = 0) (h7 : ¬t.val % 8 = 7) :
    stepAt m c t prev = (out6_E c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypE t hj h0 h7).1 (hypE t hj h0 h7).2.1 (hypE t hj h0 h7).2.2.1 (hypE t hj h0 h7).2.2.2.1 (hypE t hj h0 h7).2.2.2.2 (iblk m c 0 t) (iblk m c 1 t) (iblk m c 2 t) (iblk m c 3 t) (iblk m c 4 t) (iblk m c 5 t) prev.1 prev.2, prev.2) := by
  unfold stepAt; rw [dif_neg hj, dif_neg h0, dif_neg h7]

theorem outsAt_E (c : Dev nD) (t : Fin cfg0.N) (hj : ¬t.val % 64 < 8) (h0 : ¬t.val % 8 = 0) (h7 : ¬t.val % 8 = 7) :
    outsAt m c t.val t.isLt = (out6_E c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypE t hj h0 h7).1 (hypE t hj h0 h7).2.1 (hypE t hj h0 h7).2.2.1 (hypE t hj h0 h7).2.2.2.1 (hypE t hj h0 h7).2.2.2.2 (iblk m c 0 t) (iblk m c 1 t) (iblk m c 2 t) (iblk m c 3 t) (iblk m c 4 t) (iblk m c 5 t) (outsAt m c (t.val - 1) (Nat.lt_of_le_of_lt (Nat.sub_le _ _) t.isLt)).1 (outsAt m c (t.val - 1) (Nat.lt_of_le_of_lt (Nat.sub_le _ _) t.isLt)).2, (outsAt m c (t.val - 1) (Nat.lt_of_le_of_lt (Nat.sub_le _ _) t.isLt)).2) := by
  rw [outsAt_pos m c t (by omega), stepAt_E m c t _ hj h0 h7]

theorem stepAt_F (c : Dev nD) (t : Fin cfg0.N) (prev : Vec F S2048x512 .f32 × Vec F S2048x8 .f32) (hj : ¬t.val % 64 < 8) (h0 : ¬t.val % 8 = 0) (h7 : t.val % 8 = 7) :
    stepAt m c t prev = (out6_F c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypF t hj h0 h7).1 (hypF t hj h0 h7).2.1 (hypF t hj h0 h7).2.2.1 (hypF t hj h0 h7).2.2.2.1 (hypF t hj h0 h7).2.2.2.2 (iblk m c 0 t) (iblk m c 1 t) (iblk m c 2 t) (iblk m c 3 t) (iblk m c 4 t) (iblk m c 5 t) prev.1 prev.2, prev.2) := by
  unfold stepAt; rw [dif_neg hj, dif_neg h0, dif_pos h7]

theorem outsAt_F (c : Dev nD) (t : Fin cfg0.N) (hj : ¬t.val % 64 < 8) (h0 : ¬t.val % 8 = 0) (h7 : t.val % 8 = 7) :
    outsAt m c t.val t.isLt = (out6_F c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypF t hj h0 h7).1 (hypF t hj h0 h7).2.1 (hypF t hj h0 h7).2.2.1 (hypF t hj h0 h7).2.2.2.1 (hypF t hj h0 h7).2.2.2.2 (iblk m c 0 t) (iblk m c 1 t) (iblk m c 2 t) (iblk m c 3 t) (iblk m c 4 t) (iblk m c 5 t) (outsAt m c (t.val - 1) (Nat.lt_of_le_of_lt (Nat.sub_le _ _) t.isLt)).1 (outsAt m c (t.val - 1) (Nat.lt_of_le_of_lt (Nat.sub_le _ _) t.isLt)).2, (outsAt m c (t.val - 1) (Nat.lt_of_le_of_lt (Nat.sub_le _ _) t.isLt)).2) := by
  rw [outsAt_pos m c t (by omega), stepAt_F m c t _ hj h0 h7]

/-! ## The invariant: the hidden block tracked from point to point -/

/-- Before position n: at the first point the buffer of the hidden block at anything; afterwards at what the point
    before left in it; the generator register at some state throughout. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The proof data -/

/-- The arrays as the region finds them; after the body each input's buffer at its block and the output's at the
    running block; the invariant tracking the hidden block; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- At a point with k > 0 the output block's buffer holds what the body left at the point before: the point is not
    the first and the block was not written back between. -/
theorem before6_acc (c : Dev nD) (t : Fin cfg0.N) (h0 : ¬t.val % 8 = 0) (d) :
    (dats m 0 c).before 6 t d = (outsAt m c (t.val - 1) (Nat.lt_of_le_of_lt (Nat.sub_le _ _) t.isLt)).1 := by
  have hN : t.val < 512 := lt_of_lt_of_eq t.isLt (show cfg0.N = 512 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 8000000 in
/-- The body at any point: the inputs' buffers hold their blocks; the point's number says which case it is in; the
    output block (where the case reads it first) and the hidden block hold what the point before left; so the case's
    run applies, and what it leaves is what the proof data name. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [after0, after1, after2, after3, after4, after5, after6]
  have hN : t.val < 512 := lt_of_lt_of_eq t.isLt (show cfg0.N = 512 from N_0)
  by_cases hj : t.val % 64 < 8
  · by_cases h0 : t.val % 8 = 0
    · rw [outsAt_A m c t hj h0]
      unfold out6_A sout_A; (try dsimp only)
      by_cases hz : t.val = 0
      · rw [PhiS_castSucc m c t, PhiS_zero m c _ _ hz, PhiA0_eq]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((kernelRunA c (grid0.coords t) _ _ _ _ _ _ _ _ _ _ _ _ _ _ _ _ (hypA t hj h0).1 (hypA t hj h0).2.1 (hypA t hj h0).2.2.1 (hypA t hj h0).2.2.2.1 (hypA t hj h0).2.2.2.2 (iblk m c 0 t) (iblk m c 1 t) (iblk m c 2 t) (iblk m c 3 t) (iblk m c 4 t) (iblk m c 5 t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS]; · iexact HS
        iintro ⟨H0, H1, H2, H3, H4, H5, ⟨%e6, H6⟩, ⟨%es, HS⟩⟩
        isplitl [HS Hg]
        · isplitl [HS]
          · unfold owns; iexists _; isplitr
            swap; · iexact HS
            ipureintro; exact View.read_writes_of_cover _ _ _ _ _ (scover_A c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover6_A c _ _ _ _ _ _ _ _ _ _ _ _ _ _ _ _ _ _ _ _ _ _ _ _ _ _ _ _)
      · rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((kernelRunA c (grid0.coords t) _ _ _ _ _ _ _ _ _ _ _ _ _ _ _ _ (hypA t hj h0).1 (hypA t hj h0).2.1 (hypA t hj h0).2.2.1 (hypA t hj h0).2.2.2.1 (hypA t hj h0).2.2.2.2 (iblk m c 0 t) (iblk m c 1 t) (iblk m c 2 t) (iblk m c 3 t) (iblk m c 4 t) (iblk m c 5 t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS]; · iexists _; iexact HS
        iintro ⟨H0, H1, H2, H3, H4, H5, ⟨%e6, H6⟩, ⟨%es, HS⟩⟩
        isplitl [HS Hg]
        · isplitl [HS]
          · unfold owns; iexists _; isplitr
            swap; · iexact HS
            ipureintro; exact View.read_writes_of_cover _ _ _ _ _ (scover_A c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover6_A c _ _ _ _ _ _ _ _ _ _ _ _ _ _ _ _ _ _ _ _ _ _ _ _ _ _ _ _)
    · have hz : t.val ≠ 0 := by omega
      by_cases h7 : t.val % 8 = 7
      · rw [outsAt_C m c t hj h0 h7]
        simp only [before6_acc m c t h0]
        unfold out6_C sout_C; (try dsimp only)
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((kernelRunC c (grid0.coords t) _ _ _ _ _ _ _ _ _ _ _ _ _ _ _ _ (hypC t hj h0 h7).1 (hypC t hj h0 h7).2.1 (hypC t hj h0 h7).2.2.1 (hypC t hj h0 h7).2.2.2.1 (hypC t hj h0 h7).2.2.2.2 (iblk m c 0 t) (iblk m c 1 t) (iblk m c 2 t) (iblk m c 3 t) (iblk m c 4 t) (iblk m c 5 t) _ _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, ⟨%e6, H6⟩, ⟨%es, HS⟩⟩
        isplitl [HS Hg]
        · isplitl [HS]
          · unfold owns; iexists _; isplitr
            swap; · iexact HS
            ipureintro; exact View.read_writes_of_cover _ _ _ _ _ (scover_C c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover6_C c _ _ _ _ _ _ _ _ _ _ _ _ _ _ _ _ _ _ _ _ _ _ _ _ _ _ _ _ _ _)
      · rw [outsAt_B m c t hj h0 h7]
        simp only [before6_acc m c t h0]
        unfold out6_B sout_B; (try dsimp only)
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((kernelRunB c (grid0.coords t) _ _ _ _ _ _ _ _ _ _ _ _ _ _ _ _ (hypB t hj h0 h7).1 (hypB t hj h0 h7).2.1 (hypB t hj h0 h7).2.2.1 (hypB t hj h0 h7).2.2.2.1 (hypB t hj h0 h7).2.2.2.2 (iblk m c 0 t) (iblk m c 1 t) (iblk m c 2 t) (iblk m c 3 t) (iblk m c 4 t) (iblk m c 5 t) _ _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, ⟨%e6, H6⟩, ⟨%es, HS⟩⟩
        isplitl [HS Hg]
        · isplitl [HS]
          · unfold owns; iexists _; isplitr
            swap; · iexact HS
            ipureintro; exact View.read_writes_of_cover _ _ _ _ _ (scover_B c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover6_B c _ _ _ _ _ _ _ _ _ _ _ _ _ _ _ _ _ _ _ _ _ _ _ _ _ _ _ _ _ _)
  · have hz : t.val ≠ 0 := by omega
    by_cases h0 : t.val % 8 = 0
    · rw [outsAt_D m c t hj h0]
      unfold out6_D; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((kernelRunD c (grid0.coords t) _ _ _ _ _ _ _ _ _ _ _ _ _ _ _ _ (hypD t hj h0).1 (hypD t hj h0).2.1 (hypD t hj h0).2.2.1 (hypD t hj h0).2.2.2.1 (hypD t hj h0).2.2.2.2 (iblk m c 0 t) (iblk m c 1 t) (iblk m c 2 t) (iblk m c 3 t) (iblk m c 4 t) (iblk m c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover6_D c _ _ _ _ _ _ _ _ _ _ _ _ _ _ _ _ _ _ _ _ _ _ _ _ _ _ _ _ _)
    · by_cases h7 : t.val % 8 = 7
      · rw [outsAt_F m c t hj h0 h7]
        simp only [before6_acc m c t h0]
        unfold out6_F; (try dsimp only)
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((kernelRunF c (grid0.coords t) _ _ _ _ _ _ _ _ _ _ _ _ _ _ _ _ (hypF t hj h0 h7).1 (hypF t hj h0 h7).2.1 (hypF t hj h0 h7).2.2.1 (hypF t hj h0 h7).2.2.2.1 (hypF t hj h0 h7).2.2.2.2 (iblk m c 0 t) (iblk m c 1 t) (iblk m c 2 t) (iblk m c 3 t) (iblk m c 4 t) (iblk m c 5 t) _ _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, ⟨%e6, H6⟩, HS⟩
        isplitl [HS Hg]
        · isplitl [HS]
          · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover6_F c _ _ _ _ _ _ _ _ _ _ _ _ _ _ _ _ _ _ _ _ _ _ _ _ _ _ _ _ _ _)
      · rw [outsAt_E m c t hj h0 h7]
        simp only [before6_acc m c t h0]
        unfold out6_E; (try dsimp only)
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((kernelRunE c (grid0.coords t) _ _ _ _ _ _ _ _ _ _ _ _ _ _ _ _ (hypE t hj h0 h7).1 (hypE t hj h0 h7).2.1 (hypE t hj h0 h7).2.2.1 (hypE t hj h0 h7).2.2.2.1 (hypE t hj h0 h7).2.2.2.2 (iblk m c 0 t) (iblk m c 1 t) (iblk m c 2 t) (iblk m c 3 t) (iblk m c 4 t) (iblk m c 5 t) _ _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, ⟨%e6, H6⟩, HS⟩
        isplitl [HS Hg]
        · isplitl [HS]
          · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover6_E c _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 512 := N_0; omega)

/-! ## The run and the frame -/

set_option backward.isDefEq.respectTransparency.types false in
/-- Every weakly fair execution of @main terminates without a fault, every array of the kernel call ends at what the
    proof data compute, and every other buffer as the host lines after the call leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end and leaves its six argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KI_Shared.lean ====
/-
  The grid of the one kernel call is 8 x 8 x 8, points t = 64 i + 8 j + k: i names a band of 2048 rows, j a band of
  512 output channels, k a band of 512 input channels. The body branches five times on the point's coordinates:
  on k = 0 (the output block is cleared), on j = 0 and k = 0 (the hidden block is cleared), on j = 0 (the hidden
  block takes one more band of x V), on j = 0 and k = 7 (the hidden block is gated by codes), on k = 7 (the
  low-rank product, its scale and the bias are added to the output block). Here: the five conditions as the body
  spells them, each decided over the 512 points in closed form, and the memrefs the body is run on.
-/
import proofs.«141770_j57226144252251_2_alg».proof.Proof.Gen.KernelIdeal.Frame
import proofs.«141770_j57226144252251_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The five conditions -/

/-- k = 0. -/
abbrev condK0 (i : grid0.Coords) : Prop :=
  Scalar.cmpi .ne (Scalar.extui (Scalar.cmpi .eq (BitVec.ofNat 32 (i 2).val) 0#32)) 0#32 = 1#1
/-- j = 0 and k = 0. -/
abbrev condJK0 (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
/-- j = 0. -/
abbrev condJ0 (i : grid0.Coords) : Prop :=
  Scalar.cmpi .ne (Scalar.extui (Scalar.cmpi .eq (BitVec.ofNat 32 (i 1).val) 0#32)) 0#32 = 1#1
/-- j = 0 and k = 7. -/
abbrev condJK7 (i : grid0.Coords) : Prop :=
  Scalar.cmpi .ne (Scalar.extui (Scalar.andi (Scalar.cmpi .eq (BitVec.ofNat 32 (i 1).val) 0#32) (Scalar.cmpi .eq (BitVec.ofNat 32 (i 2).val) 7#32))) 0#32 = 1#1
/-- k = 7. -/
abbrev condK7 (i : grid0.Coords) : Prop :=
  Scalar.cmpi .ne (Scalar.extui (Scalar.cmpi .eq (BitVec.ofNat 32 (i 2).val) 7#32)) 0#32 = 1#1

theorem hcondK0 : ∀ t : Fin cfg0.N, condK0 (grid0.coords t) ↔ t.val % 8 = 0 :=
  (by decide +kernel : ∀ t : Fin grid0.N, condK0 (grid0.coords t) ↔ t.val % 8 = 0)
theorem hcondJK0 : ∀ t : Fin cfg0.N, condJK0 (grid0.coords t) ↔ t.val % 64 = 0 :=
  (by decide +kernel : ∀ t : Fin grid0.N, condJK0 (grid0.coords t) ↔ t.val % 64 = 0)
theorem hcondJ0 : ∀ t : Fin cfg0.N, condJ0 (grid0.coords t) ↔ t.val % 64 < 8 :=
  (by decide +kernel : ∀ t : Fin grid0.N, condJ0 (grid0.coords t) ↔ t.val % 64 < 8)
theorem hcondJK7 : ∀ t : Fin cfg0.N, condJK7 (grid0.coords t) ↔ t.val % 64 = 7 :=
  (by decide +kernel : ∀ t : Fin grid0.N, condJK7 (grid0.coords t) ↔ t.val % 64 = 7)
theorem hcondK7 : ∀ t : Fin cfg0.N, condK7 (grid0.coords t) ↔ t.val % 8 = 7 :=
  (by decide +kernel : ∀ t : Fin grid0.N, condK7 (grid0.coords t) ↔ t.val % 8 = 7)

/-! ## The memrefs the body runs on -/

/-- One staging buffer of the output window, through which its contents are stated. -/
abbrev VO6 : View sig .tc .vmem S2048x512 .f32 := (Memref.whole cc0_stg6_0 : Memref sig .tc .vmem S2048x512 .f32).view
/-- Each window's current staging memref at point t, as the pipeline passes it, and its wholeness. -/
abbrev ms0 (t : Fin cfg0.N) : Memref sig .tc .vmem S2048x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x8 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x8 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x8 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x512 .f32 := win0_6.stage (cfg0.slots t 6)
abbrev hs6 (t : Fin cfg0.N) : (ms6 t).IsWhole := hstage0_6 ((cfg0.slots t 6).cast nbuf0_6)
/-- The hidden block's buffer: a whole buffer of the kernel's own, kept from point to point. -/
abbrev scM : Memref sig .tc .vmem S2048x8 .f32 := Memref.whole cc0_scratch0
abbrev VS : View sig .tc .vmem S2048x8 .f32 := scM.view

/-- The region's invariant before the first point: the hidden block's buffer owned at some contents, and the
    generator register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.KI_RunA.lean ====
/-
  The body at a point with j = 0, k = 0: both blocks are cleared, then each takes its first band.
  Run on whole memrefs at named contents, it ends with the six input blocks as they were and the output block
  (and, where it is stored, the hidden block) holding the values its stores wrote, as a list of pieces.
-/
import proofs.«141770_j57226144252251_2_alg».proof.Proof.KI_Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave, as pieces (last first), with the proof that the body runs to its continuation. -/
noncomputable def kernelRunA (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : condK0 i) (hc2 : condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) :
    Σ' (L6 : List (View.Piece (Elt F) S2048x512 .f32)), { LS0 : List (View.Piece (Elt F) S2048x8 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    iexists _; iexact HS

end Cert.KernelIdeal.Body

end
-- ==== Proof.KI_RunB.lean ====
/-
  The body at a point with j = 0, 0 < k < 7: each block takes one more band.
  Run on whole memrefs at named contents, it ends with the six input blocks as they were and the output block
  (and, where it is stored, the hidden block) holding the values its stores wrote, as a list of pieces.
-/
import proofs.«141770_j57226144252251_2_alg».proof.Proof.KI_Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave, as pieces (last first), with the proof that the body runs to its continuation. -/
noncomputable def kernelRunB (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) :
    Σ' (L6 : List (View.Piece (Elt F) S2048x512 .f32)), { LS0 : List (View.Piece (Elt F) S2048x8 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    iexists _; iexact HS

end Cert.KernelIdeal.Body

end
-- ==== Proof.KI_RunC.lean ====
/-
  The body at a point with j = 0, k = 7: the last bands, the gate, then the low-rank product, scale and bias.
  Run on whole memrefs at named contents, it ends with the six input blocks as they were and the output block
  (and, where it is stored, the hidden block) holding the values its stores wrote, as a list of pieces.
-/
import proofs.«141770_j57226144252251_2_alg».proof.Proof.KI_Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave, as pieces (last first), with the proof that the body runs to its continuation. -/
noncomputable def kernelRunC (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : condJK7 i) (hc5 : condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) :
    Σ' (L6 : List (View.Piece (Elt F) S2048x512 .f32)), { LS0 : List (View.Piece (Elt F) S2048x8 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    iexists _; iexact HS

end Cert.KernelIdeal.Body

end
-- ==== Proof.KI_RunD.lean ====
/-
  The body at a point with j > 0, k = 0: the output block is cleared and takes its first band; the hidden block is left alone.
  Run on whole memrefs at named contents, it ends with the six input blocks as they were and the output block
  (and, where it is stored, the hidden block) holding the values its stores wrote, as a list of pieces.
-/
import proofs.«141770_j57226144252251_2_alg».proof.Proof.KI_Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave, as pieces (last first), with the proof that the body runs to its continuation. -/
noncomputable def kernelRunD (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : condK0 i) (hc2 : ¬condJK0 i) (hc3 : ¬condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xs0 : Vec F S2048x8 .f32) :
    { L6 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xs0) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    iexists _; isplitr; · ipureintro; exact harg10.read_unread _
    iexact HS

end Cert.KernelIdeal.Body

end
-- ==== Proof.KI_RunE.lean ====
/-
  The body at a point with j > 0, 0 < k < 7: the output block takes one more band; the hidden block is left alone.
  Run on whole memrefs at named contents, it ends with the six input blocks as they were and the output block
  (and, where it is stored, the hidden block) holding the values its stores wrote, as a list of pieces.
-/
import proofs.«141770_j57226144252251_2_alg».proof.Proof.KI_Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave, as pieces (last first), with the proof that the body runs to its continuation. -/
noncomputable def kernelRunE (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : ¬condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) :
    { L6 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xs0) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    iexists _; isplitr; · ipureintro; exact harg10.read_unread _
    iexact HS

end Cert.KernelIdeal.Body

end
-- ==== Proof.KI_RunF.lean ====
/-
  The body at a point with j > 0, k = 7: the last band, then the low-rank product of the finished hidden block, scale and bias.
  Run on whole memrefs at named contents, it ends with the six input blocks as they were and the output block
  (and, where it is stored, the hidden block) holding the values its stores wrote, as a list of pieces.
-/
import proofs.«141770_j57226144252251_2_alg».proof.Proof.KI_Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave, as pieces (last first), with the proof that the body runs to its continuation. -/
noncomputable def kernelRunF (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : ¬condJ0 i) (hc4 : ¬condJK7 i) (hc5 : condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) :
    { L6 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xs0) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    iexists _; isplitr; · ipureintro; exact harg10.read_unread _
    iexact HS

end Cert.KernelIdeal.Body

end
-- ==== Proof.KI_Frame.lean ====
/-
  The frame of the kernel call: every point's body runs, and the proof data name what it leaves.

  After the body at point t the output block holds, entry by entry, what the case of t (one of six, by j = 0 or not
  and k = 0, k = 7 or neither) wrote into it, read over what the point before left where the case reads the block
  before storing it whole (every point with k > 0); the hidden block's buffer likewise at the points with j = 0,
  and unchanged at the others. The region's invariant tracks the hidden block's contents from point to point; it is
  entered from, and gives back, the plain ownership of that buffer at some contents.
-/
import proofs.«141770_j57226144252251_2_alg».proof.Proof.KI_RunA
import proofs.«141770_j57226144252251_2_alg».proof.Proof.KI_RunB
import proofs.«141770_j57226144252251_2_alg».proof.Proof.KI_RunC
import proofs.«141770_j57226144252251_2_alg».proof.Proof.KI_RunD
import proofs.«141770_j57226144252251_2_alg».proof.Proof.KI_RunE
import proofs.«141770_j57226144252251_2_alg».proof.Proof.KI_RunF

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two blocks -/

/-- The stores of case A into the output block cover it. -/
theorem cover6_A (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : condK0 i) (hc2 : condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (y : S2048x512.Idx) :
    ∃ pc ∈ (kernelRunA c i arg3 harg3 arg4 harg4 arg5 harg5 arg6 harg6 arg7 harg7 arg8 harg8 arg9 harg9 arg10 harg10 hc1 hc2 hc3 hc4 hc5 x0 x1 x2 x3 x4 x5).1, y ∈ pc.1.set :=
  View.cover_of_tiledL (kernelRunA c i arg3 harg3 arg4 harg4 arg5 harg5 arg6 harg6 arg7 harg7 arg8 harg8 arg9 harg9 arg10 harg10 hc1 hc2 hc3 hc4 hc5 x0 x1 x2 x3 x4 x5).1 S2048x512.size (by sl_kernel_rfl) y

/-- What case A leaves in the output block: its pieces read back. -/
def out6_A (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : condK0 i) (hc2 : condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) : Vec F S2048x512 .f32 :=
  VO6.read (Elt F) (VO6.writes (Elt F) VO6.junk (kernelRunA c i arg3 harg3 arg4 harg4 arg5 harg5 arg6 harg6 arg7 harg7 arg8 harg8 arg9 harg9 arg10 harg10 hc1 hc2 hc3 hc4 hc5 x0 x1 x2 x3 x4 x5).1)

/-- The stores of case A into the hidden block cover it. -/
theorem scover_A (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : condK0 i) (hc2 : condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (y : S2048x8.Idx) :
    ∃ pc ∈ (kernelRunA c i arg3 harg3 arg4 harg4 arg5 harg5 arg6 harg6 arg7 harg7 arg8 harg8 arg9 harg9 arg10 harg10 hc1 hc2 hc3 hc4 hc5 x0 x1 x2 x3 x4 x5).2.1, y ∈ pc.1.set :=
  View.cover_of_tiledL (kernelRunA c i arg3 harg3 arg4 harg4 arg5 harg5 arg6 harg6 arg7 harg7 arg8 harg8 arg9 harg9 arg10 harg10 hc1 hc2 hc3 hc4 hc5 x0 x1 x2 x3 x4 x5).2.1 S2048x8.size (by sl_kernel_rfl) y

/-- What case A leaves in the hidden block: its pieces read back. -/
def sout_A (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : condK0 i) (hc2 : condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) : Vec F S2048x8 .f32 :=
  VS.read (Elt F) (VS.writes (Elt F) VS.junk (kernelRunA c i arg3 harg3 arg4 harg4 arg5 harg5 arg6 harg6 arg7 harg7 arg8 harg8 arg9 harg9 arg10 harg10 hc1 hc2 hc3 hc4 hc5 x0 x1 x2 x3 x4 x5).2.1)

/-- The stores of case B into the output block cover it. -/
theorem cover6_B (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) (y : S2048x512.Idx) :
    ∃ pc ∈ (kernelRunB c i arg3 harg3 arg4 harg4 arg5 harg5 arg6 harg6 arg7 harg7 arg8 harg8 arg9 harg9 arg10 harg10 hc1 hc2 hc3 hc4 hc5 x0 x1 x2 x3 x4 x5 xo6 xs0).1, y ∈ pc.1.set :=
  View.cover_of_tiledL (kernelRunB c i arg3 harg3 arg4 harg4 arg5 harg5 arg6 harg6 arg7 harg7 arg8 harg8 arg9 harg9 arg10 harg10 hc1 hc2 hc3 hc4 hc5 x0 x1 x2 x3 x4 x5 xo6 xs0).1 S2048x512.size (by sl_kernel_rfl) y

/-- What case B leaves in the output block: its pieces read back. -/
def out6_B (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) : Vec F S2048x512 .f32 :=
  VO6.read (Elt F) (VO6.writes (Elt F) VO6.junk (kernelRunB c i arg3 harg3 arg4 harg4 arg5 harg5 arg6 harg6 arg7 harg7 arg8 harg8 arg9 harg9 arg10 harg10 hc1 hc2 hc3 hc4 hc5 x0 x1 x2 x3 x4 x5 xo6 xs0).1)

/-- The stores of case B into the hidden block cover it. -/
theorem scover_B (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) (y : S2048x8.Idx) :
    ∃ pc ∈ (kernelRunB c i arg3 harg3 arg4 harg4 arg5 harg5 arg6 harg6 arg7 harg7 arg8 harg8 arg9 harg9 arg10 harg10 hc1 hc2 hc3 hc4 hc5 x0 x1 x2 x3 x4 x5 xo6 xs0).2.1, y ∈ pc.1.set :=
  View.cover_of_tiledL (kernelRunB c i arg3 harg3 arg4 harg4 arg5 harg5 arg6 harg6 arg7 harg7 arg8 harg8 arg9 harg9 arg10 harg10 hc1 hc2 hc3 hc4 hc5 x0 x1 x2 x3 x4 x5 xo6 xs0).2.1 S2048x8.size (by sl_kernel_rfl) y

/-- What case B leaves in the hidden block: its pieces read back. -/
def sout_B (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) : Vec F S2048x8 .f32 :=
  VS.read (Elt F) (VS.writes (Elt F) VS.junk (kernelRunB c i arg3 harg3 arg4 harg4 arg5 harg5 arg6 harg6 arg7 harg7 arg8 harg8 arg9 harg9 arg10 harg10 hc1 hc2 hc3 hc4 hc5 x0 x1 x2 x3 x4 x5 xo6 xs0).2.1)

/-- The stores of case C into the output block cover it. -/
theorem cover6_C (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : condJK7 i) (hc5 : condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) (y : S2048x512.Idx) :
    ∃ pc ∈ (kernelRunC c i arg3 harg3 arg4 harg4 arg5 harg5 arg6 harg6 arg7 harg7 arg8 harg8 arg9 harg9 arg10 harg10 hc1 hc2 hc3 hc4 hc5 x0 x1 x2 x3 x4 x5 xo6 xs0).1, y ∈ pc.1.set :=
  View.cover_of_tiledL (kernelRunC c i arg3 harg3 arg4 harg4 arg5 harg5 arg6 harg6 arg7 harg7 arg8 harg8 arg9 harg9 arg10 harg10 hc1 hc2 hc3 hc4 hc5 x0 x1 x2 x3 x4 x5 xo6 xs0).1 S2048x512.size (by sl_kernel_rfl) y

/-- What case C leaves in the output block: its pieces read back. -/
def out6_C (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : condJK7 i) (hc5 : condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) : Vec F S2048x512 .f32 :=
  VO6.read (Elt F) (VO6.writes (Elt F) VO6.junk (kernelRunC c i arg3 harg3 arg4 harg4 arg5 harg5 arg6 harg6 arg7 harg7 arg8 harg8 arg9 harg9 arg10 harg10 hc1 hc2 hc3 hc4 hc5 x0 x1 x2 x3 x4 x5 xo6 xs0).1)

/-- The stores of case C into the hidden block cover it. -/
theorem scover_C (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : condJK7 i) (hc5 : condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) (y : S2048x8.Idx) :
    ∃ pc ∈ (kernelRunC c i arg3 harg3 arg4 harg4 arg5 harg5 arg6 harg6 arg7 harg7 arg8 harg8 arg9 harg9 arg10 harg10 hc1 hc2 hc3 hc4 hc5 x0 x1 x2 x3 x4 x5 xo6 xs0).2.1, y ∈ pc.1.set :=
  View.cover_of_tiledL (kernelRunC c i arg3 harg3 arg4 harg4 arg5 harg5 arg6 harg6 arg7 harg7 arg8 harg8 arg9 harg9 arg10 harg10 hc1 hc2 hc3 hc4 hc5 x0 x1 x2 x3 x4 x5 xo6 xs0).2.1 S2048x8.size (by sl_kernel_rfl) y

/-- What case C leaves in the hidden block: its pieces read back. -/
def sout_C (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : condJK7 i) (hc5 : condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) : Vec F S2048x8 .f32 :=
  VS.read (Elt F) (VS.writes (Elt F) VS.junk (kernelRunC c i arg3 harg3 arg4 harg4 arg5 harg5 arg6 harg6 arg7 harg7 arg8 harg8 arg9 harg9 arg10 harg10 hc1 hc2 hc3 hc4 hc5 x0 x1 x2 x3 x4 x5 xo6 xs0).2.1)

/-- The stores of case D into the output block cover it. -/
theorem cover6_D (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : condK0 i) (hc2 : ¬condJK0 i) (hc3 : ¬condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xs0 : Vec F S2048x8 .f32) (y : S2048x512.Idx) :
    ∃ pc ∈ (kernelRunD c i arg3 harg3 arg4 harg4 arg5 harg5 arg6 harg6 arg7 harg7 arg8 harg8 arg9 harg9 arg10 harg10 hc1 hc2 hc3 hc4 hc5 x0 x1 x2 x3 x4 x5 xs0).1, y ∈ pc.1.set :=
  View.cover_of_tiledL (kernelRunD c i arg3 harg3 arg4 harg4 arg5 harg5 arg6 harg6 arg7 harg7 arg8 harg8 arg9 harg9 arg10 harg10 hc1 hc2 hc3 hc4 hc5 x0 x1 x2 x3 x4 x5 xs0).1 S2048x512.size (by sl_kernel_rfl) y

/-- What case D leaves in the output block: its pieces read back. -/
def out6_D (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : condK0 i) (hc2 : ¬condJK0 i) (hc3 : ¬condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xs0 : Vec F S2048x8 .f32) : Vec F S2048x512 .f32 :=
  VO6.read (Elt F) (VO6.writes (Elt F) VO6.junk (kernelRunD c i arg3 harg3 arg4 harg4 arg5 harg5 arg6 harg6 arg7 harg7 arg8 harg8 arg9 harg9 arg10 harg10 hc1 hc2 hc3 hc4 hc5 x0 x1 x2 x3 x4 x5 xs0).1)

/-- The stores of case E into the output block cover it. -/
theorem cover6_E (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : ¬condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) (y : S2048x512.Idx) :
    ∃ pc ∈ (kernelRunE c i arg3 harg3 arg4 harg4 arg5 harg5 arg6 harg6 arg7 harg7 arg8 harg8 arg9 harg9 arg10 harg10 hc1 hc2 hc3 hc4 hc5 x0 x1 x2 x3 x4 x5 xo6 xs0).1, y ∈ pc.1.set :=
  View.cover_of_tiledL (kernelRunE c i arg3 harg3 arg4 harg4 arg5 harg5 arg6 harg6 arg7 harg7 arg8 harg8 arg9 harg9 arg10 harg10 hc1 hc2 hc3 hc4 hc5 x0 x1 x2 x3 x4 x5 xo6 xs0).1 S2048x512.size (by sl_kernel_rfl) y

/-- What case E leaves in the output block: its pieces read back. -/
def out6_E (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : ¬condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) : Vec F S2048x512 .f32 :=
  VO6.read (Elt F) (VO6.writes (Elt F) VO6.junk (kernelRunE c i arg3 harg3 arg4 harg4 arg5 harg5 arg6 harg6 arg7 harg7 arg8 harg8 arg9 harg9 arg10 harg10 hc1 hc2 hc3 hc4 hc5 x0 x1 x2 x3 x4 x5 xo6 xs0).1)

/-- The stores of case F into the output block cover it. -/
theorem cover6_F (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : ¬condJ0 i) (hc4 : ¬condJK7 i) (hc5 : condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) (y : S2048x512.Idx) :
    ∃ pc ∈ (kernelRunF c i arg3 harg3 arg4 harg4 arg5 harg5 arg6 harg6 arg7 harg7 arg8 harg8 arg9 harg9 arg10 harg10 hc1 hc2 hc3 hc4 hc5 x0 x1 x2 x3 x4 x5 xo6 xs0).1, y ∈ pc.1.set :=
  View.cover_of_tiledL (kernelRunF c i arg3 harg3 arg4 harg4 arg5 harg5 arg6 harg6 arg7 harg7 arg8 harg8 arg9 harg9 arg10 harg10 hc1 hc2 hc3 hc4 hc5 x0 x1 x2 x3 x4 x5 xo6 xs0).1 S2048x512.size (by sl_kernel_rfl) y

/-- What case F leaves in the output block: its pieces read back. -/
def out6_F (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : ¬condJ0 i) (hc4 : ¬condJK7 i) (hc5 : condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) : Vec F S2048x512 .f32 :=
  VO6.read (Elt F) (VO6.writes (Elt F) VO6.junk (kernelRunF c i arg3 harg3 arg4 harg4 arg5 harg5 arg6 harg6 arg7 harg7 arg8 harg8 arg9 harg9 arg10 harg10 hc1 hc2 hc3 hc4 hc5 x0 x1 x2 x3 x4 x5 xo6 xs0).1)

/-! ## The case of a point, from its number t = 64 i + 8 j + k -/

theorem hypA (t : Fin cfg0.N) (hj : t.val % 64 < 8) (h0 : t.val % 8 = 0) :
    condK0 (grid0.coords t) ∧ condJK0 (grid0.coords t) ∧ condJ0 (grid0.coords t) ∧ ¬condJK7 (grid0.coords t) ∧ ¬condK7 (grid0.coords t) :=
  ⟨(hcondK0 t).mpr (by omega), (hcondJK0 t).mpr (by omega), (hcondJ0 t).mpr (by omega), fun h => by have := (hcondJK7 t).mp h; omega, fun h => by have := (hcondK7 t).mp h; omega⟩

theorem hypB (t : Fin cfg0.N) (hj : t.val % 64 < 8) (h0 : ¬t.val % 8 = 0) (h7 : ¬t.val % 8 = 7) :
    ¬condK0 (grid0.coords t) ∧ ¬condJK0 (grid0.coords t) ∧ condJ0 (grid0.coords t) ∧ ¬condJK7 (grid0.coords t) ∧ ¬condK7 (grid0.coords t) :=
  ⟨fun h => by have := (hcondK0 t).mp h; omega, fun h => by have := (hcondJK0 t).mp h; omega, (hcondJ0 t).mpr (by omega), fun h => by have := (hcondJK7 t).mp h; omega, fun h => by have := (hcondK7 t).mp h; omega⟩

theorem hypC (t : Fin cfg0.N) (hj : t.val % 64 < 8) (h0 : ¬t.val % 8 = 0) (h7 : t.val % 8 = 7) :
    ¬condK0 (grid0.coords t) ∧ ¬condJK0 (grid0.coords t) ∧ condJ0 (grid0.coords t) ∧ condJK7 (grid0.coords t) ∧ condK7 (grid0.coords t) :=
  ⟨fun h => by have := (hcondK0 t).mp h; omega, fun h => by have := (hcondJK0 t).mp h; omega, (hcondJ0 t).mpr (by omega), (hcondJK7 t).mpr (by omega), (hcondK7 t).mpr (by omega)⟩

theorem hypD (t : Fin cfg0.N) (hj : ¬t.val % 64 < 8) (h0 : t.val % 8 = 0) :
    condK0 (grid0.coords t) ∧ ¬condJK0 (grid0.coords t) ∧ ¬condJ0 (grid0.coords t) ∧ ¬condJK7 (grid0.coords t) ∧ ¬condK7 (grid0.coords t) :=
  ⟨(hcondK0 t).mpr (by omega), fun h => by have := (hcondJK0 t).mp h; omega, fun h => by have := (hcondJ0 t).mp h; omega, fun h => by have := (hcondJK7 t).mp h; omega, fun h => by have := (hcondK7 t).mp h; omega⟩

theorem hypE (t : Fin cfg0.N) (hj : ¬t.val % 64 < 8) (h0 : ¬t.val % 8 = 0) (h7 : ¬t.val % 8 = 7) :
    ¬condK0 (grid0.coords t) ∧ ¬condJK0 (grid0.coords t) ∧ ¬condJ0 (grid0.coords t) ∧ ¬condJK7 (grid0.coords t) ∧ ¬condK7 (grid0.coords t) :=
  ⟨fun h => by have := (hcondK0 t).mp h; omega, fun h => by have := (hcondJK0 t).mp h; omega, fun h => by have := (hcondJ0 t).mp h; omega, fun h => by have := (hcondJK7 t).mp h; omega, fun h => by have := (hcondK7 t).mp h; omega⟩

theorem hypF (t : Fin cfg0.N) (hj : ¬t.val % 64 < 8) (h0 : ¬t.val % 8 = 0) (h7 : t.val % 8 = 7) :
    ¬condK0 (grid0.coords t) ∧ ¬condJK0 (grid0.coords t) ∧ ¬condJ0 (grid0.coords t) ∧ ¬condJK7 (grid0.coords t) ∧ condK7 (grid0.coords t) :=
  ⟨fun h => by have := (hcondK0 t).mp h; omega, fun h => by have := (hcondJK0 t).mp h; omega, fun h => by have := (hcondJ0 t).mp h; omega, fun h => by have := (hcondJK7 t).mp h; omega, (hcondK7 t).mpr (by omega)⟩

/-! ## What the two blocks hold after each point -/

/-- One point's effect on the pair (output block, hidden block), given the pair the point before left. -/
def stepAt (c : Dev nD) (t : Fin cfg0.N) (prev : Vec F S2048x512 .f32 × Vec F S2048x8 .f32) : Vec F S2048x512 .f32 × Vec F S2048x8 .f32 :=
  if hj : t.val % 64 < 8 then
    if h0 : t.val % 8 = 0 then (out6_A c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypA t hj h0).1 (hypA t hj h0).2.1 (hypA t hj h0).2.2.1 (hypA t hj h0).2.2.2.1 (hypA t hj h0).2.2.2.2 (iblk m c 0 t) (iblk m c 1 t) (iblk m c 2 t) (iblk m c 3 t) (iblk m c 4 t) (iblk m c 5 t), sout_A c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypA t hj h0).1 (hypA t hj h0).2.1 (hypA t hj h0).2.2.1 (hypA t hj h0).2.2.2.1 (hypA t hj h0).2.2.2.2 (iblk m c 0 t) (iblk m c 1 t) (iblk m c 2 t) (iblk m c 3 t) (iblk m c 4 t) (iblk m c 5 t))
    else if h7 : t.val % 8 = 7 then (out6_C c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypC t hj h0 h7).1 (hypC t hj h0 h7).2.1 (hypC t hj h0 h7).2.2.1 (hypC t hj h0 h7).2.2.2.1 (hypC t hj h0 h7).2.2.2.2 (iblk m c 0 t) (iblk m c 1 t) (iblk m c 2 t) (iblk m c 3 t) (iblk m c 4 t) (iblk m c 5 t) prev.1 prev.2, sout_C c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypC t hj h0 h7).1 (hypC t hj h0 h7).2.1 (hypC t hj h0 h7).2.2.1 (hypC t hj h0 h7).2.2.2.1 (hypC t hj h0 h7).2.2.2.2 (iblk m c 0 t) (iblk m c 1 t) (iblk m c 2 t) (iblk m c 3 t) (iblk m c 4 t) (iblk m c 5 t) prev.1 prev.2)
    else (out6_B c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypB t hj h0 h7).1 (hypB t hj h0 h7).2.1 (hypB t hj h0 h7).2.2.1 (hypB t hj h0 h7).2.2.2.1 (hypB t hj h0 h7).2.2.2.2 (iblk m c 0 t) (iblk m c 1 t) (iblk m c 2 t) (iblk m c 3 t) (iblk m c 4 t) (iblk m c 5 t) prev.1 prev.2, sout_B c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypB t hj h0 h7).1 (hypB t hj h0 h7).2.1 (hypB t hj h0 h7).2.2.1 (hypB t hj h0 h7).2.2.2.1 (hypB t hj h0 h7).2.2.2.2 (iblk m c 0 t) (iblk m c 1 t) (iblk m c 2 t) (iblk m c 3 t) (iblk m c 4 t) (iblk m c 5 t) prev.1 prev.2)
  else
    if h0 : t.val % 8 = 0 then (out6_D c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypD t hj h0).1 (hypD t hj h0).2.1 (hypD t hj h0).2.2.1 (hypD t hj h0).2.2.2.1 (hypD t hj h0).2.2.2.2 (iblk m c 0 t) (iblk m c 1 t) (iblk m c 2 t) (iblk m c 3 t) (iblk m c 4 t) (iblk m c 5 t) prev.2, prev.2)
    else if h7 : t.val % 8 = 7 then (out6_F c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypF t hj h0 h7).1 (hypF t hj h0 h7).2.1 (hypF t hj h0 h7).2.2.1 (hypF t hj h0 h7).2.2.2.1 (hypF t hj h0 h7).2.2.2.2 (iblk m c 0 t) (iblk m c 1 t) (iblk m c 2 t) (iblk m c 3 t) (iblk m c 4 t) (iblk m c 5 t) prev.1 prev.2, prev.2)
    else (out6_E c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypE t hj h0 h7).1 (hypE t hj h0 h7).2.1 (hypE t hj h0 h7).2.2.1 (hypE t hj h0 h7).2.2.2.1 (hypE t hj h0 h7).2.2.2.2 (iblk m c 0 t) (iblk m c 1 t) (iblk m c 2 t) (iblk m c 3 t) (iblk m c 4 t) (iblk m c 5 t) prev.1 prev.2, prev.2)

/-- A pair nothing consults: what "before the first point" stands for. -/
def junkPair : Vec F S2048x512 .f32 × Vec F S2048x8 .f32 := (VO6.read (Elt F) VO6.junk, VS.read (Elt F) VS.junk)

/-- The pair after the body at position n, by recursion on n. -/
def outsAt (c : Dev nD) : (n : ℕ) → n < cfg0.N → Vec F S2048x512 .f32 × Vec F S2048x8 .f32
  | 0, hn => stepAt m c ⟨0, hn⟩ junkPair
  | n + 1, hn => stepAt m c ⟨n + 1, hn⟩ (outsAt c n (Nat.lt_of_succ_lt hn))

theorem outsAt_zero (c : Dev nD) (t : Fin cfg0.N) (hz : t.val = 0) : outsAt m c t.val t.isLt = stepAt m c t junkPair := by
  obtain ⟨n, hn⟩ := t
  cases n with
  | zero => rfl
  | succ n => exact absurd hz (Nat.succ_ne_zero n)

theorem outsAt_pos (c : Dev nD) (t : Fin cfg0.N) (hz : t.val ≠ 0) :
    outsAt m c t.val t.isLt = stepAt m c t (outsAt m c (t.val - 1) (Nat.lt_of_le_of_lt (Nat.sub_le _ _) t.isLt)) := by
  obtain ⟨n, hn⟩ := t
  cases n with
  | zero => exact absurd rfl hz
  | succ n => rfl

theorem stepAt_A (c : Dev nD) (t : Fin cfg0.N) (prev : Vec F S2048x512 .f32 × Vec F S2048x8 .f32) (hj : t.val % 64 < 8) (h0 : t.val % 8 = 0) :
    stepAt m c t prev = (out6_A c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypA t hj h0).1 (hypA t hj h0).2.1 (hypA t hj h0).2.2.1 (hypA t hj h0).2.2.2.1 (hypA t hj h0).2.2.2.2 (iblk m c 0 t) (iblk m c 1 t) (iblk m c 2 t) (iblk m c 3 t) (iblk m c 4 t) (iblk m c 5 t), sout_A c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypA t hj h0).1 (hypA t hj h0).2.1 (hypA t hj h0).2.2.1 (hypA t hj h0).2.2.2.1 (hypA t hj h0).2.2.2.2 (iblk m c 0 t) (iblk m c 1 t) (iblk m c 2 t) (iblk m c 3 t) (iblk m c 4 t) (iblk m c 5 t)) := by
  unfold stepAt; rw [dif_pos hj, dif_pos h0]

theorem outsAt_A (c : Dev nD) (t : Fin cfg0.N) (hj : t.val % 64 < 8) (h0 : t.val % 8 = 0) :
    outsAt m c t.val t.isLt = (out6_A c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypA t hj h0).1 (hypA t hj h0).2.1 (hypA t hj h0).2.2.1 (hypA t hj h0).2.2.2.1 (hypA t hj h0).2.2.2.2 (iblk m c 0 t) (iblk m c 1 t) (iblk m c 2 t) (iblk m c 3 t) (iblk m c 4 t) (iblk m c 5 t), sout_A c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypA t hj h0).1 (hypA t hj h0).2.1 (hypA t hj h0).2.2.1 (hypA t hj h0).2.2.2.1 (hypA t hj h0).2.2.2.2 (iblk m c 0 t) (iblk m c 1 t) (iblk m c 2 t) (iblk m c 3 t) (iblk m c 4 t) (iblk m c 5 t)) := by
  by_cases hz : t.val = 0
  · rw [outsAt_zero m c t hz, stepAt_A m c t _ hj h0]
  · rw [outsAt_pos m c t hz, stepAt_A m c t _ hj h0]

theorem stepAt_B (c : Dev nD) (t : Fin cfg0.N) (prev : Vec F S2048x512 .f32 × Vec F S2048x8 .f32) (hj : t.val % 64 < 8) (h0 : ¬t.val % 8 = 0) (h7 : ¬t.val % 8 = 7) :
    stepAt m c t prev = (out6_B c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypB t hj h0 h7).1 (hypB t hj h0 h7).2.1 (hypB t hj h0 h7).2.2.1 (hypB t hj h0 h7).2.2.2.1 (hypB t hj h0 h7).2.2.2.2 (iblk m c 0 t) (iblk m c 1 t) (iblk m c 2 t) (iblk m c 3 t) (iblk m c 4 t) (iblk m c 5 t) prev.1 prev.2, sout_B c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypB t hj h0 h7).1 (hypB t hj h0 h7).2.1 (hypB t hj h0 h7).2.2.1 (hypB t hj h0 h7).2.2.2.1 (hypB t hj h0 h7).2.2.2.2 (iblk m c 0 t) (iblk m c 1 t) (iblk m c 2 t) (iblk m c 3 t) (iblk m c 4 t) (iblk m c 5 t) prev.1 prev.2) := by
  unfold stepAt; rw [dif_pos hj, dif_neg h0, dif_neg h7]

theorem outsAt_B (c : Dev nD) (t : Fin cfg0.N) (hj : t.val % 64 < 8) (h0 : ¬t.val % 8 = 0) (h7 : ¬t.val % 8 = 7) :
    outsAt m c t.val t.isLt = (out6_B c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypB t hj h0 h7).1 (hypB t hj h0 h7).2.1 (hypB t hj h0 h7).2.2.1 (hypB t hj h0 h7).2.2.2.1 (hypB t hj h0 h7).2.2.2.2 (iblk m c 0 t) (iblk m c 1 t) (iblk m c 2 t) (iblk m c 3 t) (iblk m c 4 t) (iblk m c 5 t) (outsAt m c (t.val - 1) (Nat.lt_of_le_of_lt (Nat.sub_le _ _) t.isLt)).1 (outsAt m c (t.val - 1) (Nat.lt_of_le_of_lt (Nat.sub_le _ _) t.isLt)).2, sout_B c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypB t hj h0 h7).1 (hypB t hj h0 h7).2.1 (hypB t hj h0 h7).2.2.1 (hypB t hj h0 h7).2.2.2.1 (hypB t hj h0 h7).2.2.2.2 (iblk m c 0 t) (iblk m c 1 t) (iblk m c 2 t) (iblk m c 3 t) (iblk m c 4 t) (iblk m c 5 t) (outsAt m c (t.val - 1) (Nat.lt_of_le_of_lt (Nat.sub_le _ _) t.isLt)).1 (outsAt m c (t.val - 1) (Nat.lt_of_le_of_lt (Nat.sub_le _ _) t.isLt)).2) := by
  rw [outsAt_pos m c t (by omega), stepAt_B m c t _ hj h0 h7]

theorem stepAt_C (c : Dev nD) (t : Fin cfg0.N) (prev : Vec F S2048x512 .f32 × Vec F S2048x8 .f32) (hj : t.val % 64 < 8) (h0 : ¬t.val % 8 = 0) (h7 : t.val % 8 = 7) :
    stepAt m c t prev = (out6_C c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypC t hj h0 h7).1 (hypC t hj h0 h7).2.1 (hypC t hj h0 h7).2.2.1 (hypC t hj h0 h7).2.2.2.1 (hypC t hj h0 h7).2.2.2.2 (iblk m c 0 t) (iblk m c 1 t) (iblk m c 2 t) (iblk m c 3 t) (iblk m c 4 t) (iblk m c 5 t) prev.1 prev.2, sout_C c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypC t hj h0 h7).1 (hypC t hj h0 h7).2.1 (hypC t hj h0 h7).2.2.1 (hypC t hj h0 h7).2.2.2.1 (hypC t hj h0 h7).2.2.2.2 (iblk m c 0 t) (iblk m c 1 t) (iblk m c 2 t) (iblk m c 3 t) (iblk m c 4 t) (iblk m c 5 t) prev.1 prev.2) := by
  unfold stepAt; rw [dif_pos hj, dif_neg h0, dif_pos h7]

theorem outsAt_C (c : Dev nD) (t : Fin cfg0.N) (hj : t.val % 64 < 8) (h0 : ¬t.val % 8 = 0) (h7 : t.val % 8 = 7) :
    outsAt m c t.val t.isLt = (out6_C c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypC t hj h0 h7).1 (hypC t hj h0 h7).2.1 (hypC t hj h0 h7).2.2.1 (hypC t hj h0 h7).2.2.2.1 (hypC t hj h0 h7).2.2.2.2 (iblk m c 0 t) (iblk m c 1 t) (iblk m c 2 t) (iblk m c 3 t) (iblk m c 4 t) (iblk m c 5 t) (outsAt m c (t.val - 1) (Nat.lt_of_le_of_lt (Nat.sub_le _ _) t.isLt)).1 (outsAt m c (t.val - 1) (Nat.lt_of_le_of_lt (Nat.sub_le _ _) t.isLt)).2, sout_C c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypC t hj h0 h7).1 (hypC t hj h0 h7).2.1 (hypC t hj h0 h7).2.2.1 (hypC t hj h0 h7).2.2.2.1 (hypC t hj h0 h7).2.2.2.2 (iblk m c 0 t) (iblk m c 1 t) (iblk m c 2 t) (iblk m c 3 t) (iblk m c 4 t) (iblk m c 5 t) (outsAt m c (t.val - 1) (Nat.lt_of_le_of_lt (Nat.sub_le _ _) t.isLt)).1 (outsAt m c (t.val - 1) (Nat.lt_of_le_of_lt (Nat.sub_le _ _) t.isLt)).2) := by
  rw [outsAt_pos m c t (by omega), stepAt_C m c t _ hj h0 h7]

theorem stepAt_D (c : Dev nD) (t : Fin cfg0.N) (prev : Vec F S2048x512 .f32 × Vec F S2048x8 .f32) (hj : ¬t.val % 64 < 8) (h0 : t.val % 8 = 0) :
    stepAt m c t prev = (out6_D c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypD t hj h0).1 (hypD t hj h0).2.1 (hypD t hj h0).2.2.1 (hypD t hj h0).2.2.2.1 (hypD t hj h0).2.2.2.2 (iblk m c 0 t) (iblk m c 1 t) (iblk m c 2 t) (iblk m c 3 t) (iblk m c 4 t) (iblk m c 5 t) prev.2, prev.2) := by
  unfold stepAt; rw [dif_neg hj, dif_pos h0]

theorem outsAt_D (c : Dev nD) (t : Fin cfg0.N) (hj : ¬t.val % 64 < 8) (h0 : t.val % 8 = 0) :
    outsAt m c t.val t.isLt = (out6_D c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypD t hj h0).1 (hypD t hj h0).2.1 (hypD t hj h0).2.2.1 (hypD t hj h0).2.2.2.1 (hypD t hj h0).2.2.2.2 (iblk m c 0 t) (iblk m c 1 t) (iblk m c 2 t) (iblk m c 3 t) (iblk m c 4 t) (iblk m c 5 t) (outsAt m c (t.val - 1) (Nat.lt_of_le_of_lt (Nat.sub_le _ _) t.isLt)).2, (outsAt m c (t.val - 1) (Nat.lt_of_le_of_lt (Nat.sub_le _ _) t.isLt)).2) := by
  rw [outsAt_pos m c t (by omega), stepAt_D m c t _ hj h0]

theorem stepAt_E (c : Dev nD) (t : Fin cfg0.N) (prev : Vec F S2048x512 .f32 × Vec F S2048x8 .f32) (hj : ¬t.val % 64 < 8) (h0 : ¬t.val % 8 = 0) (h7 : ¬t.val % 8 = 7) :
    stepAt m c t prev = (out6_E c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypE t hj h0 h7).1 (hypE t hj h0 h7).2.1 (hypE t hj h0 h7).2.2.1 (hypE t hj h0 h7).2.2.2.1 (hypE t hj h0 h7).2.2.2.2 (iblk m c 0 t) (iblk m c 1 t) (iblk m c 2 t) (iblk m c 3 t) (iblk m c 4 t) (iblk m c 5 t) prev.1 prev.2, prev.2) := by
  unfold stepAt; rw [dif_neg hj, dif_neg h0, dif_neg h7]

theorem outsAt_E (c : Dev nD) (t : Fin cfg0.N) (hj : ¬t.val % 64 < 8) (h0 : ¬t.val % 8 = 0) (h7 : ¬t.val % 8 = 7) :
    outsAt m c t.val t.isLt = (out6_E c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypE t hj h0 h7).1 (hypE t hj h0 h7).2.1 (hypE t hj h0 h7).2.2.1 (hypE t hj h0 h7).2.2.2.1 (hypE t hj h0 h7).2.2.2.2 (iblk m c 0 t) (iblk m c 1 t) (iblk m c 2 t) (iblk m c 3 t) (iblk m c 4 t) (iblk m c 5 t) (outsAt m c (t.val - 1) (Nat.lt_of_le_of_lt (Nat.sub_le _ _) t.isLt)).1 (outsAt m c (t.val - 1) (Nat.lt_of_le_of_lt (Nat.sub_le _ _) t.isLt)).2, (outsAt m c (t.val - 1) (Nat.lt_of_le_of_lt (Nat.sub_le _ _) t.isLt)).2) := by
  rw [outsAt_pos m c t (by omega), stepAt_E m c t _ hj h0 h7]

theorem stepAt_F (c : Dev nD) (t : Fin cfg0.N) (prev : Vec F S2048x512 .f32 × Vec F S2048x8 .f32) (hj : ¬t.val % 64 < 8) (h0 : ¬t.val % 8 = 0) (h7 : t.val % 8 = 7) :
    stepAt m c t prev = (out6_F c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypF t hj h0 h7).1 (hypF t hj h0 h7).2.1 (hypF t hj h0 h7).2.2.1 (hypF t hj h0 h7).2.2.2.1 (hypF t hj h0 h7).2.2.2.2 (iblk m c 0 t) (iblk m c 1 t) (iblk m c 2 t) (iblk m c 3 t) (iblk m c 4 t) (iblk m c 5 t) prev.1 prev.2, prev.2) := by
  unfold stepAt; rw [dif_neg hj, dif_neg h0, dif_pos h7]

theorem outsAt_F (c : Dev nD) (t : Fin cfg0.N) (hj : ¬t.val % 64 < 8) (h0 : ¬t.val % 8 = 0) (h7 : t.val % 8 = 7) :
    outsAt m c t.val t.isLt = (out6_F c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (hypF t hj h0 h7).1 (hypF t hj h0 h7).2.1 (hypF t hj h0 h7).2.2.1 (hypF t hj h0 h7).2.2.2.1 (hypF t hj h0 h7).2.2.2.2 (iblk m c 0 t) (iblk m c 1 t) (iblk m c 2 t) (iblk m c 3 t) (iblk m c 4 t) (iblk m c 5 t) (outsAt m c (t.val - 1) (Nat.lt_of_le_of_lt (Nat.sub_le _ _) t.isLt)).1 (outsAt m c (t.val - 1) (Nat.lt_of_le_of_lt (Nat.sub_le _ _) t.isLt)).2, (outsAt m c (t.val - 1) (Nat.lt_of_le_of_lt (Nat.sub_le _ _) t.isLt)).2) := by
  rw [outsAt_pos m c t (by omega), stepAt_F m c t _ hj h0 h7]

/-! ## The invariant: the hidden block tracked from point to point -/

/-- Before position n: at the first point the buffer of the hidden block at anything; afterwards at what the point
    before left in it; the generator register at some state throughout. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The proof data -/

/-- The arrays as the region finds them; after the body each input's buffer at its block and the output's at the
    running block; the invariant tracking the hidden block; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- At a point with k > 0 the output block's buffer holds what the body left at the point before: the point is not
    the first and the block was not written back between. -/
theorem before6_acc (c : Dev nD) (t : Fin cfg0.N) (h0 : ¬t.val % 8 = 0) (d) :
    (dats m 0 c).before 6 t d = (outsAt m c (t.val - 1) (Nat.lt_of_le_of_lt (Nat.sub_le _ _) t.isLt)).1 := by
  have hN : t.val < 512 := lt_of_lt_of_eq t.isLt (show cfg0.N = 512 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 8000000 in
/-- The body at any point: the inputs' buffers hold their blocks; the point's number says which case it is in; the
    output block (where the case reads it first) and the hidden block hold what the point before left; so the case's
    run applies, and what it leaves is what the proof data name. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [after0, after1, after2, after3, after4, after5, after6]
  have hN : t.val < 512 := lt_of_lt_of_eq t.isLt (show cfg0.N = 512 from N_0)
  by_cases hj : t.val % 64 < 8
  · by_cases h0 : t.val % 8 = 0
    · rw [outsAt_A m c t hj h0]
      unfold out6_A sout_A; (try dsimp only)
      by_cases hz : t.val = 0
      · rw [PhiS_castSucc m c t, PhiS_zero m c _ _ hz, PhiA0_eq]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((kernelRunA c (grid0.coords t) _ _ _ _ _ _ _ _ _ _ _ _ _ _ _ _ (hypA t hj h0).1 (hypA t hj h0).2.1 (hypA t hj h0).2.2.1 (hypA t hj h0).2.2.2.1 (hypA t hj h0).2.2.2.2 (iblk m c 0 t) (iblk m c 1 t) (iblk m c 2 t) (iblk m c 3 t) (iblk m c 4 t) (iblk m c 5 t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS]; · iexact HS
        iintro ⟨H0, H1, H2, H3, H4, H5, ⟨%e6, H6⟩, ⟨%es, HS⟩⟩
        isplitl [HS Hg]
        · isplitl [HS]
          · unfold owns; iexists _; isplitr
            swap; · iexact HS
            ipureintro; exact View.read_writes_of_cover _ _ _ _ _ (scover_A c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover6_A c _ _ _ _ _ _ _ _ _ _ _ _ _ _ _ _ _ _ _ _ _ _ _ _ _ _ _ _)
      · rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((kernelRunA c (grid0.coords t) _ _ _ _ _ _ _ _ _ _ _ _ _ _ _ _ (hypA t hj h0).1 (hypA t hj h0).2.1 (hypA t hj h0).2.2.1 (hypA t hj h0).2.2.2.1 (hypA t hj h0).2.2.2.2 (iblk m c 0 t) (iblk m c 1 t) (iblk m c 2 t) (iblk m c 3 t) (iblk m c 4 t) (iblk m c 5 t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS]; · iexists _; iexact HS
        iintro ⟨H0, H1, H2, H3, H4, H5, ⟨%e6, H6⟩, ⟨%es, HS⟩⟩
        isplitl [HS Hg]
        · isplitl [HS]
          · unfold owns; iexists _; isplitr
            swap; · iexact HS
            ipureintro; exact View.read_writes_of_cover _ _ _ _ _ (scover_A c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover6_A c _ _ _ _ _ _ _ _ _ _ _ _ _ _ _ _ _ _ _ _ _ _ _ _ _ _ _ _)
    · have hz : t.val ≠ 0 := by omega
      by_cases h7 : t.val % 8 = 7
      · rw [outsAt_C m c t hj h0 h7]
        simp only [before6_acc m c t h0]
        unfold out6_C sout_C; (try dsimp only)
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((kernelRunC c (grid0.coords t) _ _ _ _ _ _ _ _ _ _ _ _ _ _ _ _ (hypC t hj h0 h7).1 (hypC t hj h0 h7).2.1 (hypC t hj h0 h7).2.2.1 (hypC t hj h0 h7).2.2.2.1 (hypC t hj h0 h7).2.2.2.2 (iblk m c 0 t) (iblk m c 1 t) (iblk m c 2 t) (iblk m c 3 t) (iblk m c 4 t) (iblk m c 5 t) _ _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, ⟨%e6, H6⟩, ⟨%es, HS⟩⟩
        isplitl [HS Hg]
        · isplitl [HS]
          · unfold owns; iexists _; isplitr
            swap; · iexact HS
            ipureintro; exact View.read_writes_of_cover _ _ _ _ _ (scover_C c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover6_C c _ _ _ _ _ _ _ _ _ _ _ _ _ _ _ _ _ _ _ _ _ _ _ _ _ _ _ _ _ _)
      · rw [outsAt_B m c t hj h0 h7]
        simp only [before6_acc m c t h0]
        unfold out6_B sout_B; (try dsimp only)
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((kernelRunB c (grid0.coords t) _ _ _ _ _ _ _ _ _ _ _ _ _ _ _ _ (hypB t hj h0 h7).1 (hypB t hj h0 h7).2.1 (hypB t hj h0 h7).2.2.1 (hypB t hj h0 h7).2.2.2.1 (hypB t hj h0 h7).2.2.2.2 (iblk m c 0 t) (iblk m c 1 t) (iblk m c 2 t) (iblk m c 3 t) (iblk m c 4 t) (iblk m c 5 t) _ _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, ⟨%e6, H6⟩, ⟨%es, HS⟩⟩
        isplitl [HS Hg]
        · isplitl [HS]
          · unfold owns; iexists _; isplitr
            swap; · iexact HS
            ipureintro; exact View.read_writes_of_cover _ _ _ _ _ (scover_B c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover6_B c _ _ _ _ _ _ _ _ _ _ _ _ _ _ _ _ _ _ _ _ _ _ _ _ _ _ _ _ _ _)
  · have hz : t.val ≠ 0 := by omega
    by_cases h0 : t.val % 8 = 0
    · rw [outsAt_D m c t hj h0]
      unfold out6_D; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((kernelRunD c (grid0.coords t) _ _ _ _ _ _ _ _ _ _ _ _ _ _ _ _ (hypD t hj h0).1 (hypD t hj h0).2.1 (hypD t hj h0).2.2.1 (hypD t hj h0).2.2.2.1 (hypD t hj h0).2.2.2.2 (iblk m c 0 t) (iblk m c 1 t) (iblk m c 2 t) (iblk m c 3 t) (iblk m c 4 t) (iblk m c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover6_D c _ _ _ _ _ _ _ _ _ _ _ _ _ _ _ _ _ _ _ _ _ _ _ _ _ _ _ _ _)
    · by_cases h7 : t.val % 8 = 7
      · rw [outsAt_F m c t hj h0 h7]
        simp only [before6_acc m c t h0]
        unfold out6_F; (try dsimp only)
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((kernelRunF c (grid0.coords t) _ _ _ _ _ _ _ _ _ _ _ _ _ _ _ _ (hypF t hj h0 h7).1 (hypF t hj h0 h7).2.1 (hypF t hj h0 h7).2.2.1 (hypF t hj h0 h7).2.2.2.1 (hypF t hj h0 h7).2.2.2.2 (iblk m c 0 t) (iblk m c 1 t) (iblk m c 2 t) (iblk m c 3 t) (iblk m c 4 t) (iblk m c 5 t) _ _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, ⟨%e6, H6⟩, HS⟩
        isplitl [HS Hg]
        · isplitl [HS]
          · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover6_F c _ _ _ _ _ _ _ _ _ _ _ _ _ _ _ _ _ _ _ _ _ _ _ _ _ _ _ _ _ _)
      · rw [outsAt_E m c t hj h0 h7]
        simp only [before6_acc m c t h0]
        unfold out6_E; (try dsimp only)
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((kernelRunE c (grid0.coords t) _ _ _ _ _ _ _ _ _ _ _ _ _ _ _ _ (hypE t hj h0 h7).1 (hypE t hj h0 h7).2.1 (hypE t hj h0 h7).2.2.1 (hypE t hj h0 h7).2.2.2.1 (hypE t hj h0 h7).2.2.2.2 (iblk m c 0 t) (iblk m c 1 t) (iblk m c 2 t) (iblk m c 3 t) (iblk m c 4 t) (iblk m c 5 t) _ _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, ⟨%e6, H6⟩, HS⟩
        isplitl [HS Hg]
        · isplitl [HS]
          · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover6_E c _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 512 := N_0; omega)

/-! ## The run and the frame -/

set_option backward.isDefEq.respectTransparency.types false in
/-- Every weakly fair execution of @main terminates without a fault, every array of the kernel call ends at what the
    proof data compute, and every other buffer as the host lines after the call leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end and leaves its six argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.KernelHost.lean ====
/-
  The host operations around the kernel's one region, on the extended reals.

  Before the region the program flattens the activations [4, 4096, 4096] and the gates [4, 4096, 8] to 16384 rows
  (row r is batch r / 4096, position r % 4096), narrows the activations and the three weight arrays to bf16, which
  on the extended reals changes nothing, and gives the bias a leading unit axis. After the region it unflattens
  the kernel's [16384, 4096] result to [4, 4096, 4096]: entry (b, s, o) is row b · 4096 + s, column o. A reshape
  keeps the row-major position of every entry, so each statement is one comparison of row-major positions.
-/
import proofs.«141770_j57226144252251_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal

set_option maxRecDepth 16384

noncomputable section

namespace Cert.KernelIdeal.Host

open Idealize.ShloMosaic Idealize.ShloMosaic.TcCoe Idealize.ShloMosaic.ValueIdx Idealize.ShloMosaic.StableHlo
open Idealize.ShloMosaic.Rounds
open Cert.KernelIdeal Cert.KernelIdeal.Gen

variable (m : (ℓ : Loc nD τ sig) → Buf (Elt Ideal) ℓ) (c : Dev nD)

/-! ## The arrays the region finds -/

/-- The activations as the region finds them: the flattened argument (the narrowing is the identity). -/
theorem V_x_cast : (Gen.V (F := Ideal) m c main_v1 : S16384x4096.Idx → EReal)
    = shapeCast S16384x4096 (m ((c : Thread nD τ).loc main_arg0) : S4x4096x4096.Idx → EReal) shapeCasts_S4x4096x4096_S16384x4096 := by
  show StableHlo.after hostOps0 (fun b => m (c, b)) (Proc.devRef .tc main_v1) = _
  after_results
  rfl

/-- Row r, column d of the flattened activations is entry (r / 4096, r % 4096, d) of the argument. -/
theorem V_x (r : Fin 16384) (d : Fin 4096) :
    (Gen.V (F := Ideal) m c main_v1 : S16384x4096.Idx → EReal) (ix2 r d)
      = (m ((c : Thread nD τ).loc main_arg0) : S4x4096x4096.Idx → EReal) (ix3 ⟨r.val / 4096, by omega⟩ ⟨r.val % 4096, by omega⟩ d) := by
  rw [V_x_cast]
  exact shapeCast_apply _ _ _ _ (by
    show (S4x4096x4096.rowMajor (ix3 (⟨r.val / 4096, by omega⟩ : Fin 4) (⟨r.val % 4096, by omega⟩ : Fin 4096) d)).val
      = (S16384x4096.rowMajor (ix2 r d)).val
    rw [Shape.rowMajor_val_three, Shape.rowMajor_val_two]
    show ((r.val / 4096) * 4096 + r.val % 4096) * 4096 + d.val = r.val * 4096 + d.val
    omega)

/-- The gates as the region finds them: the flattened argument. -/
theorem V_codes_cast : (Gen.V (F := Ideal) m c main_v2 : S16384x8.Idx → EReal)
    = shapeCast S16384x8 (m ((c : Thread nD τ).loc main_arg1) : S4x4096x8.Idx → EReal) shapeCasts_S4x4096x8_S16384x8 := by
  show StableHlo.after hostOps0 (fun b => m (c, b)) (Proc.devRef .tc main_v2) = _
  after_results
  rfl

/-- Row r, column q of the flattened gates is entry (r / 4096, r % 4096, q) of the argument. -/
theorem V_codes (r : Fin 16384) (q : Fin 8) :
    (Gen.V (F := Ideal) m c main_v2 : S16384x8.Idx → EReal) (ix2 r q)
      = (m ((c : Thread nD τ).loc main_arg1) : S4x4096x8.Idx → EReal) (ix3 ⟨r.val / 4096, by omega⟩ ⟨r.val % 4096, by omega⟩ q) := by
  rw [V_codes_cast]
  exact shapeCast_apply _ _ _ _ (by
    show (S4x4096x8.rowMajor (ix3 (⟨r.val / 4096, by omega⟩ : Fin 4) (⟨r.val % 4096, by omega⟩ : Fin 4096) q)).val
      = (S16384x8.rowMajor (ix2 r q)).val
    rw [Shape.rowMajor_val_three, Shape.rowMajor_val_two]
    show ((r.val / 4096) * 4096 + r.val % 4096) * 8 + q.val = r.val * 8 + q.val
    omega)

/-- The dense weights as the region finds them: the argument itself. -/
theorem V_w : (Gen.V (F := Ideal) m c main_v3 : S4096x4096.Idx → EReal) = m ((c : Thread nD τ).loc main_arg2) := by
  show StableHlo.after hostOps0 (fun b => m (c, b)) (Proc.devRef .tc main_v3) = _
  after_results
  rfl

/-- The first low-rank factor as the region finds it: the argument itself. -/
theorem V_v : (Gen.V (F := Ideal) m c main_v4 : S4096x8.Idx → EReal) = m ((c : Thread nD τ).loc main_arg4) := by
  show StableHlo.after hostOps0 (fun b => m (c, b)) (Proc.devRef .tc main_v4) = _
  after_results
  rfl

/-- The second low-rank factor as the region finds it: the argument itself. -/
theorem V_u : (Gen.V (F := Ideal) m c main_v5 : S4096x8.Idx → EReal) = m ((c : Thread nD τ).loc main_arg5) := by
  show StableHlo.after hostOps0 (fun b => m (c, b)) (Proc.devRef .tc main_v5) = _
  after_results
  rfl

/-- The bias as the region finds it: the argument with a leading unit axis. -/
theorem V_bias_cast : (Gen.V (F := Ideal) m c main_v6 : S1x4096.Idx → EReal)
    = shapeCast S1x4096 (m ((c : Thread nD τ).loc main_arg3) : S4096.Idx → EReal) shapeCasts_S4096_S1x4096 := by
  show StableHlo.after hostOps0 (fun b => m (c, b)) (Proc.devRef .tc main_v6) = _
  after_results
  rfl

/-- Entry (0, o) of the bias row is entry o of the argument. -/
theorem V_bias (o : Fin 4096) :
    (Gen.V (F := Ideal) m c main_v6 : S1x4096.Idx → EReal) (ix2 (0 : Fin 1) o)
      = (m ((c : Thread nD τ).loc main_arg3) : S4096.Idx → EReal) (ix1 o) := by
  rw [V_bias_cast]
  exact shapeCast_a_1a_apply _ _ _ _

/-! ## The result after the region -/

/-- The program's result: the output window's final array, unflattened. -/
theorem tail_v8_cast (dats : (p : Fin 1) → (c : Dev nD) → Pipeline.Dat τ (Elt Ideal) Unit ℕ (UR sig nD τ) ℕ (cfgs p) c) :
    (Pipeline.afterTail₀ cfgs dats 0 (Gen.V0 m) [hostOps1] c main_v8 : S4x4096x4096.Idx → EReal)
      = shapeCast S4x4096x4096 ((dats 0 c).arrAt 6 cfg0.N : S16384x4096.Idx → EReal) shapeCasts_S16384x4096_S4x4096x4096 := by
  unfold Pipeline.afterTail₀
  show StableHlo.after hostOps1 _ (Proc.devRef .tc main_v8) = _
  after_results
  have h := Pipeline.withArrays_arr spec0 launch0.win.arr_inj c (Gen.V0 m c) (fun w => (dats 0 c).arrAt w cfg0.N) 6
  exact congrArg (fun x : S16384x4096.Idx → EReal => shapeCast S4x4096x4096 x shapeCasts_S16384x4096_S4x4096x4096) h

/-- Entry (b, s, o) of the program's result is row b · 4096 + s, column o of the output window's final array. -/
theorem tail_v8 (dats : (p : Fin 1) → (c : Dev nD) → Pipeline.Dat τ (Elt Ideal) Unit ℕ (UR sig nD τ) ℕ (cfgs p) c)
    (b : Fin 4) (s : Fin 4096) (o : Fin 4096) :
    (Pipeline.afterTail₀ cfgs dats 0 (Gen.V0 m) [hostOps1] c main_v8 : S4x4096x4096.Idx → EReal) (ix3 b s o)
      = ((dats 0 c).arrAt 6 cfg0.N : S16384x4096.Idx → EReal) (ix2 ⟨b.val * 4096 + s.val, by omega⟩ o) := by
  rw [tail_v8_cast]
  exact shapeCast_apply _ _ _ _ (by
    show (S16384x4096.rowMajor (ix2 (⟨b.val * 4096 + s.val, by omega⟩ : Fin 16384) o)).val
      = (S4x4096x4096.rowMajor (ix3 b s o)).val
    rw [Shape.rowMajor_val_three, Shape.rowMajor_val_two]
    rfl)

end Cert.KernelIdeal.Host

end
-- ==== Proof.LibBandSum.lean ====
/-
  A sum over 2048 consecutive indices, split into 8 bands of 256.

  A sum over the first m · n naturals is the sum, over the bands j < m, of the sums over the n naturals starting at
  n · j: one band more adds the n indices from n · m on. Both sides of the identity are such sums, a sum over `Fin k` of a
  function of the value being the sum over the first k naturals.
-/
import Mathlib.Data.Fintype.BigOperators
import Mathlib.Algebra.BigOperators.Intervals

namespace Cert.Lib

/-- The first m · n naturals, band by band: m bands of n consecutive indices, band j starting at n · j. -/
theorem sum_range_bands {M : Type*} [AddCommMonoid M] (f : ℕ → M) (n : ℕ) :
    ∀ m : ℕ, ∑ j ∈ Finset.range m, ∑ p ∈ Finset.range n, f (n * j + p) = ∑ q ∈ Finset.range (m * n), f q
  | 0 => by rw [Finset.sum_range_zero, Nat.zero_mul, Finset.sum_range_zero]
  | m + 1 => by
    rw [Finset.sum_range_succ, sum_range_bands f n m, Nat.add_one_mul, Finset.sum_range_add, Nat.mul_comm n m]

/-- Eight bands of 256 make up the first 2048 indices. -/
theorem sum_bands {M : Type*} [AddCommMonoid M] (f : ℕ → M) :
    ∑ j ∈ Finset.range 8, ∑ p : Fin 256, f (256 * j + p.val) = ∑ q : Fin 2048, f q.val := by
  have h : ∑ q : Fin 2048, f q.val = ∑ q ∈ Finset.range (8 * 256), f q := Fin.sum_univ_eq_sum_range f 2048
  rw [h, ← sum_range_bands f 256 8]
  exact Finset.sum_congr rfl fun j _ => Fin.sum_univ_eq_sum_range (fun p => f (256 * j + p)) 256

end Cert.Lib
-- ==== Proof.Bands.lean ====
/-
  A sum over 4096 terms taken in 8 bands of 512, one band at a time onto a zero start.

  band f k is the sum of the 512 terms of band k; upTo f n is what stands after bands 0..n have been added, in that
  order and with that grouping, onto 0. After the last band the total is the plain sum over all 4096 indices: the
  additions of the extended reals are commutative and associative, and the first 4096 naturals are 8 consecutive
  runs of 512.
-/
import Mathlib.Data.EReal.Basic
import Mathlib.Algebra.BigOperators.Fin
import proofs.«141770_j57226144252251_2_alg».proof.Proof.LibBandSum

noncomputable section

open scoped BigOperators

namespace Cert.Bands

/-- The sum of the 512 terms of band k. -/
def band (f : Fin 4096 → EReal) (k : Fin 8) : EReal := ∑ q : Fin 512, f ⟨k.val * 512 + q.val, by omega⟩

/-- Bands 0..n added one at a time onto 0, in this order and grouping. -/
def upTo (f : Fin 4096 → EReal) : ℕ → EReal
  | 0 => 0 + band f 0
  | n + 1 => upTo f n + (if h : n + 1 < 8 then band f ⟨n + 1, h⟩ else 0)

theorem upTo_zero (f : Fin 4096 → EReal) : upTo f 0 = 0 + band f 0 := rfl

theorem upTo_succ (f : Fin 4096 → EReal) (n : ℕ) (h : n + 1 < 8) : upTo f (n + 1) = upTo f n + band f ⟨n + 1, h⟩ := by
  show upTo f n + (if h : n + 1 < 8 then band f ⟨n + 1, h⟩ else 0) = _
  rw [dif_pos h]

/-- The eight bands together are the whole sum. -/
theorem sum_band (f : Fin 4096 → EReal) : ∑ k : Fin 8, band f k = ∑ d : Fin 4096, f d := by
  -- f extended by 0 to all naturals, so that both sides are sums over initial segments of ℕ
  let g : ℕ → EReal := fun n => if h : n < 4096 then f ⟨n, h⟩ else 0
  have hf : ∀ d : Fin 4096, f d = g d.val := fun d => by
    show f d = if h : d.val < 4096 then f ⟨d.val, h⟩ else 0
    rw [dif_pos d.isLt]
  have hb : ∀ k : Fin 8, band f k = ∑ p ∈ Finset.range 512, g (512 * k.val + p) := by
    intro k
    rw [← Fin.sum_univ_eq_sum_range (fun p => g (512 * k.val + p)) 512]
    refine Finset.sum_congr rfl fun q _ => ?_
    rw [hf]
    exact congrArg g (by show k.val * 512 + q.val = 512 * k.val + q.val; omega)
  calc ∑ k : Fin 8, band f k
      = ∑ k : Fin 8, ∑ p ∈ Finset.range 512, g (512 * k.val + p) := Finset.sum_congr rfl fun k _ => hb k
    _ = ∑ j ∈ Finset.range 8, ∑ p ∈ Finset.range 512, g (512 * j + p) :=
        Fin.sum_univ_eq_sum_range (fun j => ∑ p ∈ Finset.range 512, g (512 * j + p)) 8
    _ = ∑ q ∈ Finset.range (8 * 512), g q := Cert.Lib.sum_range_bands g 512 8
    _ = ∑ d : Fin 4096, g d.val := (Fin.sum_univ_eq_sum_range g 4096).symm
    _ = ∑ d : Fin 4096, f d := Finset.sum_congr rfl fun d _ => (hf d).symm

/-- After the eighth band the running total is the sum over all 4096 indices. -/
theorem upTo_seven (f : Fin 4096 → EReal) : upTo f 7 = ∑ d : Fin 4096, f d := by
  rw [← sum_band f, Fin.sum_univ_eight]
  rw [upTo_succ f 6 (by omega), upTo_succ f 5 (by omega), upTo_succ f 4 (by omega), upTo_succ f 3 (by omega),
    upTo_succ f 2 (by omega), upTo_succ f 1 (by omega), upTo_succ f 0 (by omega), upTo_zero, zero_add]
  rfl

/-- A term added inside the right summand may be added to the left summand instead. -/
theorem regroup (S L b : EReal) : S + (L + b) = (S + b) + L := by
  rw [add_comm L b, add_assoc]

end Cert.Bands

end
-- ==== Proof.Spec.lean ====
/-
  The function both programs compute, entry by entry, on the extended reals.

  For a batch b, a position s and an output channel o, with D = 4096 input channels and a rank-8 side path:

    out[b,s,o] = (sum_d x[b,s,d] * W[o,d] + bias[o])
                 + (sum_r ((sum_d x[b,s,d] * V[d,r]) * codes[b,s,r]) * U[o,r]) * 2

  a dense layer plus a low-rank update whose hidden row is gated entrywise by `codes`. The factor 2 is kept as the
  f32 word both programs print for it, so it is never evaluated. No finiteness is assumed anywhere: the two programs
  differ only in how the sums over d are grouped and in the order of the last additions.
-/
import Idealize.ShloMosaic.PureOps.Ideal
import Idealize.ShloMosaic.Lib.ValueIdx

noncomputable section

open scoped BigOperators

namespace Cert.Spec

open Idealize.ShloMosaic Idealize.ShloMosaic.ValueIdx

/-- The activations, [4, 4096, 4096]. -/
abbrev SX : Shape := ⟨3, ![4, 4096, 4096]⟩
/-- The gates of the hidden row, [4, 4096, 8]. -/
abbrev SC : Shape := ⟨3, ![4, 4096, 8]⟩
/-- The dense weights, [4096, 4096], one output channel per row. -/
abbrev SW : Shape := ⟨2, ![4096, 4096]⟩
/-- The bias, [4096]. -/
abbrev SB : Shape := ⟨1, ![4096]⟩
/-- Either low-rank factor, [4096, 8]. -/
abbrev SR : Shape := ⟨2, ![4096, 8]⟩

/-- The scale of the low-rank update: the f32 word of 2. -/
def scale : EReal := Ideal.ofBits .f32 0x40000000#32

/-- The dense part before the bias: row (b,s) of x against row o of W. -/
def dense (x : SX.Idx → EReal) (W : SW.Idx → EReal) (b : Fin 4) (s : Fin 4096) (o : Fin 4096) : EReal :=
  ∑ d : Fin 4096, x (ix3 b s d) * W (ix2 o d)

/-- The gated hidden row: row (b,s) of x against column r of V, times the gate. -/
def hidden (x : SX.Idx → EReal) (codes : SC.Idx → EReal) (V : SR.Idx → EReal) (b : Fin 4) (s : Fin 4096) (r : Fin 8) : EReal :=
  (∑ d : Fin 4096, x (ix3 b s d) * V (ix2 d r)) * codes (ix3 b s r)

/-- The low-rank part before scaling: the hidden row against row o of U. -/
def lowRank (x : SX.Idx → EReal) (codes : SC.Idx → EReal) (V U : SR.Idx → EReal) (b : Fin 4) (s : Fin 4096) (o : Fin 4096) : EReal :=
  ∑ r : Fin 8, hidden x codes V b s r * U (ix2 o r)

/-- One entry of the result. -/
def entry (x : SX.Idx → EReal) (codes : SC.Idx → EReal) (W : SW.Idx → EReal) (bias : SB.Idx → EReal) (V U : SR.Idx → EReal)
    (b : Fin 4) (s : Fin 4096) (o : Fin 4096) : EReal :=
  (dense x W b s o + bias (ix1 o)) + lowRank x codes V U b s o * scale

/-- The whole result as one function of the six argument arrays. -/
def G (x : SX.Idx → EReal) (codes : SC.Idx → EReal) (W : SW.Idx → EReal) (bias : SB.Idx → EReal) (V U : SR.Idx → EReal) :
    SX.Idx → EReal :=
  fun i => entry x codes W bias V U (i 0) (i 1) (i 2)

theorem G_apply (x : SX.Idx → EReal) (codes : SC.Idx → EReal) (W : SW.Idx → EReal) (bias : SB.Idx → EReal) (V U : SR.Idx → EReal)
    (b : Fin 4) (s : Fin 4096) (o : Fin 4096) :
    G x codes W bias V U (ix3 b s o) = entry x codes W bias V U b s o := rfl

end Cert.Spec

end
-- ==== Proof.KI_Closed.lean ====
/-
  The kernel's result in closed form, and that it is the specification.

  Row `row` of the flattened activations (batch row / 4096, position row % 4096) and output channel `col`: the
  kernel adds the 4096 products x[row,d] * W[col,d] up in 8 bands of 512 onto 0, then adds
  (sum_r hid[row,r] * U[col,r]) * 2 + bias[col], where hid[row,r] is the 4096 products x[row,d] * V[d,r] added up
  the same way, times codes[row,r]. A sum added up in bands is the sum; the last additions are regrouped by
  commutativity and associativity alone.
-/
import proofs.«141770_j57226144252251_2_alg».proof.Proof.KernelHost
import proofs.«141770_j57226144252251_2_alg».proof.Proof.Bands
import proofs.«141770_j57226144252251_2_alg».proof.Proof.Spec

noncomputable section

open scoped BigOperators

namespace Cert.KernelIdeal.Val

open Cert.KernelIdeal Cert.KernelIdeal.Gen Cert.KernelIdeal.Host Cert.Bands
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The six arrays as the kernel call finds them, as functions into the extended reals: the flattened activations,
    the flattened gates, the dense weights, the bias row, and the two low-rank factors. -/
def Xa : S16384x4096.Idx → EReal := Gen.V (F := Ideal) m c main_v1
def Ca : S16384x8.Idx → EReal := Gen.V (F := Ideal) m c main_v2
def Wa : S4096x4096.Idx → EReal := Gen.V (F := Ideal) m c main_v3
def Ba : S1x4096.Idx → EReal := Gen.V (F := Ideal) m c main_v6
def Va : S4096x8.Idx → EReal := Gen.V (F := Ideal) m c main_v4
def Ua : S4096x8.Idx → EReal := Gen.V (F := Ideal) m c main_v5

/-- The 4096 terms of the dense sum at (row, col). -/
def fW (row : Fin 16384) (col : Fin 4096) : Fin 4096 → EReal := fun d => Xa m c (ix2 row d) * Wa m c (ix2 col d)

/-- The 4096 terms of the hidden sum at (row, r). -/
def fV (row : Fin 16384) (r : Fin 8) : Fin 4096 → EReal := fun d => Xa m c (ix2 row d) * Va m c (ix2 d r)

/-- The finished hidden entry: all eight bands, gated. -/
def hid (row : Fin 16384) (r : Fin 8) : EReal :=
  upTo (fV m c row r) 7 * Ca m c (ix2 row r)

/-- What the last step of a row's sweep adds to the output entry. -/
def lastAdd (row : Fin 16384) (col : Fin 4096) : EReal :=
  (∑ r : Fin 8, hid m c row r * Ua m c (ix2 col r)) * Cert.Spec.scale + Ba m c (ix2 (0 : Fin 1) col)

/-- The kernel call's whole result, [16384, 4096]. -/
def Gk : S16384x4096.Idx → EReal := fun i =>
  upTo (fW m c (i 0) (i 1)) 7 + lastAdd m c (i 0) (i 1)

theorem Gk_apply (row : Fin 16384) (col : Fin 4096) :
    Gk m c (ix2 row col) = upTo (fW m c row col) 7 + lastAdd m c row col := rfl

/-- Row b * 4096 + s of the flattened arrays is (b, s). -/
theorem Gk_spec (b : Fin 4) (s : Fin 4096) (o : Fin 4096) :
    Gk m c (ix2 ⟨b.val * 4096 + s.val, by omega⟩ o)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix3 b s o) := by
  have hb : (⟨(b.val * 4096 + s.val) / 4096, by omega⟩ : Fin 4) = b := Fin.ext (by show (b.val * 4096 + s.val) / 4096 = b.val; omega)
  have hs : (⟨(b.val * 4096 + s.val) % 4096, by omega⟩ : Fin 4096) = s := Fin.ext (by show (b.val * 4096 + s.val) % 4096 = s.val; omega)
  have hx : ∀ d : Fin 4096, Xa m c (ix2 ⟨b.val * 4096 + s.val, by omega⟩ d)
      = (m ((c : Thread nD τ).loc main_arg0) : S4x4096x4096.Idx → EReal) (ix3 b s d) := fun d => by
    unfold Xa; rw [V_x m c ⟨b.val * 4096 + s.val, by omega⟩ d]; dsimp only; rw [hb, hs]
  have hc : ∀ r : Fin 8, Ca m c (ix2 ⟨b.val * 4096 + s.val, by omega⟩ r)
      = (m ((c : Thread nD τ).loc main_arg1) : S4x4096x8.Idx → EReal) (ix3 b s r) := fun r => by
    unfold Ca; rw [V_codes m c ⟨b.val * 4096 + s.val, by omega⟩ r]; dsimp only; rw [hb, hs]
  have hw : ∀ i, Wa m c i = (m ((c : Thread nD τ).loc main_arg2) : S4096x4096.Idx → EReal) i := fun i => by unfold Wa; rw [V_w m c]
  have hv : ∀ i, Va m c i = (m ((c : Thread nD τ).loc main_arg4) : S4096x8.Idx → EReal) i := fun i => by unfold Va; rw [V_v m c]
  have hu : ∀ i, Ua m c i = (m ((c : Thread nD τ).loc main_arg5) : S4096x8.Idx → EReal) i := fun i => by unfold Ua; rw [V_u m c]
  have hbias : Ba m c (ix2 (0 : Fin 1) o) = (m ((c : Thread nD τ).loc main_arg3) : S4096.Idx → EReal) (ix1 o) := by unfold Ba; exact V_bias m c o
  rw [Gk_apply, Cert.Spec.G_apply]
  unfold Cert.Spec.entry Cert.Spec.dense Cert.Spec.lowRank Cert.Spec.hidden lastAdd hid
  rw [upTo_seven, regroup]
  simp only [upTo_seven, fW, fV, hx, hc, hw, hv, hu, hbias]

end Cert.KernelIdeal.Val

end
-- ==== Proof.KernelPayloads.lean ====
/-
  The values the kernel body stores, read at one index, on the extended reals.

  The body works on a block of 2048 rows (p) of the activations, 512 input channels (q) at a time, and 512 output
  channels (n) at a time, with a hidden row of rank 8 (r). It stores seven values; each is one pure term of the
  values loaded before it, and at an index (p, n) or (p, r) that term is:

    - the two accumulators' starting value, zero;
    - the dense accumulator plus the sum over q of x[p,q] * W[n,q] (rows of the activations against rows of the
      dense weights);
    - the hidden accumulator plus the sum over q of x[p,q] * V[q,r] (rows against columns of the first factor);
    - the hidden accumulator times the gate, entry by entry;
    - the dense accumulator plus ( (sum over r of h[p,r] * U[n,r]) times the word of 2, plus the bias at n ),
      the bias being a row [1, 512] repeated down the 2048 rows.

  On the extended reals a change of float format is the identity, a cast of a shape to itself is the identity, and a
  matrix product into the zero accumulator is the plain sum of products: the zero word is the real 0 and 0 + s = s.
  The word of 2 is never evaluated: it stays the specification's scale. No other law of arithmetic is used.
-/
import proofs.«141770_j57226144252251_2_alg».proof.Proof.Gen.KernelIdeal.Skeleton
import proofs.«141770_j57226144252251_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The three matrix products at an index

Each product contracts one axis of each operand. Its contraction index has one coordinate, so the sum over it is the
sum over that coordinate, and the operand indices at an output index (p, n) are read off the dimension numbers:
the free axis takes the output's coordinate, the contracted axis the summation variable. -/

theorem matmul_rows_dense_lhs_free (i : S2048x512.Idx) (q : dot_S2048x512_S512x512_S2048x512_1_1_0_0_n_n.contr.Idx) :
    (dot_S2048x512_S512x512_S2048x512_1_1_0_0_n_n.lhsIdx i q 0).val = (i 0).val := by
  unfold DotDims.lhsIdx
  rw [dif_neg (show ¬(0 : Fin S2048x512.rank) ∈ dot_S2048x512_S512x512_S2048x512_1_1_0_0_n_n.lhsBatch by decide), dif_pos (show (0 : Fin S2048x512.rank) ∈ dot_S2048x512_S512x512_S2048x512_1_1_0_0_n_n.lhsNonContracting by decide)]
  rfl
theorem matmul_rows_dense_rhs_free (i : S2048x512.Idx) (q : dot_S2048x512_S512x512_S2048x512_1_1_0_0_n_n.contr.Idx) :
    (dot_S2048x512_S512x512_S2048x512_1_1_0_0_n_n.rhsIdx i q 0).val = (i 1).val := by
  unfold DotDims.rhsIdx
  rw [dif_neg (show ¬(0 : Fin S512x512.rank) ∈ dot_S2048x512_S512x512_S2048x512_1_1_0_0_n_n.rhsBatch by decide), dif_pos (show (0 : Fin S512x512.rank) ∈ dot_S2048x512_S512x512_S2048x512_1_1_0_0_n_n.rhsNonContracting by decide)]
  rfl

/-- A block of 2048 rows of activations against 512 rows of dense weights, both of length 512, into the zero accumulator: entry (p, n) is the sum over the shared length of the products, row p against row n. -/
theorem matmul_rows_dense (l : FVec Ideal S2048x512 .bf16) (r : FVec Ideal S512x512 .bf16) (p : Fin 2048) (n : Fin 512) :
    matmul dot_S2048x512_S512x512_S2048x512_1_1_0_0_n_n none l r (constant (F := Ideal) S2048x512 .f32 0x00000000#32) (ix2 p n)
      = ∑ q : Fin 512, l (ix2 p q) * r (ix2 n q) := by
  simp only [matmul]
  rw [Ideal.matmul_constant_zero_apply, ← Equiv.sum_comp (contrEquiv1 dot_S2048x512_S512x512_S2048x512_1_1_0_0_n_n 512 rfl rfl).symm]
  refine Finset.sum_congr rfl fun k _ => ?_
  have hk := contrEquiv1_symm_val dot_S2048x512_S512x512_S2048x512_1_1_0_0_n_n 512 rfl rfl k
  have el : dot_S2048x512_S512x512_S2048x512_1_1_0_0_n_n.lhsIdx (ix2 p n) ((contrEquiv1 dot_S2048x512_S512x512_S2048x512_1_1_0_0_n_n 512 rfl rfl).symm k) = ix2 p k := funext fun a => Fin.ext (by
    match a with
    | ⟨0, _⟩ => exact matmul_rows_dense_lhs_free _ _
    | ⟨1, _⟩ => exact (dot_S2048x512_S512x512_S2048x512_1_1_0_0_n_n.lhsIdx_val_of_single rfl _ _).trans hk)
  have er : dot_S2048x512_S512x512_S2048x512_1_1_0_0_n_n.rhsIdx (ix2 p n) ((contrEquiv1 dot_S2048x512_S512x512_S2048x512_1_1_0_0_n_n 512 rfl rfl).symm k) = ix2 n k := funext fun a => Fin.ext (by
    match a with
    | ⟨0, _⟩ => exact matmul_rows_dense_rhs_free _ _
    | ⟨1, _⟩ => exact (dot_S2048x512_S512x512_S2048x512_1_1_0_0_n_n.rhsIdx_val_of_single rfl _ _).trans hk)
  rw [el, er]

theorem matmul_plain_hidden_lhs_free (i : S2048x8.Idx) (q : dot_S2048x512_S512x8_S2048x8_1_0_0_1_n_n.contr.Idx) :
    (dot_S2048x512_S512x8_S2048x8_1_0_0_1_n_n.lhsIdx i q 0).val = (i 0).val := by
  unfold DotDims.lhsIdx
  rw [dif_neg (show ¬(0 : Fin S2048x512.rank) ∈ dot_S2048x512_S512x8_S2048x8_1_0_0_1_n_n.lhsBatch by decide), dif_pos (show (0 : Fin S2048x512.rank) ∈ dot_S2048x512_S512x8_S2048x8_1_0_0_1_n_n.lhsNonContracting by decide)]
  rfl
theorem matmul_plain_hidden_rhs_free (i : S2048x8.Idx) (q : dot_S2048x512_S512x8_S2048x8_1_0_0_1_n_n.contr.Idx) :
    (dot_S2048x512_S512x8_S2048x8_1_0_0_1_n_n.rhsIdx i q 1).val = (i 1).val := by
  unfold DotDims.rhsIdx
  rw [dif_neg (show ¬(1 : Fin S512x8.rank) ∈ dot_S2048x512_S512x8_S2048x8_1_0_0_1_n_n.rhsBatch by decide), dif_pos (show (1 : Fin S512x8.rank) ∈ dot_S2048x512_S512x8_S2048x8_1_0_0_1_n_n.rhsNonContracting by decide)]
  rfl

/-- A block of 2048 rows of activations against a 512 by 8 slab of the first low-rank factor, into the zero accumulator: entry (p, r) is the sum over the 512 shared channels of the products, row p against column r. -/
theorem matmul_plain_hidden (l : FVec Ideal S2048x512 .bf16) (r : FVec Ideal S512x8 .bf16) (p : Fin 2048) (n : Fin 8) :
    matmul dot_S2048x512_S512x8_S2048x8_1_0_0_1_n_n none l r (constant (F := Ideal) S2048x8 .f32 0x00000000#32) (ix2 p n)
      = ∑ q : Fin 512, l (ix2 p q) * r (ix2 q n) := by
  simp only [matmul]
  rw [Ideal.matmul_constant_zero_apply, ← Equiv.sum_comp (contrEquiv1 dot_S2048x512_S512x8_S2048x8_1_0_0_1_n_n 512 rfl rfl).symm]
  refine Finset.sum_congr rfl fun k _ => ?_
  have hk := contrEquiv1_symm_val dot_S2048x512_S512x8_S2048x8_1_0_0_1_n_n 512 rfl rfl k
  have el : dot_S2048x512_S512x8_S2048x8_1_0_0_1_n_n.lhsIdx (ix2 p n) ((contrEquiv1 dot_S2048x512_S512x8_S2048x8_1_0_0_1_n_n 512 rfl rfl).symm k) = ix2 p k := funext fun a => Fin.ext (by
    match a with
    | ⟨0, _⟩ => exact matmul_plain_hidden_lhs_free _ _
    | ⟨1, _⟩ => exact (dot_S2048x512_S512x8_S2048x8_1_0_0_1_n_n.lhsIdx_val_of_single rfl _ _).trans hk)
  have er : dot_S2048x512_S512x8_S2048x8_1_0_0_1_n_n.rhsIdx (ix2 p n) ((contrEquiv1 dot_S2048x512_S512x8_S2048x8_1_0_0_1_n_n 512 rfl rfl).symm k) = ix2 k n := funext fun a => Fin.ext (by
    match a with
    | ⟨0, _⟩ => exact (dot_S2048x512_S512x8_S2048x8_1_0_0_1_n_n.rhsIdx_val_of_single rfl _ _).trans hk
    | ⟨1, _⟩ => exact matmul_plain_hidden_rhs_free _ _)
  rw [el, er]

theorem matmul_rows_low_lhs_free (i : S2048x512.Idx) (q : dot_S2048x8_S512x8_S2048x512_1_1_0_0_n_n.contr.Idx) :
    (dot_S2048x8_S512x8_S2048x512_1_1_0_0_n_n.lhsIdx i q 0).val = (i 0).val := by
  unfold DotDims.lhsIdx
  rw [dif_neg (show ¬(0 : Fin S2048x8.rank) ∈ dot_S2048x8_S512x8_S2048x512_1_1_0_0_n_n.lhsBatch by decide), dif_pos (show (0 : Fin S2048x8.rank) ∈ dot_S2048x8_S512x8_S2048x512_1_1_0_0_n_n.lhsNonContracting by decide)]
  rfl
theorem matmul_rows_low_rhs_free (i : S2048x512.Idx) (q : dot_S2048x8_S512x8_S2048x512_1_1_0_0_n_n.contr.Idx) :
    (dot_S2048x8_S512x8_S2048x512_1_1_0_0_n_n.rhsIdx i q 0).val = (i 1).val := by
  unfold DotDims.rhsIdx
  rw [dif_neg (show ¬(0 : Fin S512x8.rank) ∈ dot_S2048x8_S512x8_S2048x512_1_1_0_0_n_n.rhsBatch by decide), dif_pos (show (0 : Fin S512x8.rank) ∈ dot_S2048x8_S512x8_S2048x512_1_1_0_0_n_n.rhsNonContracting by decide)]
  rfl

/-- The 2048 hidden rows of length 8 against 512 rows of the second low-rank factor, into the zero accumulator: entry (p, n) is the sum over the rank of the products, row p against row n. -/
theorem matmul_rows_low (l : FVec Ideal S2048x8 .bf16) (r : FVec Ideal S512x8 .bf16) (p : Fin 2048) (n : Fin 512) :
    matmul dot_S2048x8_S512x8_S2048x512_1_1_0_0_n_n none l r (constant (F := Ideal) S2048x512 .f32 0x00000000#32) (ix2 p n)
      = ∑ q : Fin 8, l (ix2 p q) * r (ix2 n q) := by
  simp only [matmul]
  rw [Ideal.matmul_constant_zero_apply, ← Equiv.sum_comp (contrEquiv1 dot_S2048x8_S512x8_S2048x512_1_1_0_0_n_n 8 rfl rfl).symm]
  refine Finset.sum_congr rfl fun k _ => ?_
  have hk := contrEquiv1_symm_val dot_S2048x8_S512x8_S2048x512_1_1_0_0_n_n 8 rfl rfl k
  have el : dot_S2048x8_S512x8_S2048x512_1_1_0_0_n_n.lhsIdx (ix2 p n) ((contrEquiv1 dot_S2048x8_S512x8_S2048x512_1_1_0_0_n_n 8 rfl rfl).symm k) = ix2 p k := funext fun a => Fin.ext (by
    match a with
    | ⟨0, _⟩ => exact matmul_rows_low_lhs_free _ _
    | ⟨1, _⟩ => exact (dot_S2048x8_S512x8_S2048x512_1_1_0_0_n_n.lhsIdx_val_of_single rfl _ _).trans hk)
  have er : dot_S2048x8_S512x8_S2048x512_1_1_0_0_n_n.rhsIdx (ix2 p n) ((contrEquiv1 dot_S2048x8_S512x8_S2048x512_1_1_0_0_n_n 8 rfl rfl).symm k) = ix2 n k := funext fun a => Fin.ext (by
    match a with
    | ⟨0, _⟩ => exact matmul_rows_low_rhs_free _ _
    | ⟨1, _⟩ => exact (dot_S2048x8_S512x8_S2048x512_1_1_0_0_n_n.rhsIdx_val_of_single rfl _ _).trans hk)
  rw [el, er]

/-! ## The payloads at an index -/

/-- The dense accumulator starts at zero. -/
theorem pay1_apply (p : Fin 2048) (n : Fin 512) : k0_pay1 (F := Ideal) (ix2 p n) = 0 :=
  Ideal.ofBits_zero_f32

/-- The hidden accumulator starts at zero. -/
theorem pay2_apply (p : Fin 2048) (r : Fin 8) : k0_pay2 (F := Ideal) (ix2 p r) = 0 := by
  unfold k0_pay2
  rw [shapeCast_self]
  exact Ideal.ofBits_zero_f32

/-- The dense step: the accumulator plus row p of the activations' block against row n of the weights' block. -/
theorem pay4_apply (v8 : Vec Ideal S2048x512 .bf16) (v10 : Vec Ideal S512x512 .bf16) (v13 : Vec Ideal S2048x512 .f32) (p : Fin 2048) (n : Fin 512) :
    k0_pay4 (F := Ideal) v8 v10 v13 (ix2 p n) = v13 (ix2 p n) + ∑ q : Fin 512, v8 (ix2 p q) * v10 (ix2 n q) := by
  unfold k0_pay4 k0_pay3
  dsimp only
  rw [shapeCast_self, shapeCast_self, shapeCast_self]
  exact congrArg (v13 (ix2 p n) + ·) (matmul_rows_dense v8 v10 p n)

/-- The hidden step: the accumulator plus row p of the activations' block against column r of the first factor's slab. -/
theorem pay5_apply (v8 : Vec Ideal S2048x512 .bf16) (v28 : Vec Ideal S512x8 .bf16) (v30 : Vec Ideal S2048x8 .f32) (p : Fin 2048) (r : Fin 8) :
    k0_pay5 (F := Ideal) v8 v28 v30 (ix2 p r) = v30 (ix2 p r) + ∑ q : Fin 512, v8 (ix2 p q) * v28 (ix2 q r) := by
  unfold k0_pay5 k0_pay3
  dsimp only
  rw [shapeCast_self, shapeCast_self, shapeCast_self]
  exact congrArg (v30 (ix2 p r) + ·) (matmul_plain_hidden v8 v28 p r)

/-- The gating: the hidden row times the gates, entry by entry. -/
theorem pay6_apply (v28 v29 : Vec Ideal S2048x8 .f32) (p : Fin 2048) (r : Fin 8) : k0_pay6 (F := Ideal) v28 v29 (ix2 p r) = v28 (ix2 p r) * v29 (ix2 p r) := by
  unfold k0_pay6
  rw [shapeCast_self, shapeCast_self]
  rfl

/-- A row [1, 512] broadcast down 2048 rows reads, at (p, n), the row's entry n. -/
theorem bias_row_apply (v : Vec Ideal S1x512 .f32) (p : Fin 2048) (n : Fin 512) :
    broadcastTo S2048x512 v broadcasts_S1x512_S2048x512 (ix2 p n) = v (ix2 (0 : Fin 1) n) :=
  broadcastTo_apply v broadcasts_S1x512_S2048x512 (ix2 p n) (ix2 (0 : Fin 1) n) (fun a => match a with
    | ⟨0, _⟩ => by show 0 = if (1 : Nat) = 1 then 0 else p.val; rw [if_pos rfl]
    | ⟨1, _⟩ => by show n.val = if (512 : Nat) = 1 then 0 else n.val; rw [if_neg (by decide)])

/-- The last step: the dense accumulator plus the low-rank update (hidden row p against row n of the second factor,
    times the word of 2) plus the bias at n, added in that grouping. -/
theorem pay7_apply (v28 : Vec Ideal S2048x8 .f32) (v30 : Vec Ideal S512x8 .bf16) (v35 : Vec Ideal S2048x512 .f32) (v37 : Vec Ideal S1x512 .f32) (p : Fin 2048) (n : Fin 512) :
    k0_pay7 (F := Ideal) v28 v30 v35 v37 (ix2 p n) = v35 (ix2 p n) + ((∑ r : Fin 8, v28 (ix2 p r) * v30 (ix2 n r)) * Cert.Spec.scale + v37 (ix2 (0 : Fin 1) n)) := by
  unfold k0_pay7
  rw [shapeCast_self, shapeCast_self, shapeCast_self, shapeCast_self]
  show v35 (ix2 p n) + (matmul dot_S2048x8_S512x8_S2048x512_1_1_0_0_n_n none (truncf .bf16 v28 bitsLt_bf16_f32) v30 (constant (F := Ideal) S2048x512 .f32 0x00000000#32) (ix2 p n) * Ideal.ofBits .f32 0x40000000#32
      + broadcastTo S2048x512 v37 broadcasts_S1x512_S2048x512 (ix2 p n)) = _
  rw [bias_row_apply, matmul_rows_low]
  rfl

end Cert.KernelIdeal.Pay

end
-- ==== Proof.KernelBlocks.lean ====
/-
  The geometry of the kernel call's blocks, on the extended reals.

  The grid is 8 × 8 × 8; point t stands for the coordinates (i, j, k) with t = 64 i + 8 j + k, so i = t / 64,
  j = t / 8 % 8 and k = t % 8. Each window's block at a point starts, on every axis, at its block index times the
  block's extent: the activations' block (i, k) is rows 2048 i .. and columns 512 k .., the gates' block (i, 0), the
  dense weights' block (j, k), the bias's block (0, j), the first low-rank factor's block (k, 0), the second one's
  block (j, 0), and the result's block (i, j). The relation between the printed index maps and (i, j, k) is decided
  once over the 512 points. The result's blocks are written back at the points with k = 7, and those blocks tile
  the [16384, 4096] result: entry (row, col) lies in the block of the point (row / 2048, col / 512, 7).
-/
import proofs.«141770_j57226144252251_2_alg».proof.Proof.Gen.KernelIdeal.Frame
import Idealize.ShloMosaic.Lib.ValueIdx
import Idealize.ShloMosaic.Lib.Pipeline.Value
import Idealize.ShloMosaic.PureOps.Ideal

set_option maxRecDepth 16384

noncomputable section

namespace Cert.KernelIdeal.Blocks

open Idealize.ShloMosaic Idealize.ShloMosaic.TcCoe Idealize.ShloMosaic.ValueIdx
open Idealize.ShloMosaic.Rounds
open Cert.KernelIdeal Cert.KernelIdeal.Gen

variable (m : (ℓ : Loc nD τ sig) → Buf (Elt Ideal) ℓ) (c : Dev nD)

/-- The grid has 512 points. -/
theorem t_lt (t : Fin cfg0.N) : t.val < 512 := lt_of_lt_of_eq t.isLt (show cfg0.N = 512 from N_0)

/-! ## The printed index maps in terms of the point -/

/-- The activations' block index is (i, k). -/
theorem idx0 : ∀ t : Fin cfg0.N, win0_0.index t (0 : Fin 2) = t.val / 64 ∧ win0_0.index t (1 : Fin 2) = t.val % 8 :=
  (by decide +kernel : ∀ t : Fin grid0.N, win0_0.index t (0 : Fin 2) = t.val / 64 ∧ win0_0.index t (1 : Fin 2) = t.val % 8)
/-- The gates' block index is (i, 0). -/
theorem idx1 : ∀ t : Fin cfg0.N, win0_1.index t (0 : Fin 2) = t.val / 64 ∧ win0_1.index t (1 : Fin 2) = 0 :=
  (by decide +kernel : ∀ t : Fin grid0.N, win0_1.index t (0 : Fin 2) = t.val / 64 ∧ win0_1.index t (1 : Fin 2) = 0)
/-- The dense weights' block index is (j, k). -/
theorem idx2 : ∀ t : Fin cfg0.N, win0_2.index t (0 : Fin 2) = t.val / 8 % 8 ∧ win0_2.index t (1 : Fin 2) = t.val % 8 :=
  (by decide +kernel : ∀ t : Fin grid0.N, win0_2.index t (0 : Fin 2) = t.val / 8 % 8 ∧ win0_2.index t (1 : Fin 2) = t.val % 8)
/-- The bias's block index is (0, j). -/
theorem idx3 : ∀ t : Fin cfg0.N, win0_3.index t (0 : Fin 2) = 0 ∧ win0_3.index t (1 : Fin 2) = t.val / 8 % 8 :=
  (by decide +kernel : ∀ t : Fin grid0.N, win0_3.index t (0 : Fin 2) = 0 ∧ win0_3.index t (1 : Fin 2) = t.val / 8 % 8)
/-- The first low-rank factor's block index is (k, 0). -/
theorem idx4 : ∀ t : Fin cfg0.N, win0_4.index t (0 : Fin 2) = t.val % 8 ∧ win0_4.index t (1 : Fin 2) = 0 :=
  (by decide +kernel : ∀ t : Fin grid0.N, win0_4.index t (0 : Fin 2) = t.val % 8 ∧ win0_4.index t (1 : Fin 2) = 0)
/-- The second low-rank factor's block index is (j, 0). -/
theorem idx5 : ∀ t : Fin cfg0.N, win0_5.index t (0 : Fin 2) = t.val / 8 % 8 ∧ win0_5.index t (1 : Fin 2) = 0 :=
  (by decide +kernel : ∀ t : Fin grid0.N, win0_5.index t (0 : Fin 2) = t.val / 8 % 8 ∧ win0_5.index t (1 : Fin 2) = 0)
/-- The result's block index is (i, j). -/
theorem idx6 : ∀ t : Fin cfg0.N, win0_6.index t (0 : Fin 2) = t.val / 64 ∧ win0_6.index t (1 : Fin 2) = t.val / 8 % 8 :=
  (by decide +kernel : ∀ t : Fin grid0.N, win0_6.index t (0 : Fin 2) = t.val / 64 ∧ win0_6.index t (1 : Fin 2) = t.val / 8 % 8)

/-! ## Each input window's block read at an index -/

/-- Entry (p, q) of the activations' block is row 2048 i + p, column 512 k + q of the flattened activations. -/
theorem iblk0_apply (t : Fin cfg0.N) (p : Fin 2048) (q : Fin 512) :
    (Gen.iblk (F := Ideal) m c 0 t : S2048x512.Idx → EReal) (ix2 p q)
      = (Gen.V (F := Ideal) m c main_v1 : S16384x4096.Idx → EReal)
          (ix2 ⟨t.val / 64 * 2048 + p.val, by have := t_lt t; omega⟩ ⟨t.val % 8 * 512 + q.val, by omega⟩) := by
  obtain ⟨e0, e1⟩ := idx0 t
  show (Gen.V (F := Ideal) m c main_v1 : S16384x4096.Idx → EReal) (((cfg0.win 0).blk t).view.emb (ix2 p q)) = _
  refine congrArg (Gen.V (F := Ideal) m c main_v1 : S16384x4096.Idx → EReal) ?_
  funext a; apply Fin.ext
  match a with
  | ⟨0, _⟩ => show win0_0.index t (0 : Fin 2) * 2048 + 1 * p.val = t.val / 64 * 2048 + p.val; omega
  | ⟨1, _⟩ => show win0_0.index t (1 : Fin 2) * 512 + 1 * q.val = t.val % 8 * 512 + q.val; omega

/-- Entry (p, r) of the gates' block is row 2048 i + p, column r of the flattened gates. -/
theorem iblk1_apply (t : Fin cfg0.N) (p : Fin 2048) (r : Fin 8) :
    (Gen.iblk (F := Ideal) m c 1 t : S2048x8.Idx → EReal) (ix2 p r)
      = (Gen.V (F := Ideal) m c main_v2 : S16384x8.Idx → EReal)
          (ix2 ⟨t.val / 64 * 2048 + p.val, by have := t_lt t; omega⟩ r) := by
  obtain ⟨e0, e1⟩ := idx1 t
  show (Gen.V (F := Ideal) m c main_v2 : S16384x8.Idx → EReal) (((cfg0.win 1).blk t).view.emb (ix2 p r)) = _
  refine congrArg (Gen.V (F := Ideal) m c main_v2 : S16384x8.Idx → EReal) ?_
  funext a; apply Fin.ext
  match a with
  | ⟨0, _⟩ => show win0_1.index t (0 : Fin 2) * 2048 + 1 * p.val = t.val / 64 * 2048 + p.val; omega
  | ⟨1, _⟩ => show win0_1.index t (1 : Fin 2) * 8 + 1 * r.val = r.val; omega

/-- Entry (n, q) of the dense weights' block is row 512 j + n, column 512 k + q of the dense weights. -/
theorem iblk2_apply (t : Fin cfg0.N) (n q : Fin 512) :
    (Gen.iblk (F := Ideal) m c 2 t : S512x512.Idx → EReal) (ix2 n q)
      = (Gen.V (F := Ideal) m c main_v3 : S4096x4096.Idx → EReal)
          (ix2 ⟨t.val / 8 % 8 * 512 + n.val, by omega⟩ ⟨t.val % 8 * 512 + q.val, by omega⟩) := by
  obtain ⟨e0, e1⟩ := idx2 t
  show (Gen.V (F := Ideal) m c main_v3 : S4096x4096.Idx → EReal) (((cfg0.win 2).blk t).view.emb (ix2 n q)) = _
  refine congrArg (Gen.V (F := Ideal) m c main_v3 : S4096x4096.Idx → EReal) ?_
  funext a; apply Fin.ext
  match a with
  | ⟨0, _⟩ => show win0_2.index t (0 : Fin 2) * 512 + 1 * n.val = t.val / 8 % 8 * 512 + n.val; omega
  | ⟨1, _⟩ => show win0_2.index t (1 : Fin 2) * 512 + 1 * q.val = t.val % 8 * 512 + q.val; omega

/-- Entry (0, n) of the bias's block is entry (0, 512 j + n) of the bias row. -/
theorem iblk3_apply (t : Fin cfg0.N) (n : Fin 512) :
    (Gen.iblk (F := Ideal) m c 3 t : S1x512.Idx → EReal) (ix2 (0 : Fin 1) n)
      = (Gen.V (F := Ideal) m c main_v6 : S1x4096.Idx → EReal)
          (ix2 (0 : Fin 1) ⟨t.val / 8 % 8 * 512 + n.val, by omega⟩) := by
  obtain ⟨e0, e1⟩ := idx3 t
  show (Gen.V (F := Ideal) m c main_v6 : S1x4096.Idx → EReal) (((cfg0.win 3).blk t).view.emb (ix2 (0 : Fin 1) n)) = _
  refine congrArg (Gen.V (F := Ideal) m c main_v6 : S1x4096.Idx → EReal) ?_
  funext a; apply Fin.ext
  match a with
  | ⟨0, _⟩ => show win0_3.index t (0 : Fin 2) * 1 + 1 * (0 : Fin 1).val = (0 : Fin 1).val; rw [e0]; rfl
  | ⟨1, _⟩ => show win0_3.index t (1 : Fin 2) * 512 + 1 * n.val = t.val / 8 % 8 * 512 + n.val; omega

/-- Entry (q, r) of the first low-rank factor's block is row 512 k + q, column r of that factor. -/
theorem iblk4_apply (t : Fin cfg0.N) (q : Fin 512) (r : Fin 8) :
    (Gen.iblk (F := Ideal) m c 4 t : S512x8.Idx → EReal) (ix2 q r)
      = (Gen.V (F := Ideal) m c main_v4 : S4096x8.Idx → EReal) (ix2 ⟨t.val % 8 * 512 + q.val, by omega⟩ r) := by
  obtain ⟨e0, e1⟩ := idx4 t
  show (Gen.V (F := Ideal) m c main_v4 : S4096x8.Idx → EReal) (((cfg0.win 4).blk t).view.emb (ix2 q r)) = _
  refine congrArg (Gen.V (F := Ideal) m c main_v4 : S4096x8.Idx → EReal) ?_
  funext a; apply Fin.ext
  match a with
  | ⟨0, _⟩ => show win0_4.index t (0 : Fin 2) * 512 + 1 * q.val = t.val % 8 * 512 + q.val; omega
  | ⟨1, _⟩ => show win0_4.index t (1 : Fin 2) * 8 + 1 * r.val = r.val; omega

/-- Entry (n, r) of the second low-rank factor's block is row 512 j + n, column r of that factor. -/
theorem iblk5_apply (t : Fin cfg0.N) (n : Fin 512) (r : Fin 8) :
    (Gen.iblk (F := Ideal) m c 5 t : S512x8.Idx → EReal) (ix2 n r)
      = (Gen.V (F := Ideal) m c main_v5 : S4096x8.Idx → EReal) (ix2 ⟨t.val / 8 % 8 * 512 + n.val, by omega⟩ r) := by
  obtain ⟨e0, e1⟩ := idx5 t
  show (Gen.V (F := Ideal) m c main_v5 : S4096x8.Idx → EReal) (((cfg0.win 5).blk t).view.emb (ix2 n r)) = _
  refine congrArg (Gen.V (F := Ideal) m c main_v5 : S4096x8.Idx → EReal) ?_
  funext a; apply Fin.ext
  match a with
  | ⟨0, _⟩ => show win0_5.index t (0 : Fin 2) * 512 + 1 * n.val = t.val / 8 % 8 * 512 + n.val; omega
  | ⟨1, _⟩ => show win0_5.index t (1 : Fin 2) * 8 + 1 * r.val = r.val; omega

/-! ## The result's array from its written-back blocks -/

/-- Entry (p, n) of the result's block at a point, read off any array G of the result's shape, is row 2048 i + p,
    column 512 j + n of G. -/
theorem blk6_read (G : S16384x4096.Idx → EReal) (t : Fin cfg0.N) (p : Fin 2048) (n : Fin 512) :
    (((cfg0.win 6).blk t).view.read (Elt Ideal) G : S2048x512.Idx → EReal) (ix2 p n)
      = G (ix2 ⟨t.val / 64 * 2048 + p.val, by have := t_lt t; omega⟩ ⟨t.val / 8 % 8 * 512 + n.val, by omega⟩) := by
  obtain ⟨e0, e1⟩ := idx6 t
  show G (((cfg0.win 6).blk t).view.emb (ix2 p n)) = _
  refine congrArg G ?_
  funext a; apply Fin.ext
  match a with
  | ⟨0, _⟩ => show win0_6.index t (0 : Fin 2) * 2048 + 1 * p.val = t.val / 64 * 2048 + p.val; omega
  | ⟨1, _⟩ => show win0_6.index t (1 : Fin 2) * 512 + 1 * n.val = t.val / 8 % 8 * 512 + n.val; omega

/-- An index of the result is in a point's block iff each coordinate is in the block's range on its axis. -/
theorem mem_blk6 (t : Fin cfg0.N) (i : S16384x4096.Idx) :
    i ∈ ((cfg0.win 6).blk t).view.set ↔ ∀ a : Fin 2, win0_6.index t a * S2048x512.size a ≤ (i a).val ∧ (i a).val < win0_6.index t a * S2048x512.size a + S2048x512.size a := by
  show i ∈ ((View.whole main_v7).slice (win0_6.rect t)).set ↔ _
  rw [View.set_slice_whole, Rect.mem_set_unit]
  exact Iff.rfl

/-- Every entry of the result lies in the block of a point that writes back: the point (row / 2048, col / 512, 7). -/
theorem cover6 (i : S16384x4096.Idx) :
    ∃ t : Fin cfg0.N, (cfg0.win 6).flush t = true ∧ i ∈ ((cfg0.win 6).blk t).view.set := by
  have hi0 : (i 0).val < 16384 := (i 0).isLt
  have hi1 : (i 1).val < 4096 := (i 1).isLt
  let t : Fin cfg0.N := ⟨(i 0).val / 2048 * 64 + (i 1).val / 512 * 8 + 7,
    lt_of_lt_of_eq (by omega : (i 0).val / 2048 * 64 + (i 1).val / 512 * 8 + 7 < 512) (show cfg0.N = 512 from N_0).symm⟩
  have ht : t.val = (i 0).val / 2048 * 64 + (i 1).val / 512 * 8 + 7 := rfl
  obtain ⟨e0, e1⟩ := idx6 t
  refine ⟨t, (flush0_6 t).mpr (by omega), ?_⟩
  rw [mem_blk6]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 512 ≤ (i 1).val ∧ (i 1).val < win0_6.index t (1 : Fin 2) * 512 + 512; omega

/-- The result's final array is G as soon as every written-back block holds G's entries of its rectangle. -/
theorem arrAt6_eq (dat : Pipeline.Dat τ (Elt Ideal) Unit ℕ (UR sig nD τ) ℕ cfg0 c) (G : S16384x4096.Idx → EReal)
    (h : ∀ t : Fin cfg0.N, t.val % 8 = 7 → ∀ (p : Fin 2048) (n : Fin 512),
      (dat.after 6 t : S2048x512.Idx → EReal) (ix2 p n)
        = G (ix2 ⟨t.val / 64 * 2048 + p.val, by have := t_lt t; omega⟩ ⟨t.val / 8 % 8 * 512 + n.val, by omega⟩)) :
    (dat.arrAt 6 cfg0.N : S16384x4096.Idx → EReal) = G := by
  refine dat.arrAt_eq_of_cover 6 G (fun t hf => ?_) cover6
  have ht : t.val % 8 = 7 := (flush0_6 t).mp hf
  funext y
  calc (dat.after 6 t : S2048x512.Idx → EReal) y
      = (dat.after 6 t : S2048x512.Idx → EReal) (ix2 (y 0) (y 1)) := congrArg (dat.after 6 t : S2048x512.Idx → EReal) (eq_ix2 y)
    _ = (((cfg0.win 6).blk t).view.read (Elt Ideal) G : S2048x512.Idx → EReal) (ix2 (y 0) (y 1)) :=
        (h t ht (y 0) (y 1)).trans (blk6_read G t (y 0) (y 1)).symm
    _ = (((cfg0.win 6).blk t).view.read (Elt Ideal) G : S2048x512.Idx → EReal) y :=
        congrArg (((cfg0.win 6).blk t).view.read (Elt Ideal) G : S2048x512.Idx → EReal) (eq_ix2 y).symm

end Cert.KernelIdeal.Blocks

end
-- ==== Proof.KI_Inv.lean ====
/-
  What the two blocks hold after each point, in closed form.

  At point t = 64 i + 8 j + k, entry (p, n) of the output block is entry (row, col) = (2048 i + p, 512 j + n) of the
  result: for k < 7 the dense sum's bands 0..k added up onto 0; at k = 7 all eight bands plus the last addition.
  Entry (p, r) of the hidden block is, during the j = 0 sweep, the hidden sum's bands 0..k added up (k < 7), and from
  (j, k) = (0, 7) on the finished, gated hidden entry of row 2048 i + p, which the later sweeps j > 0 only read.
  By induction on the point, each of the six cases continuing what the point before left.
-/
import proofs.«141770_j57226144252251_2_alg».proof.Proof.KI_Frame
import proofs.«141770_j57226144252251_2_alg».proof.Proof.KI_Closed
import proofs.«141770_j57226144252251_2_alg».proof.Proof.KernelPayloads
import proofs.«141770_j57226144252251_2_alg».proof.Proof.KernelBlocks

set_option maxRecDepth 16384

noncomputable section

open scoped BigOperators

namespace Cert.KernelIdeal.Val

open Cert.KernelIdeal Cert.KernelIdeal.Gen Cert.KernelIdeal.Body Cert.KernelIdeal.Pay Cert.KernelIdeal.Blocks Cert.Bands
open Idealize.ShloMosaic Idealize.ShloMosaic.TcCoe Idealize.ShloMosaic.ValueIdx
open Idealize.SL Idealize.SL.Sem

variable (m : (ℓ : Loc nD τ sig) → Buf (Elt Ideal) ℓ) (c : Dev nD)

/-! ## Adding bands up -/

theorem upTo_start (f : Fin 4096 → EReal) (b : ℕ) (hb : b < 8) (h0 : b = 0) : 0 + band f ⟨b, hb⟩ = upTo f b := by
  subst h0; exact (upTo_zero f).symm

theorem upTo_step (f : Fin 4096 → EReal) (a b : ℕ) (hb : b < 8) (hab : b = a + 1) : upTo f a + band f ⟨b, hb⟩ = upTo f b := by
  subst hab; exact (upTo_succ f a hb).symm

/-! ## The blocks at a point, as functions into the extended reals -/

def xb (t : Fin cfg0.N) : S2048x512.Idx → EReal := Gen.iblk (F := Ideal) m c 0 t
def cb (t : Fin cfg0.N) : S2048x8.Idx → EReal := Gen.iblk (F := Ideal) m c 1 t
def wb (t : Fin cfg0.N) : S512x512.Idx → EReal := Gen.iblk (F := Ideal) m c 2 t
def bb (t : Fin cfg0.N) : S1x512.Idx → EReal := Gen.iblk (F := Ideal) m c 3 t
def vb (t : Fin cfg0.N) : S512x8.Idx → EReal := Gen.iblk (F := Ideal) m c 4 t
def ub (t : Fin cfg0.N) : S512x8.Idx → EReal := Gen.iblk (F := Ideal) m c 5 t

/-- The row and the column of the result that entry (p, n) of the blocks at point number a names. -/
def rowOf (a : ℕ) (p : Fin 2048) : Fin 16384 := ⟨a / 64 % 8 * 2048 + p.val, by omega⟩
def colOf (a : ℕ) (n : Fin 512) : Fin 4096 := ⟨a / 8 % 8 * 512 + n.val, by omega⟩

theorem ix2_congr {n0 n1 : Nat} {a a' : Fin n0} {b b' : Fin n1} (ha : a.val = a'.val) (hb : b.val = b'.val) : ix2 a b = ix2 a' b' := by
  rw [Fin.ext ha, Fin.ext hb]

theorem xb_apply (t : Fin cfg0.N) (p : Fin 2048) (q : Fin 512) (k : ℕ) (hk : t.val % 8 = k) (hq : k * 512 + q.val < 4096) :
    xb m c t (ix2 p q) = Xa m c (ix2 (rowOf t.val p) ⟨k * 512 + q.val, hq⟩) := by
  have hN := t_lt t
  unfold xb Xa
  refine (iblk0_apply m c t p q).trans (congrArg _ (ix2_congr ?_ ?_))
  · show t.val / 64 * 2048 + p.val = t.val / 64 % 8 * 2048 + p.val; omega
  · show t.val % 8 * 512 + q.val = k * 512 + q.val; omega

theorem wb_apply (t : Fin cfg0.N) (n q : Fin 512) (k : ℕ) (hk : t.val % 8 = k) (hq : k * 512 + q.val < 4096) :
    wb m c t (ix2 n q) = Wa m c (ix2 (colOf t.val n) ⟨k * 512 + q.val, hq⟩) := by
  unfold wb Wa
  refine (iblk2_apply m c t n q).trans (congrArg _ (ix2_congr ?_ ?_))
  · rfl
  · show t.val % 8 * 512 + q.val = k * 512 + q.val; omega

theorem vb_apply (t : Fin cfg0.N) (q : Fin 512) (r : Fin 8) (k : ℕ) (hk : t.val % 8 = k) (hq : k * 512 + q.val < 4096) :
    vb m c t (ix2 q r) = Va m c (ix2 ⟨k * 512 + q.val, hq⟩ r) := by
  unfold vb Va
  refine (iblk4_apply m c t q r).trans (congrArg _ (ix2_congr ?_ rfl))
  show t.val % 8 * 512 + q.val = k * 512 + q.val; omega

theorem cb_apply (t : Fin cfg0.N) (p : Fin 2048) (r : Fin 8) : cb m c t (ix2 p r) = Ca m c (ix2 (rowOf t.val p) r) := by
  have hN := t_lt t
  unfold cb Ca
  refine (iblk1_apply m c t p r).trans (congrArg _ (ix2_congr ?_ rfl))
  show t.val / 64 * 2048 + p.val = t.val / 64 % 8 * 2048 + p.val; omega

theorem ub_apply (t : Fin cfg0.N) (n : Fin 512) (r : Fin 8) : ub m c t (ix2 n r) = Ua m c (ix2 (colOf t.val n) r) := by
  unfold ub Ua
  exact (iblk5_apply m c t n r).trans (congrArg _ (ix2_congr rfl rfl))

theorem bb_apply (t : Fin cfg0.N) (n : Fin 512) : bb m c t (ix2 (0 : Fin 1) n) = Ba m c (ix2 (0 : Fin 1) (colOf t.val n)) := by
  unfold bb Ba
  exact (iblk3_apply m c t n).trans (congrArg _ (ix2_congr rfl rfl))

/-- The band's product of the x block against the W block is band k of the dense sum. -/
theorem prodW (t : Fin cfg0.N) (p : Fin 2048) (n : Fin 512) (k : ℕ) (hk : t.val % 8 = k) (hk8 : k < 8) :
    ∑ q : Fin 512, xb m c t (ix2 p q) * wb m c t (ix2 n q) = band (fW m c (rowOf t.val p) (colOf t.val n)) ⟨k, hk8⟩ := by
  unfold band fW
  refine Finset.sum_congr rfl fun q _ => ?_
  rw [xb_apply m c t p q k hk (by have := q.isLt; omega), wb_apply m c t n q k hk (by have := q.isLt; omega)]

/-- The band's product of the x block against the V block is band k of the hidden sum. -/
theorem prodV (t : Fin cfg0.N) (p : Fin 2048) (r : Fin 8) (k : ℕ) (hk : t.val % 8 = k) (hk8 : k < 8) :
    ∑ q : Fin 512, xb m c t (ix2 p q) * vb m c t (ix2 q r) = band (fV m c (rowOf t.val p) r) ⟨k, hk8⟩ := by
  unfold band fV
  refine Finset.sum_congr rfl fun q _ => ?_
  rw [xb_apply m c t p q k hk (by have := q.isLt; omega), vb_apply m c t q r k hk (by have := q.isLt; omega)]

/-! ## The closed forms -/

/-- The output block after point number a. -/
def Oexp (a : ℕ) (p : Fin 2048) (n : Fin 512) : EReal :=
  if a % 8 = 7 then upTo (fW m c (rowOf a p) (colOf a n)) 7 + lastAdd m c (rowOf a p) (colOf a n)
  else upTo (fW m c (rowOf a p) (colOf a n)) (a % 8)

/-- The hidden block after point number a. -/
def Hexp (a : ℕ) (p : Fin 2048) (r : Fin 8) : EReal :=
  if a % 64 < 7 then upTo (fV m c (rowOf a p) r) (a % 8) else hid m c (rowOf a p) r

/-- A pair of blocks is as the closed forms say after point number a. -/
def Good (a : ℕ) (pr : (S2048x512.Idx → EReal) × (S2048x8.Idx → EReal)) : Prop :=
  (∀ p n, pr.1 (ix2 p n) = Oexp m c a p n) ∧ (∀ p r, pr.2 (ix2 p r) = Hexp m c a p r)

theorem rowOf_pred (a : ℕ) (p : Fin 2048) (h : a % 64 ≠ 0) : rowOf (a - 1) p = rowOf a p :=
  Fin.ext (by show (a - 1) / 64 % 8 * 2048 + p.val = a / 64 % 8 * 2048 + p.val; omega)
theorem colOf_pred (a : ℕ) (n : Fin 512) (h : a % 8 ≠ 0) : colOf (a - 1) n = colOf a n :=
  Fin.ext (by show (a - 1) / 8 % 8 * 512 + n.val = a / 8 % 8 * 512 + n.val; omega)

/-- The output entry one step on, at a point with k > 0: the running sum takes band k. -/
theorem O_next (a : ℕ) (p : Fin 2048) (n : Fin 512) (h0 : a % 8 ≠ 0) (hk8 : a % 8 < 8) :
    Oexp m c (a - 1) p n + band (fW m c (rowOf a p) (colOf a n)) ⟨a % 8, hk8⟩ = upTo (fW m c (rowOf a p) (colOf a n)) (a % 8) := by
  unfold Oexp
  rw [if_neg (by omega), rowOf_pred a p (by omega), colOf_pred a n h0]
  exact upTo_step _ _ _ hk8 (by omega)

end Cert.KernelIdeal.Val

end
-- ==== Proof.KI_Pieces.lean ====
/-
  What each case of the body leaves in its two blocks, as the body's arithmetic.

  The body's stores go through the whole-block rectangle at zero offsets, so the last store into a block decides
  what the block holds afterwards: its payload. A load through the same rectangle reads the whole contents, and a
  load that follows a store into the same block reads that store's payload. So in each of the six cases the output
  block (and, where it is stored, the hidden block) ends at one composed payload of the six input blocks and of what
  the two blocks held when the point was entered:

    k = 0        the block is cleared first, so the dense step (and at j = 0 the hidden step) starts from zero;
    0 < k < 7    one more dense step (and at j = 0 one more hidden step) from what the block held;
    k = 7        the dense step, then the low-rank update and the bias on top of it; at j = 0 the hidden block is
                 first completed and gated and that gated row is what the update reads, at j > 0 the update reads
                 the hidden block as it was left.

  Nothing here depends on the arithmetic: the statements hold for every float instance.
-/
import proofs.«141770_j57226144252251_2_alg».proof.Proof.KI_Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 block, as the constant function. -/
theorem hz : (![0, 0] : Fin 2 → Nat) = fun _ => 0 := funext fun a => by
  match a with
  | ⟨0, _⟩ => rfl
  | ⟨1, _⟩ => rfl

/-! ## j = 0 -/

/-- At the first point of a row band (j = 0, k = 0) the output block is cleared, read back, and stored as that plus the first band's product: the dense step from the zero block. -/
theorem piece6_A (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : condK0 i) (hc2 : condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) :
    out6_A c i arg3 harg3 arg4 harg4 arg5 harg5 arg6 harg6 arg7 harg7 arg8 harg8 arg9 harg9 arg10 harg10 hc1 hc2 hc3 hc4 hc5 x0 x1 x2 x3 x4 x5 = k0_pay4 x0 x2 (k0_pay1 (F := F)) := by
  unfold out6_A
  rw [View.read_writes_junk_eq_canon]
  unfold kernelRunA
  dsimp only
  sl_unfold_words
  rw [View.canon_cons_unit_zero (S := S2048x512) hz, View.readCov_unit_zero (S := S2048x512) _ hz]
  simp only [View.readAt_eq_ld, harg3.read_unread, harg5.read_unread, View.ld_unit_zero (S := S2048x512) hz, View.ld_unit_zero (S := S512x512) hz]

/-- At the same point the hidden block is cleared, read back, and stored as that plus the first band's product against the first factor: the hidden step from the zero block. -/
theorem spiece_A (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : condK0 i) (hc2 : condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) :
    sout_A c i arg3 harg3 arg4 harg4 arg5 harg5 arg6 harg6 arg7 harg7 arg8 harg8 arg9 harg9 arg10 harg10 hc1 hc2 hc3 hc4 hc5 x0 x1 x2 x3 x4 x5 = k0_pay5 x0 x4 (k0_pay2 (F := F)) := by
  unfold sout_A
  rw [View.read_writes_junk_eq_canon]
  unfold kernelRunA
  dsimp only
  sl_unfold_words
  rw [View.canon_cons_unit_zero (S := S2048x8) hz, View.readCov_unit_zero (S := S2048x8) _ hz]
  simp only [View.readAt_eq_ld, harg3.read_unread, harg7.read_unread, View.ld_unit_zero (S := S2048x512) hz, View.ld_unit_zero (S := S512x8) hz]

/-- At j = 0, 0 < k < 7 the output block takes one more band: the dense step from what the block held. -/
theorem piece6_B (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) :
    out6_B c i arg3 harg3 arg4 harg4 arg5 harg5 arg6 harg6 arg7 harg7 arg8 harg8 arg9 harg9 arg10 harg10 hc1 hc2 hc3 hc4 hc5 x0 x1 x2 x3 x4 x5 xo6 xs0 = k0_pay4 x0 x2 xo6 := by
  unfold out6_B
  rw [View.read_writes_junk_eq_canon]
  unfold kernelRunB
  dsimp only
  rw [View.canon_unit_zero (S := S2048x512) hz]
  simp only [View.readAt_eq_ld, harg3.read_unread, harg5.read_unread, harg9.read_unread, View.ld_unit_zero (S := S2048x512) hz, View.ld_unit_zero (S := S512x512) hz]

/-- At the same points the hidden block takes one more band: the hidden step from what the block held. -/
theorem spiece_B (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) :
    sout_B c i arg3 harg3 arg4 harg4 arg5 harg5 arg6 harg6 arg7 harg7 arg8 harg8 arg9 harg9 arg10 harg10 hc1 hc2 hc3 hc4 hc5 x0 x1 x2 x3 x4 x5 xo6 xs0 = k0_pay5 x0 x4 xs0 := by
  unfold sout_B
  rw [View.read_writes_junk_eq_canon]
  unfold kernelRunB
  dsimp only
  rw [View.canon_unit_zero (S := S2048x8) hz]
  simp only [View.readAt_eq_ld, harg3.read_unread, harg7.read_unread, harg10.read_unread, View.ld_unit_zero (S := S2048x512) hz, View.ld_unit_zero (S := S512x8) hz, View.ld_unit_zero (S := S2048x8) hz]

/-- At j = 0, k = 7 the output block takes its last band and then the low-rank update and the bias: the last step, whose hidden row is the gated hidden block this same point has just stored and whose accumulator is the dense step from what the block held. -/
theorem piece6_C (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : condJK7 i) (hc5 : condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) :
    out6_C c i arg3 harg3 arg4 harg4 arg5 harg5 arg6 harg6 arg7 harg7 arg8 harg8 arg9 harg9 arg10 harg10 hc1 hc2 hc3 hc4 hc5 x0 x1 x2 x3 x4 x5 xo6 xs0 = k0_pay7 (k0_pay6 (k0_pay5 x0 x4 xs0) x1) x5 (k0_pay4 x0 x2 xo6) x3 := by
  unfold out6_C
  rw [View.read_writes_junk_eq_canon]
  unfold kernelRunC
  dsimp only
  sl_unfold_words
  rw [View.canon_cons_unit_zero (S := S2048x512) hz, View.readCov_unit_zero (S := S2048x512) _ hz, View.readCov_cons_toLoadRect, View.readCov_unit_zero (S := S2048x8) _ hz]
  simp only [View.readAt_eq_ld, harg3.read_unread, harg4.read_unread, harg5.read_unread, harg6.read_unread, harg7.read_unread, harg8.read_unread, harg9.read_unread, harg10.read_unread, View.ld_unit_zero (S := S2048x512) hz, View.ld_unit_zero (S := S512x512) hz, View.ld_unit_zero (S := S512x8) hz, View.ld_unit_zero (S := S2048x8) hz, View.ld_unit_zero (S := S1x512) hz]

/-- At the same point the hidden block takes its last band and is then gated, entry by entry, by the gates: the gating of the hidden step from what the block held. -/
theorem spiece_C (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : condJ0 i) (hc4 : condJK7 i) (hc5 : condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) :
    sout_C c i arg3 harg3 arg4 harg4 arg5 harg5 arg6 harg6 arg7 harg7 arg8 harg8 arg9 harg9 arg10 harg10 hc1 hc2 hc3 hc4 hc5 x0 x1 x2 x3 x4 x5 xo6 xs0 = k0_pay6 (k0_pay5 x0 x4 xs0) x1 := by
  unfold sout_C
  rw [View.read_writes_junk_eq_canon]
  unfold kernelRunC
  dsimp only
  sl_unfold_words
  rw [View.canon_cons_unit_zero (S := S2048x8) hz, View.readCov_unit_zero (S := S2048x8) _ hz]
  simp only [View.readAt_eq_ld, harg3.read_unread, harg4.read_unread, harg7.read_unread, harg10.read_unread, View.ld_unit_zero (S := S2048x512) hz, View.ld_unit_zero (S := S512x8) hz, View.ld_unit_zero (S := S2048x8) hz]

/-! ## j > 0 -/

/-- At j > 0, k = 0 the output block is cleared, read back, and stored as that plus the first band's product: the dense step from the zero block. The hidden block is not stored. -/
theorem piece6_D (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : condK0 i) (hc2 : ¬condJK0 i) (hc3 : ¬condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xs0 : Vec F S2048x8 .f32) :
    out6_D c i arg3 harg3 arg4 harg4 arg5 harg5 arg6 harg6 arg7 harg7 arg8 harg8 arg9 harg9 arg10 harg10 hc1 hc2 hc3 hc4 hc5 x0 x1 x2 x3 x4 x5 xs0 = k0_pay4 x0 x2 (k0_pay1 (F := F)) := by
  unfold out6_D
  rw [View.read_writes_junk_eq_canon]
  unfold kernelRunD
  dsimp only
  sl_unfold_words
  rw [View.canon_cons_unit_zero (S := S2048x512) hz, View.readCov_unit_zero (S := S2048x512) _ hz]
  simp only [View.readAt_eq_ld, harg3.read_unread, harg5.read_unread, View.ld_unit_zero (S := S2048x512) hz, View.ld_unit_zero (S := S512x512) hz]

/-- At j > 0, 0 < k < 7 the output block takes one more band: the dense step from what the block held. The hidden block is not stored. -/
theorem piece6_E (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : ¬condJ0 i) (hc4 : ¬condJK7 i) (hc5 : ¬condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) :
    out6_E c i arg3 harg3 arg4 harg4 arg5 harg5 arg6 harg6 arg7 harg7 arg8 harg8 arg9 harg9 arg10 harg10 hc1 hc2 hc3 hc4 hc5 x0 x1 x2 x3 x4 x5 xo6 xs0 = k0_pay4 x0 x2 xo6 := by
  unfold out6_E
  rw [View.read_writes_junk_eq_canon]
  unfold kernelRunE
  dsimp only
  rw [View.canon_unit_zero (S := S2048x512) hz]
  simp only [View.readAt_eq_ld, harg3.read_unread, harg5.read_unread, harg9.read_unread, View.ld_unit_zero (S := S2048x512) hz, View.ld_unit_zero (S := S512x512) hz]

/-- At j > 0, k = 7 the output block takes its last band and then the low-rank update and the bias, the hidden row read from the hidden block as the row band's first eight points left it. -/
theorem piece6_F (c : Dev nD) (i : grid0.Coords) (arg3 : Memref sig .tc .vmem S2048x512 .bf16) (harg3 : arg3.IsWhole) (arg4 : Memref sig .tc .vmem S2048x8 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x8 .bf16) (harg7 : arg7.IsWhole) (arg8 : Memref sig .tc .vmem S512x8 .bf16) (harg8 : arg8.IsWhole) (arg9 : Memref sig .tc .vmem S2048x512 .f32) (harg9 : arg9.IsWhole) (arg10 : Memref sig .tc .vmem S2048x8 .f32) (harg10 : arg10.IsWhole) (hc1 : ¬condK0 i) (hc2 : ¬condJK0 i) (hc3 : ¬condJ0 i) (hc4 : ¬condJK7 i) (hc5 : condK7 i)
    (x0 : Vec F S2048x512 .bf16) (x1 : Vec F S2048x8 .f32) (x2 : Vec F S512x512 .bf16) (x3 : Vec F S1x512 .f32) (x4 : Vec F S512x8 .bf16) (x5 : Vec F S512x8 .bf16) (xo6 : Vec F S2048x512 .f32) (xs0 : Vec F S2048x8 .f32) :
    out6_F c i arg3 harg3 arg4 harg4 arg5 harg5 arg6 harg6 arg7 harg7 arg8 harg8 arg9 harg9 arg10 harg10 hc1 hc2 hc3 hc4 hc5 x0 x1 x2 x3 x4 x5 xo6 xs0 = k0_pay7 xs0 x5 (k0_pay4 x0 x2 xo6) x3 := by
  unfold out6_F
  rw [View.read_writes_junk_eq_canon]
  unfold kernelRunF
  dsimp only
  sl_unfold_words
  rw [View.canon_cons_unit_zero (S := S2048x512) hz, View.readCov_unit_zero (S := S2048x512) _ hz]
  simp only [View.readAt_eq_ld, harg3.read_unread, harg5.read_unread, harg6.read_unread, harg8.read_unread, harg9.read_unread, harg10.read_unread, View.ld_unit_zero (S := S2048x512) hz, View.ld_unit_zero (S := S512x512) hz, View.ld_unit_zero (S := S512x8) hz, View.ld_unit_zero (S := S2048x8) hz, View.ld_unit_zero (S := S1x512) hz]

end Cert.KernelIdeal.Body

end
-- ==== Proof.KI_Step.lean ====
/-
  One point's step on the closed forms, case by case, and the induction over the 512 points.

  Each case reads back as the body's payloads over the point's input blocks and what the point before left; each
  payload at an entry is a sum over the band plus what it continues; the point before is as the closed forms say.
-/
import proofs.«141770_j57226144252251_2_alg».proof.Proof.KI_Inv
import proofs.«141770_j57226144252251_2_alg».proof.Proof.KI_Pieces
import proofs.«141770_j57226144252251_2_alg».proof.Proof.KernelPayloads

set_option maxRecDepth 16384

noncomputable section

open scoped BigOperators

namespace Cert.KernelIdeal.Val

open Cert.KernelIdeal Cert.KernelIdeal.Gen Cert.KernelIdeal.Body Cert.KernelIdeal.Pay Cert.KernelIdeal.Blocks Cert.Bands
open Idealize.ShloMosaic Idealize.ShloMosaic.TcCoe Idealize.ShloMosaic.ValueIdx
open Idealize.SL Idealize.SL.Sem

variable (m : (ℓ : Loc nD τ sig) → Buf (Elt Ideal) ℓ) (c : Dev nD)

/-- At a point with k = 0 the output entry is band 0 on top of the zero just stored. -/
theorem O_first (t : Fin cfg0.N) (p : Fin 2048) (n : Fin 512) (z : EReal) (hz : z = 0) (h0 : t.val % 8 = 0) :
    z + ∑ q : Fin 512, xb m c t (ix2 p q) * wb m c t (ix2 n q) = Oexp m c t.val p n := by
  have hN := t_lt t
  rw [hz, prodW m c t p n (t.val % 8) rfl (by omega)]
  unfold Oexp; rw [if_neg (by omega)]
  exact upTo_start _ _ _ h0

/-- At a point with k > 0 the running output entry takes band k. -/
theorem O_run (t : Fin cfg0.N) (p : Fin 2048) (n : Fin 512) (z : EReal) (hz : z = Oexp m c (t.val - 1) p n) (h0 : ¬t.val % 8 = 0) :
    z + ∑ q : Fin 512, xb m c t (ix2 p q) * wb m c t (ix2 n q) = upTo (fW m c (rowOf t.val p) (colOf t.val n)) (t.val % 8) := by
  have hN := t_lt t
  rw [hz, prodW m c t p n (t.val % 8) rfl (by omega)]
  exact O_next m c t.val p n h0 (by omega)

theorem O_mid (t : Fin cfg0.N) (p : Fin 2048) (n : Fin 512) (z : EReal) (hz : z = Oexp m c (t.val - 1) p n) (h0 : ¬t.val % 8 = 0) (h7 : ¬t.val % 8 = 7) :
    z + ∑ q : Fin 512, xb m c t (ix2 p q) * wb m c t (ix2 n q) = Oexp m c t.val p n := by
  rw [O_run m c t p n z hz h0]; unfold Oexp; rw [if_neg h7]

/-- At a point with k = 7: the last band, then the last addition over the finished hidden row. -/
theorem O_last (t : Fin cfg0.N) (p : Fin 2048) (n : Fin 512) (z : EReal) (hz : z = Oexp m c (t.val - 1) p n) (h7 : t.val % 8 = 7)
    (h : S2048x8.Idx → EReal) (hh : ∀ r, h (ix2 p r) = hid m c (rowOf t.val p) r) :
    (z + ∑ q : Fin 512, xb m c t (ix2 p q) * wb m c t (ix2 n q))
        + ((∑ r : Fin 8, h (ix2 p r) * ub m c t (ix2 n r)) * Cert.Spec.scale + bb m c t (ix2 (0 : Fin 1) n)) = Oexp m c t.val p n := by
  rw [O_run m c t p n z hz (by omega)]
  unfold Oexp lastAdd; rw [if_pos h7, h7, bb_apply]
  simp only [hh, ub_apply]

/-- The hidden entry at (j, k) = (0, 0): band 0 on top of the zero just stored. -/
theorem H_first (t : Fin cfg0.N) (p : Fin 2048) (r : Fin 8) (z : EReal) (hz : z = 0) (h0 : t.val % 8 = 0) :
    z + ∑ q : Fin 512, xb m c t (ix2 p q) * vb m c t (ix2 q r) = upTo (fV m c (rowOf t.val p) r) (t.val % 8) := by
  have hN := t_lt t
  rw [hz, prodV m c t p r (t.val % 8) rfl (by omega)]
  exact upTo_start _ _ _ h0

/-- The hidden entry during the j = 0 sweep, k > 0: the running sum takes band k. -/
theorem H_run (t : Fin cfg0.N) (p : Fin 2048) (r : Fin 8) (z : EReal) (hz : z = Hexp m c (t.val - 1) p r) (hj : t.val % 64 < 8) (h0 : ¬t.val % 8 = 0) :
    z + ∑ q : Fin 512, xb m c t (ix2 p q) * vb m c t (ix2 q r) = upTo (fV m c (rowOf t.val p) r) (t.val % 8) := by
  have hN := t_lt t
  rw [hz, prodV m c t p r (t.val % 8) rfl (by omega)]
  unfold Hexp
  rw [if_pos (by omega), rowOf_pred t.val p (by omega)]
  exact upTo_step _ _ _ (by omega) (by omega)

/-- From (j, k) = (0, 7) on the hidden block is finished, and a point that does not store it finds it so. -/
theorem H_keep (t : Fin cfg0.N) (p : Fin 2048) (r : Fin 8) (z : EReal) (hz : z = Hexp m c (t.val - 1) p r) (hj : ¬t.val % 64 < 8) :
    z = Hexp m c t.val p r := by
  rw [hz]; unfold Hexp
  rw [if_neg (by omega), if_neg (by omega), rowOf_pred t.val p (by omega)]

/-- At (j, k) = (0, 7): the last band of the hidden sum, then the gate. -/
theorem H_done (t : Fin cfg0.N) (p : Fin 2048) (r : Fin 8) (z : EReal) (hz : z = Hexp m c (t.val - 1) p r) (hj : t.val % 64 < 8)
    (h0 : ¬t.val % 8 = 0) (h7 : t.val % 8 = 7) :
    (z + ∑ q : Fin 512, xb m c t (ix2 p q) * vb m c t (ix2 q r)) * cb m c t (ix2 p r) = hid m c (rowOf t.val p) r := by
  rw [H_run m c t p r z hz hj h0, cb_apply]
  unfold hid; rw [h7]

/-- One point's effect on a pair the closed forms describe is described by them. -/
theorem step (t : Fin cfg0.N) (prev : Vec Ideal S2048x512 .f32 × Vec Ideal S2048x8 .f32)
    (hprev : t.val ≠ 0 → Good m c (t.val - 1) prev) : Good m c t.val (stepAt (F := Ideal) m c t prev) := by
  have hN := t_lt t
  by_cases hj : t.val % 64 < 8
  · by_cases h0 : t.val % 8 = 0
    · rw [stepAt_A m c t prev hj h0]
      refine ⟨fun p n => ?_, fun p r => ?_⟩
      · dsimp only
        rw [piece6_A]
        refine (pay4_apply _ _ _ p n).trans ?_
        exact O_first m c t p n _ (pay1_apply p n) h0
      · dsimp only
        rw [spiece_A]
        refine (pay5_apply _ _ _ p r).trans ?_
        refine (H_first m c t p r _ (pay2_apply p r) h0).trans ?_
        unfold Hexp; rw [if_pos (by omega)]
    · have hz : t.val ≠ 0 := by omega
      obtain ⟨hO, hH⟩ := hprev hz
      by_cases h7 : t.val % 8 = 7
      · rw [stepAt_C m c t prev hj h0 h7]
        have hfin : ∀ (p : Fin 2048) (r : Fin 8), k0_pay6 (F := Ideal) (k0_pay5 (F := Ideal) (iblk m c 0 t) (iblk m c 4 t) prev.2) (iblk m c 1 t) (ix2 p r)
            = hid m c (rowOf t.val p) r := fun p r => by
          refine (pay6_apply _ _ p r).trans ?_
          rw [pay5_apply]
          exact H_done m c t p r _ (hH p r) hj h0 h7
        refine ⟨fun p n => ?_, fun p r => ?_⟩
        · dsimp only
          rw [piece6_C]
          refine (pay7_apply _ _ _ _ p n).trans ?_
          rw [pay4_apply]
          exact O_last m c t p n _ (hO p n) h7 _ (fun r => hfin p r)
        · dsimp only
          rw [spiece_C]
          refine (hfin p r).trans ?_
          unfold Hexp; rw [if_neg (by omega)]
      · rw [stepAt_B m c t prev hj h0 h7]
        refine ⟨fun p n => ?_, fun p r => ?_⟩
        · dsimp only
          rw [piece6_B]
          refine (pay4_apply _ _ _ p n).trans ?_
          exact O_mid m c t p n _ (hO p n) h0 h7
        · dsimp only
          rw [spiece_B]
          refine (pay5_apply _ _ _ p r).trans ?_
          refine (H_run m c t p r _ (hH p r) hj h0).trans ?_
          unfold Hexp; rw [if_pos (by omega)]
  · have hz : t.val ≠ 0 := by omega
    obtain ⟨hO, hH⟩ := hprev hz
    by_cases h0 : t.val % 8 = 0
    · rw [stepAt_D m c t prev hj h0]
      refine ⟨fun p n => ?_, fun p r => ?_⟩
      · dsimp only
        rw [piece6_D]
        refine (pay4_apply _ _ _ p n).trans ?_
        exact O_first m c t p n _ (pay1_apply p n) h0
      · dsimp only
        exact H_keep m c t p r _ (hH p r) hj
    · by_cases h7 : t.val % 8 = 7
      · rw [stepAt_F m c t prev hj h0 h7]
        refine ⟨fun p n => ?_, fun p r => ?_⟩
        · dsimp only
          rw [piece6_F]
          refine (pay7_apply _ _ _ _ p n).trans ?_
          rw [pay4_apply]
          exact O_last m c t p n _ (hO p n) h7 _ (fun r => (H_keep m c t p r _ (hH p r) hj).trans (by unfold Hexp; rw [if_neg (by omega)]))
        · dsimp only
          exact H_keep m c t p r _ (hH p r) hj
      · rw [stepAt_E m c t prev hj h0 h7]
        refine ⟨fun p n => ?_, fun p r => ?_⟩
        · dsimp only
          rw [piece6_E]
          refine (pay4_apply _ _ _ p n).trans ?_
          exact O_mid m c t p n _ (hO p n) h0 h7
        · dsimp only
          exact H_keep m c t p r _ (hH p r) hj

/-- After every point the two blocks are as the closed forms say. -/
theorem good_outsAt : ∀ (a : ℕ) (ha : a < cfg0.N), Good m c a (outsAt (F := Ideal) m c a ha)
  | 0, ha => step m c ⟨0, ha⟩ junkPair (fun h => absurd rfl h)
  | a + 1, ha => step m c ⟨a + 1, ha⟩ _ (fun _ => good_outsAt a (Nat.lt_of_succ_lt ha))

end Cert.KernelIdeal.Val

end
-- ==== Proof.KI_Final.lean ====
/-
  The kernel side's result, assembled.

  Given that after every point the output block and the hidden block hold what the closed forms say, the points
  that write the output block back (k = 7) write the finished entries of the closed-form result, block (i, j)
  into rows 2048 i .. and columns 512 j ..; these blocks tile the [16384, 4096] array, so the kernel call's result
  is the closed form everywhere. Unflattened to [4, 4096, 4096] it is the specification's function of the six
  arguments, which the program leaves as they were.
-/
import proofs.«141770_j57226144252251_2_alg».proof.Proof.KI_Inv
import proofs.«141770_j57226144252251_2_alg».proof.Proof.KernelHost

set_option maxRecDepth 16384

noncomputable section

namespace Cert.KernelIdeal.Val

open Cert.KernelIdeal Cert.KernelIdeal.Gen Cert.KernelIdeal.Body Cert.KernelIdeal.Blocks Cert.KernelIdeal.Host Cert.Bands
open Idealize.ShloMosaic Idealize.ShloMosaic.TcCoe Idealize.ShloMosaic.ValueIdx
open Idealize.SL Idealize.SL.Sem
open Idealize.ShloMosaic.Rounds

variable (m : (ℓ : Loc nD τ sig) → Buf (Elt Ideal) ℓ)

/-- The kernel call's result array is the closed form: every written-back block holds its entries of it. -/
theorem final (hgood : ∀ (c : Dev nD) (a : ℕ) (ha : a < cfg0.N), Good m c a (Body.outsAt (F := Ideal) m c a ha)) (c : Dev nD) :
    ((Body.dats (F := Ideal) m 0 c).arrAt 6 cfg0.N : S16384x4096.Idx → EReal) = Gk m c := by
  refine arrAt6_eq c (Body.dats (F := Ideal) m 0 c) (Gk m c) (fun t h7 p n => ?_)
  have hN := t_lt t
  refine (congrFun (Body.after6 (F := Ideal) m c t) (ix2 p n)).trans ?_
  refine ((hgood c t.val t.isLt).1 p n).trans ?_
  unfold Oexp
  rw [if_pos h7, ← Gk_apply]
  refine congrArg (Gk m c) (ix2_congr ?_ ?_)
  · show t.val / 64 % 8 * 2048 + p.val = t.val / 64 * 2048 + p.val; omega
  · rfl

/-- The program's result, [4, 4096, 4096], is the specification's function of the six arguments. -/
theorem tail_eq (hgood : ∀ (c : Dev nD) (a : ℕ) (ha : a < cfg0.N), Good m c a (Body.outsAt (F := Ideal) m c a ha)) (c : Dev nD) :
    (Pipeline.afterTail₀ cfgs (Body.dats (F := Ideal) m) 0 (Gen.V0 m) [hostOps1] c main_v8 : S4x4096x4096.Idx → EReal)
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  funext i
  obtain ⟨b, s, o, rfl⟩ : ∃ b s o, i = ix3 b s o := ⟨i 0, i 1, i 2, eq_ix3 i⟩
  rw [tail_v8 m c (Body.dats (F := Ideal) m) b s o, final m hgood c]
  exact Gk_spec m c b s o

/-- Every weakly fair execution of the program ends without a fault, with the specification's function of the
    arguments in its result and the arguments as they were. -/
theorem run (hgood : ∀ (c : Dev nD) (a : ℕ) (ha : a < cfg0.N), Good m c a (Body.outsAt (F := Ideal) m c a ha)) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8) = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(((h c).2 main_v8 (Pipeline.mem_restRefs_of main_v8 (by decide) (by decide))).trans (tail_eq m hgood c)),
      (((h c).2 main_arg0 (Pipeline.mem_restRefs_of main_arg0 (by decide) (by decide))).trans (Gen.W_main_arg0 m (Body.dats (F := Ideal) m) c)),
      (((h c).2 main_arg1 (Pipeline.mem_restRefs_of main_arg1 (by decide) (by decide))).trans (Gen.W_main_arg1 m (Body.dats (F := Ideal) m) c)),
      (((h c).2 main_arg2 (Pipeline.mem_restRefs_of main_arg2 (by decide) (by decide))).trans (Gen.W_main_arg2 m (Body.dats (F := Ideal) m) c)),
      (((h c).2 main_arg3 (Pipeline.mem_restRefs_of main_arg3 (by decide) (by decide))).trans (Gen.W_main_arg3 m (Body.dats (F := Ideal) m) c)),
      (((h c).2 main_arg4 (Pipeline.mem_restRefs_of main_arg4 (by decide) (by decide))).trans (Gen.W_main_arg4 m (Body.dats (F := Ideal) m) c)),
      (((h c).2 main_arg5 (Pipeline.mem_restRefs_of main_arg5 (by decide) (by decide))).trans (Gen.W_main_arg5 m (Body.dats (F := Ideal) m) c))⟩)
    (Body.run_main (F := Ideal) m ρ)

end Cert.KernelIdeal.Val

end
-- ==== Proof.RefRead.lean ====
/-
  The reference program read entry by entry.

  The reference computes, for a batch b, a position s and an output channel o,

    (sum_d x[b,s,d] * W[o,d] + bias[o]) + (sum_r ((sum_d x[b,s,d] * V[d,r]) * codes[b,s,r]) * U[o,r]) * 2

  in eleven stages: a contraction of x with W over the input channels, the bias broadcast along the batch and the
  positions, their sum; a contraction of x with V, the product with the gates, a contraction of the gated row with U
  over the rank, the product with the constant 2 broadcast to every entry; and the sum of the two parts. Each stage read
  at one index is a sum, a product or a copy of entries of the earlier stages, so the whole program read at (b,s,o) is the
  displayed expression, which is the shared specification's entry word for word: no law of arithmetic is used, only
  the identification of the index each stage reads with the index built from the coordinates b, s, o, d, r.
  The constant 2 stays the f32 word the program prints for it.
-/
import proofs.«141770_j57226144252251_2_alg».proof.Proof.Gen.ReferenceIdeal.Read
import proofs.«141770_j57226144252251_2_alg».proof.Proof.Spec

noncomputable section

open scoped BigOperators

namespace Cert.RefValue

open Cert.ReferenceIdeal Cert.ReferenceIdeal.Gen Cert.ReferenceIdeal.Read Idealize.ShloMosaic Idealize.ShloMosaic.ValueIdx

/-! ## The index each stage reads, by coordinates -/

/-- The dense contraction reads x at (b, s, d) ... -/
theorem lidx_dense (b : Fin 4) (s o d : Fin 4096) : lidx_main_v0 (ix3 b s o) d = ix3 b s d :=
  funext fun a => Fin.ext (by match a with | ⟨0, _⟩ => rfl | ⟨1, _⟩ => rfl | ⟨2, _⟩ => rfl)

/-- ... and W at (o, d). -/
theorem ridx_dense (b : Fin 4) (s o d : Fin 4096) : ridx_main_v0 (ix3 b s o) d = ix2 o d :=
  funext fun a => Fin.ext (by match a with | ⟨0, _⟩ => rfl | ⟨1, _⟩ => rfl)

/-- The bias broadcast to [4, 4096, 4096] reads the row [1, 1, 4096] at (0, 0, o), which reads the bias at o. -/
theorem idx_bias (b : Fin 4) (s o : Fin 4096) : idx_main_v1 (idx_main_v2 (ix3 b s o)) = ix1 o :=
  funext fun a => Fin.ext (by match a with | ⟨0, _⟩ => rfl)

/-- The contraction of the gated hidden row with U reads the hidden row at (b, s, r) ... -/
theorem lidx_low (b : Fin 4) (s o : Fin 4096) (r : Fin 8) : lidx_main_v6 (ix3 b s o) r = ix3 b s r :=
  funext fun a => Fin.ext (by match a with | ⟨0, _⟩ => rfl | ⟨1, _⟩ => rfl | ⟨2, _⟩ => rfl)

/-- ... and U at (o, r). -/
theorem ridx_low (b : Fin 4) (s o : Fin 4096) (r : Fin 8) : ridx_main_v6 (ix3 b s o) r = ix2 o r :=
  funext fun a => Fin.ext (by match a with | ⟨0, _⟩ => rfl | ⟨1, _⟩ => rfl)

/-- The hidden row's contraction reads x at (b, s, d) ... -/
theorem lidx_hidden (b : Fin 4) (s d : Fin 4096) (r : Fin 8) : lidx_main_v4 (ix3 b s r) d = ix3 b s d :=
  funext fun a => Fin.ext (by match a with | ⟨0, _⟩ => rfl | ⟨1, _⟩ => rfl | ⟨2, _⟩ => rfl)

/-- ... and V at (d, r). -/
theorem ridx_hidden (b : Fin 4) (s d : Fin 4096) (r : Fin 8) : ridx_main_v4 (ix3 b s r) d = ix2 d r :=
  funext fun a => Fin.ext (by match a with | ⟨0, _⟩ => rfl | ⟨1, _⟩ => rfl)

/-! ## The last stage is the specification -/

/-- The reference's last stage, as a function of the six argument arrays, is the specification: at (b, s, o) the
    stages unfold to the dense sum plus the bias, plus the low-rank sum times the word of 2, with every index the one
    the specification names. -/
theorem val_eq_G (x0 : (⟨S4x4096x4096, .f32⟩ : BufTy).Contents (Elt Ideal)) (x1 : (⟨S4x4096x8, .f32⟩ : BufTy).Contents (Elt Ideal))
    (x2 : (⟨S4096x4096, .f32⟩ : BufTy).Contents (Elt Ideal)) (x3 : (⟨S4096, .f32⟩ : BufTy).Contents (Elt Ideal))
    (x4 x5 : (⟨S4096x8, .f32⟩ : BufTy).Contents (Elt Ideal)) :
    val_main_v9 (F := Ideal) x0 x1 x2 x3 x4 x5 = Cert.Spec.G x0 x1 x2 x3 x4 x5 := by
  funext i
  obtain ⟨b, s, o, rfl⟩ : ∃ (b : Fin 4) (s o : Fin 4096), i = ix3 b s o := ⟨i 0, i 1, i 2, eq_ix3 i⟩
  rw [Cert.Spec.G_apply, val_main_v9_apply, val_main_v3_apply, val_main_v0_apply, val_main_v2_apply, val_main_v1_apply,
    val_main_v8_apply, val_main_v6_apply, val_main_v7_apply, val_main_cst_apply]
  simp only [val_main_v5_apply, val_main_v4_apply, lidx_dense, ridx_dense, idx_bias, lidx_low, ridx_low, lidx_hidden,
    ridx_hidden, Ideal.addf_def, Ideal.mulf_def, Ideal.ofBits_def]
  rfl

end Cert.RefValue

end
-- ==== Proof.RefValue.lean ====
/-
  The reference's run ends at the specification.

  Every weakly fair execution of the reference terminates with its result array holding the composed term of its
  eleven operations applied to the argument arrays as they were at the start, and the arguments unchanged. That
  composed term is the reference's last stage, and the last stage, read entry by entry, is the shared specification
  of the six argument arrays. So the run ends with the result equal to the specification of the arguments.
-/
import proofs.«141770_j57226144252251_2_alg».proof.Proof.RefRead

noncomputable section

namespace Cert.RefValue

open Idealize.ShloMosaic Idealize.ShloMosaic.TcCoe Idealize.SL.Sem

/-- From any memory with zero counters the reference runs to the end, leaves in its result array the
    specification of its six argument arrays (activations, gates, dense weights, bias, and the two low-rank
    factors, in the order the program takes them), and leaves the arguments as they were. -/
theorem run [Cert.ReferenceIdeal.Facts]
    (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v9)
        = Cert.Spec.G (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run Cert.ReferenceIdeal.defs _ _).mono
    (fun _ h c => ⟨(h c).1.trans ((Cert.ReferenceIdeal.Read.val_main_v9_eq (F := Ideal) _ _ _ _ _ _).trans (val_eq_G _ _ _ _ _ _)), (h c).2⟩)
    (Cert.ReferenceIdeal.Value.run (F := Ideal) m' ρ')

end Cert.RefValue

end
-- ==== Proof.lean ====
/-
  A dense layer with a gated low-rank update, as one tiled kernel against plain einsums.

  The kernel walks an 8 x 8 x 8 grid (row band i, output-channel band j, input-channel band k). For each (i, j) it
  clears its output block at k = 0 and adds one band of x W^T per step; during the j = 0 sweep it also builds the
  hidden block x V band by band in a buffer of its own, gates it by `codes` at k = 7, and keeps it for the sweeps
  j > 0; at every k = 7 it adds (hidden U^T) * 2 + bias to the output block, which is then written back. The
  reference computes (x W^T + bias) + ((x V * codes) U^T) * 2 with whole sums.

  On the extended reals the two agree entry by entry with no finiteness assumed: a sum of 4096 terms added up in 8
  bands onto 0 is the sum (addition is commutative and associative there), the format changes are the identity,
  and the last three terms are regrouped by commutativity and associativity alone (Spec.lean states the common
  function; KI_Closed.lean the kernel's closed form and its agreement with it).

  The frames: each program runs to the end without a fault and leaves its arguments as they were. For the kernel
  (at the word level and idealized alike: the proof is generic in the float instance) the body is run once per case
  of its five conditionals — six cases meet the grid — and the region's invariant tracks the hidden block from point
  to point (K_Frame.lean, KI_Frame.lean). What the blocks hold after each point is then read in closed form by
  induction over the 512 points (KI_Inv.lean, KI_Step.lean), the written-back blocks tile the result
  (KernelBlocks.lean), and the host's reshapes and conversions around the call are read at an index
  (KernelHost.lean, KI_Final.lean). The idealization rewrote nothing, so there is nothing to preserve.
-/
import proofs.«141770_j57226144252251_2_alg».proof.Defs
import proofs.«141770_j57226144252251_2_alg».proof.Proof.Gen.Kernel
import proofs.«141770_j57226144252251_2_alg».proof.Proof.Gen.KernelIdeal
import proofs.«141770_j57226144252251_2_alg».proof.Proof.Gen.ReferenceIdeal
import proofs.«141770_j57226144252251_2_alg».proof.Proof.Gen.ReferenceIdeal.Run
import proofs.«141770_j57226144252251_2_alg».proof.Proof.Gen.ReferenceIdeal.Read
import proofs.«141770_j57226144252251_2_alg».proof.Proof.Gen.Pre_finite_inputs
import proofs.«141770_j57226144252251_2_alg».proof.Proof.K_Frame
import proofs.«141770_j57226144252251_2_alg».proof.Proof.KI_Frame
import proofs.«141770_j57226144252251_2_alg».proof.Proof.KI_Step
import proofs.«141770_j57226144252251_2_alg».proof.Proof.KI_Final
import proofs.«141770_j57226144252251_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Body.frame (F := Bits) m ρ

theorem frame_kernelIdeal : Cert.frame_KernelIdeal := fun m ρ _ => Cert.KernelIdeal.Body.frame (F := Ideal) m ρ

/-- The reference has no kernel call: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the specification's function of the (agreeing) arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Val.run m (fun c a ha => Cert.KernelIdeal.Val.good_outsAt m c a ha) ρ, ?_⟩
  refine (θ_run Cert.ReferenceIdeal.defs _ _).mono (fun _ h c => ⟨(h c).1.trans ?_, (h c).2⟩) (Cert.RefValue.run m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
